-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x8 : Shape := ⟨3, ![128, 512, 8]⟩
abbrev S128x512 : Shape := ⟨2, ![128, 512]⟩
abbrev S8x128 : Shape := ⟨2, ![8, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S3x256x128 : Shape := ⟨3, ![3, 256, 128]⟩
abbrev S_ : Shape := ⟨0, ![]⟩

class Facts : Prop where
  bcast_S_S128x512x8 : S_.BroadcastsInDim S128x512x8 (![] : Fin 0 → Fin S128x512x8.rank)
  reducesTo_S128x512x8_S_d0_1_2 : S128x512x8.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x256x128 : S_.BroadcastsInDim S3x256x128 (![] : Fin 0 → Fin S3x256x128.rank)
  reducesTo_S3x256x128_S_d0_1_2 : S3x256x128.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S3x128 .f32) (main_arg8 : FVec F S3x256x128 .f32) (main_arg9 : FVec F S3x128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x256x128 .f32 := Host.absf main_arg8
  let main_cst_14 : FVec F S_ .f32 := constant S_ .f32 0x7F800000#32
  let main_v40 : FVec F S3x256x128 .f32 := broadcastInDim S3x256x128 ![] bcast_S_S3x256x128 main_cst_14
  let main_v41 : IVec S3x256x128 1 := cmpf .olt main_v39 main_v40
  let main_c_15 : IVec S_ 1 := constantI S_ 1 1#1
  let main_v42 : IVec S_ 1 := (fun x v => Host.reduce IntOp.andi x v reducesTo_S3x256x128_S_d0_1_2 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S3x128x128 .f32) (main_arg7 : FVec F S3x128 .f32) (main_arg8 : FVec F S3x256x128 .f32) (main_arg9 : FVec F S3x128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg6
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S128x512x8 .f32) (main_arg1 : FVec F S128x512 .f32) (main_arg2 : FVec F S8x128 .f32) (main_arg3 : FVec F S128 .f32) (main_arg4 : FVec F S128x128 .f32) (main_arg5 : FVec F S128 .f32) (main_arg6 : FVec F S3x128x128 .f32) (main_arg7 : FVec F S3x128 .f32) (main_arg8 : FVec F S3x256x128 .f32) (main_arg9 : FVec F S3x128 .f32) (main_arg10 : FVec F S128x128 .f32) (main_arg11 : FVec F S128 .f32) (main_arg12 : FVec F S128x128 .f32) (main_arg13 : FVec F S128 .f32) : IVec S_ 1 :=
  let main_v0 : FVec F S128x512x8 .f32 := Host.absf main_arg0
  let main_cst : FVec F S_ .f32 := constant S_ .f32 0x7F800000#32
  let main_v1 : FVec F S128x512x8 .f32 := broadcastInDim S128x512x8 ![] bcast_S_S128x512x8 main_cst
  let main_v2 : IVec S128x512x8 1 := cmpf .olt main_v0 main_v1
  let main_c : IVec S_ 1 := constantI S_ 1 1#1
  let main_v3 : IVec S_ 1 := (fun x v => Host.reduce IntOp.andi x v reducesTo_S128x512x8_S_d0_1_2 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S128x512x8 : Shape := ⟨3, ![128, 512, 8]⟩
abbrev S128x512 : Shape := ⟨2, ![128, 512]⟩
abbrev S8x128 : Shape := ⟨2, ![8, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S3x256x128 : Shape := ⟨3, ![3, 256, 128]⟩
abbrev S128x1x512 : Shape := ⟨3, ![128, 1, 512]⟩
abbrev S128x1x128 : Shape := ⟨3, ![128, 1, 128]⟩
abbrev S4x512x8 : Shape := ⟨3, ![4, 512, 8]⟩
abbrev S4x1x512 : Shape := ⟨3, ![4, 1, 512]⟩
abbrev S4x1x128 : Shape := ⟨3, ![4, 1, 128]⟩
abbrev S4x512x1 : Shape := ⟨3, ![4, 512, 1]⟩
abbrev S2048x8 : Shape := ⟨2, ![2048, 8]⟩
abbrev S2048x128 : Shape := ⟨2, ![2048, 128]⟩
abbrev S1x128 : Shape := ⟨2, ![1, 128]⟩
abbrev S4x512x128 : Shape := ⟨3, ![4, 512, 128]⟩
abbrev S4x512 : Shape := ⟨2, ![4, 512]⟩
abbrev S4x512x512 : Shape := ⟨3, ![4, 512, 512]⟩
abbrev S1x128x128 : Shape := ⟨3, ![1, 128, 128]⟩
abbrev S1x256x128 : Shape := ⟨3, ![1, 256, 128]⟩
abbrev S256x128 : Shape := ⟨2, ![256, 128]⟩
abbrev S4x128 : Shape := ⟨2, ![4, 128]⟩

abbrev nBuf : Space → Nat
  | .hbm => 17
  | .vmem => 18
  | .smem => 0
  | _ => 0

abbrev bufTy : (tb : Table) → Fin (tcTables nBuf tb) → BufTy
  | .hbm, ⟨0, _⟩ => ⟨S128x512x8, .f32⟩
  | .hbm, ⟨1, _⟩ => ⟨S128x512, .f32⟩
  | .hbm, ⟨2, _⟩ => ⟨S8x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S3x128x128, .f32⟩
  | .hbm, ⟨7, _⟩ => ⟨S3x128, .f32⟩
  | .hbm, ⟨8, _⟩ => ⟨S3x256x128, .f32⟩
  | .hbm, ⟨9, _⟩ => ⟨S3x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1x512, .f32⟩
  | .hbm, ⟨15, _⟩ => ⟨S128x1x128, .f32⟩
  | .hbm, ⟨16, _⟩ => ⟨S128x128, .f32⟩
  | .local _ .vmem, ⟨0, _⟩ => ⟨S4x512x8, .f32⟩
  | .local _ .vmem, ⟨1, _⟩ => ⟨S4x512x8, .f32⟩
  | .local _ .vmem, ⟨2, _⟩ => ⟨S4x1x512, .f32⟩
  | .local _ .vmem, ⟨3, _⟩ => ⟨S4x1x512, .f32⟩
  | .local _ .vmem, ⟨4, _⟩ => ⟨S8x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S3x128x128, .f32⟩
  | .local _ .vmem, ⟨9, _⟩ => ⟨S3x128, .f32⟩
  | .local _ .vmem, ⟨10, _⟩ => ⟨S3x256x128, .f32⟩
  | .local _ .vmem, ⟨11, _⟩ => ⟨S3x128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S4x1x128, .f32⟩
  | .local _ .vmem, ⟨17, _⟩ => ⟨S4x1x128, .f32⟩
  | _, _ => ⟨S128x512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S128x512_S128x1x512 : S128x512.ShapeCasts S128x1x512
  inb_S4x512x8_S4x512x8_0_0_0 : ∀ a, (![0, 0, 0] : Fin 3 → Nat) a + S4x512x8.size a ≤ S4x512x8.size a
  h_S4x512x8 : 0 < S4x512x8.numel
  inb_S4x1x512_S4x1x512_0_0_0 : ∀ a, (![0, 0, 0] : Fin 3 → Nat) a + S4x1x512.size a ≤ S4x1x512.size a
  h_S4x1x512 : 0 < S4x1x512.numel
  shapeCasts_S4x1x512_S4x1x512 : S4x1x512.ShapeCasts S4x1x512
  transposes_S4x1x512_p0_2_1_S4x512x1 : S4x1x512.Transposes [0, 2, 1] S4x512x1
  bitsLt_bf16_f32 : FTy.bits .bf16 < FTy.bits .f32
  shapeCasts_S4x512x8_S2048x8 : S4x512x8.ShapeCasts S2048x8
  inb_S8x128_S8x128_0_0 : ∀ a, (![0, 0] : Fin 2 → Nat) a + S8x128.size a ≤ S8x128.size a
  h_S8x128 : 0 < S8x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  shapeCasts_S2048x128_S4x512x128 : S2048x128.ShapeCasts S4x512x128
  reduces_S4x512x8_S4x512 : S4x512x8.Reduces [2] S4x512
  shapeCasts_S4x512_S4x512x1 : S4x512.ShapeCasts S4x512x1
  transposes_S4x512x1_p0_2_1_S4x1x512 : S4x512x1.Transposes [0, 2, 1] S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  inb_S3x256x128_S1x256x128_0_0_0 : ∀ a, (![0, 0, 0] : Fin 3 → Nat) a + S1x256x128.size a ≤ S3x256x128.size a
  h_S1x256x128 : 0 < S1x256x128.numel
  shapeCasts_S1x256x128_S256x128 : S1x256x128.ShapeCasts S256x128
  slices_S256x128_o0_0_S128x128 : S256x128.Slices ![0, 0] S128x128
  slices_S256x128_o128_0_S128x128 : S256x128.Slices ![128, 0] S128x128
  shapeCasts_S4x512x128_S2048x128 : S4x512x128.ShapeCasts S2048x128
  broadcasts_S4x512x1_S4x512x128 : S4x512x1.Broadcasts S4x512x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x256x128_S1x256x128_1_0_0 : ∀ a, (![1, 0, 0] : Fin 3 → Nat) a + S1x256x128.size a ≤ S3x256x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S3x256x128_S1x256x128_2_0_0 : ∀ a, (![2, 0, 0] : Fin 3 → Nat) a + S1x256x128.size a ≤ S3x256x128.size a
  reduces_S4x512x128_S4x128 : S4x512x128.Reduces [1] S4x128
  broadcasts_S1x128_S4x128 : S1x128.Broadcasts S4x128
  shapeCasts_S4x128_S4x1x128 : S4x128.ShapeCasts S4x1x128
  inb_S4x1x128_S4x1x128_0_0_0 : ∀ a, (![0, 0, 0] : Fin 3 → Nat) a + S4x1x128.size a ≤ S4x1x128.size a
  h_S4x1x128 : 0 < S4x1x128.numel
  shapeCasts_S128x1x128_S128x128 : S128x1x128.ShapeCasts S128x128
  dot_S2048x8_S8x128_S2048x128_1_0_0_1_n_n_wf : DotDims.WF S2048x8 S8x128 S2048x128 [1] [0] [0] [1] [] []
  dot_S2048x128_S128x128_S2048x128_1_0_0_1_n_n_wf : DotDims.WF S2048x128 S128x128 S2048x128 [1] [0] [0] [1] [] []
  dot_S4x512x8_S4x512x8_S4x512x512_2_2_1_1_0_0_wf : DotDims.WF S4x512x8 S4x512x8 S4x512x512 [2] [2] [1] [1] [0] [0]
  dot_S4x512x512_S4x512x128_S4x512x128_2_1_1_2_0_0_wf : DotDims.WF S4x512x512 S4x512x128 S4x512x128 [2] [1] [1] [2] [0] [0]
  dot_S4x128_S128x128_S4x128_1_0_0_1_n_n_wf : DotDims.WF S4x128 S128x128 S4x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x8.size a ≤ S128x512x8.size a
  hwx0_0 : ∀ i : grid0.Coords, EltTy.bits .f32 = 32 ∨ (Rect.block (s := S128x512x8) S4x512x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x512.size a ≤ S128x1x512.size a
  hwx0_1 : ∀ i : grid0.Coords, EltTy.bits .f32 = 32 ∨ (Rect.block (s := S128x1x512) S4x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x128x128.size a ≤ S3x128x128.size a
  hwx0_6 : ∀ i : grid0.Coords, EltTy.bits .f32 = 32 ∨ (Rect.block (s := S3x128x128) S3x128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x128.size a ≤ S3x128.size a
  hwx0_7 : ∀ i : grid0.Coords, EltTy.bits .f32 = 32 ∨ (Rect.block (s := S3x128) S3x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x256x128.size a ≤ S3x256x128.size a
  hwx0_8 : ∀ i : grid0.Coords, EltTy.bits .f32 = 32 ∨ (Rect.block (s := S3x256x128) S3x256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x128.size a ≤ S3x128.size a
  hwx0_9 : ∀ i : grid0.Coords, EltTy.bits .f32 = 32 ∨ (Rect.block (s := S3x128) S3x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4x1x128.size a ≤ S128x1x128.size a
  hwx0_14 : ∀ i : grid0.Coords, EltTy.bits .f32 = 32 ∨ (Rect.block (s := S128x1x128) S4x1x128.size (cc0_transform_14 i) (hinb0_14 i)).WholeWords (EltTy.packing .f32)

variable [Facts₀]

def dot_S2048x8_S8x128_S2048x128_1_0_0_1_n_n : DotDims S2048x8 S8x128 S2048x128 where
  lhsContracting := [1]
  rhsContracting := [0]
  lhsNonContracting := [0]
  rhsNonContracting := [1]
  lhsBatch := []
  rhsBatch := []
  wf := dot_S2048x8_S8x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S4x512x8_S4x512x8_S4x512x512_2_2_1_1_0_0 : DotDims S4x512x8 S4x512x8 S4x512x512 where
  lhsContracting := [2]
  rhsContracting := [2]
  lhsNonContracting := [1]
  rhsNonContracting := [1]
  lhsBatch := [0]
  rhsBatch := [0]
  wf := dot_S4x512x8_S4x512x8_S4x512x512_2_2_1_1_0_0_wf
def dot_S4x512x512_S4x512x128_S4x512x128_2_1_1_2_0_0 : DotDims S4x512x512 S4x512x128 S4x512x128 where
  lhsContracting := [2]
  rhsContracting := [1]
  lhsNonContracting := [1]
  rhsNonContracting := [2]
  lhsBatch := [0]
  rhsBatch := [0]
  wf := dot_S4x512x512_S4x512x128_S4x512x128_2_1_1_2_0_0_wf
def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf

abbrev win0_0 : Pipeline.Window sig grid0 :=
  Pipeline.Window.ofSpec (Memref.whole main_arg0) S4x512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3x256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S3x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v1) S4x1x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x512x8 : Shape := ⟨3, ![128, 512, 8]⟩
abbrev S128x512 : Shape := ⟨2, ![128, 512]⟩
abbrev S8x128 : Shape := ⟨2, ![8, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S3x256x128 : Shape := ⟨3, ![3, 256, 128]⟩
abbrev S128x512x128 : Shape := ⟨3, ![128, 512, 128]⟩
abbrev S1x1x128 : Shape := ⟨3, ![1, 1, 128]⟩
abbrev S_ : Shape := ⟨0, ![]⟩
abbrev S128x512x1 : Shape := ⟨3, ![128, 512, 1]⟩
abbrev S128x1x512 : Shape := ⟨3, ![128, 1, 512]⟩
abbrev S128x512x512 : Shape := ⟨3, ![128, 512, 512]⟩
abbrev S1x128x128 : Shape := ⟨3, ![1, 128, 128]⟩
abbrev S1x128 : Shape := ⟨2, ![1, 128]⟩
abbrev S128x512x256 : Shape := ⟨3, ![128, 512, 256]⟩
abbrev S1x256x128 : Shape := ⟨3, ![1, 256, 128]⟩
abbrev S256x128 : Shape := ⟨2, ![256, 128]⟩

abbrev nBuf : Space → Nat
  | .hbm => 162
  | .vmem => 0
  | .smem => 0
  | _ => 0

abbrev hbmTy0_0 (i : Nat) : BufTy := match i % 128 with
  | 0 => ⟨S128x512x8, .f32⟩
  | 1 => ⟨S128x512, .f32⟩
  | 2 => ⟨S8x128, .f32⟩
  | 3 => ⟨S128, .f32⟩
  | 4 => ⟨S128x128, .f32⟩
  | 5 => ⟨S128, .f32⟩
  | 6 => ⟨S3x128x128, .f32⟩
  | 7 => ⟨S3x128, .f32⟩
  | 8 => ⟨S3x256x128, .f32⟩
  | 9 => ⟨S3x128, .f32⟩
  | 10 => ⟨S128x128, .f32⟩
  | 11 => ⟨S128, .f32⟩
  | 12 => ⟨S128x128, .f32⟩
  | 13 => ⟨S128, .f32⟩
  | 14 => ⟨S128x512x128, .f32⟩
  | 15 => ⟨S1x1x128, .f32⟩
  | 16 => ⟨S128x512x128, .f32⟩
  | 17 => ⟨S128x512x128, .f32⟩
  | 18 => ⟨S_, .f32⟩
  | 19 => ⟨S128x512x128, .f32⟩
  | 20 => ⟨S128x512x128, .f32⟩
  | 21 => ⟨S128x512x128, .f32⟩
  | 22 => ⟨S1x1x128, .f32⟩
  | 23 => ⟨S128x512x128, .f32⟩
  | 24 => ⟨S128x512x128, .f32⟩
  | 25 => ⟨S_, .f32⟩
  | 26 => ⟨S128x512x128, .f32⟩
  | 27 => ⟨S128x512x128, .f32⟩
  | 28 => ⟨S128x512x8, .f32⟩
  | 29 => ⟨S_, .f32⟩
  | 30 => ⟨S128x512, .f32⟩
  | 31 => ⟨S128x512x1, .f32⟩
  | 32 => ⟨S128x1x512, .f32⟩
  | 33 => ⟨S128x512x512, .f32⟩
  | 34 => ⟨S128x512x512, .f32⟩
  | 35 => ⟨S128x512x512, .f32⟩
  | 36 => ⟨S128x512x512, .f32⟩
  | 37 => ⟨S_, .f32⟩
  | 38 => ⟨S128x512x512, .f32⟩
  | 39 => ⟨S128x512x512, .f32⟩
  | 40 => ⟨S128x512x512, .f32⟩
  | 41 => ⟨S128x512x512, .f32⟩
  | 42 => ⟨S128x1x512, .f32⟩
  | 43 => ⟨S_, .f32⟩
  | 44 => ⟨S128x1x512, .f32⟩
  | 45 => ⟨S128x1x512, .i1⟩
  | 46 => ⟨S_, .f32⟩
  | 47 => ⟨S_, .f32⟩
  | 48 => ⟨S128x1x512, .f32⟩
  | 49 => ⟨S128x1x512, .f32⟩
  | 50 => ⟨S128x1x512, .f32⟩
  | 51 => ⟨S128x1x512, .f32⟩
  | 52 => ⟨S128x512x512, .f32⟩
  | 53 => ⟨S128x512x512, .f32⟩
  | 54 => ⟨S_, .f32⟩
  | 55 => ⟨S128x512, .f32⟩
  | 56 => ⟨S_, .f32⟩
  | 57 => ⟨S128x512, .f32⟩
  | 58 => ⟨S128x512, .f32⟩
  | 59 => ⟨S128x512x1, .f32⟩
  | 60 => ⟨S128x512x512, .f32⟩
  | 61 => ⟨S128x512x512, .f32⟩
  | 62 => ⟨S128x512x512, .f32⟩
  | 63 => ⟨S_, .f32⟩
  | 64 => ⟨S128x512, .f32⟩
  | 65 => ⟨S128x512x1, .f32⟩
  | 66 => ⟨S128x512x512, .f32⟩
  | 67 => ⟨S128x512x512, .f32⟩
  | 68 => ⟨S128x512x1, .f32⟩
  | 69 => ⟨S1x128x128, .f32⟩
  | 70 => ⟨S128x128, .f32⟩
  | 71 => ⟨S128x512x128, .f32⟩
  | 72 => ⟨S1x128, .f32⟩
  | 73 => ⟨S128, .f32⟩
  | 74 => ⟨S1x1x128, .f32⟩
  | 75 => ⟨S128x512x128, .f32⟩
  | 76 => ⟨S128x512x128, .f32⟩
  | 77 => ⟨S_, .f32⟩
  | 78 => ⟨S128x512x128, .f32⟩
  | 79 => ⟨S128x512x128, .f32⟩
  | 80 => ⟨S128x512x128, .f32⟩
  | 81 => ⟨S128x512x256, .f32⟩
  | 82 => ⟨S1x256x128, .f32⟩
  | 83 => ⟨S256x128, .f32⟩
  | 84 => ⟨S128x512x128, .f32⟩
  | 85 => ⟨S1x128, .f32⟩
  | 86 => ⟨S128, .f32⟩
  | 87 => ⟨S1x1x128, .f32⟩
  | 88 => ⟨S128x512x128, .f32⟩
  | 89 => ⟨S128x512x128, .f32⟩
  | 90 => ⟨S_, .f32⟩
  | 91 => ⟨S128x512x128, .f32⟩
  | 92 => ⟨S128x512x128, .f32⟩
  | 93 => ⟨S128x512x128, .f32⟩
  | 94 => ⟨S128x512x128, .f32⟩
  | 95 => ⟨S1x128x128, .f32⟩
  | 96 => ⟨S128x128, .f32⟩
  | 97 => ⟨S128x512x128, .f32⟩
  | 98 => ⟨S1x128, .f32⟩
  | 99 => ⟨S128, .f32⟩
  | 100 => ⟨S1x1x128, .f32⟩
  | 101 => ⟨S128x512x128, .f32⟩
  | 102 => ⟨S128x512x128, .f32⟩
  | 103 => ⟨S_, .f32⟩
  | 104 => ⟨S128x512x128, .f32⟩
  | 105 => ⟨S128x512x128, .f32⟩
  | 106 => ⟨S128x512x128, .f32⟩
  | 107 => ⟨S128x512x256, .f32⟩
  | 108 => ⟨S1x256x128, .f32⟩
  | 109 => ⟨S256x128, .f32⟩
  | 110 => ⟨S128x512x128, .f32⟩
  | 111 => ⟨S1x128, .f32⟩
  | 112 => ⟨S128, .f32⟩
  | 113 => ⟨S1x1x128, .f32⟩
  | 114 => ⟨S128x512x128, .f32⟩
  | 115 => ⟨S128x512x128, .f32⟩
  | 116 => ⟨S_, .f32⟩
  | 117 => ⟨S128x512x128, .f32⟩
  | 118 => ⟨S128x512x128, .f32⟩
  | 119 => ⟨S128x512x128, .f32⟩
  | 120 => ⟨S128x512x128, .f32⟩
  | 121 => ⟨S1x128x128, .f32⟩
  | 122 => ⟨S128x128, .f32⟩
  | 123 => ⟨S128x512x128, .f32⟩
  | 124 => ⟨S1x128, .f32⟩
  | 125 => ⟨S128, .f32⟩
  | 126 => ⟨S1x1x128, .f32⟩
  | 127 => ⟨S128x512x128, .f32⟩
  | _ => ⟨S128x512x8, .f32⟩

abbrev hbmTy0_1 (i : Nat) : BufTy := match i % 128 with
  | 0 => ⟨S128x512x128, .f32⟩
  | 1 => ⟨S_, .f32⟩
  | 2 => ⟨S128x512x128, .f32⟩
  | 3 => ⟨S128x512x128, .f32⟩
  | 4 => ⟨S128x512x128, .f32⟩
  | 5 => ⟨S128x512x256, .f32⟩
  | 6 => ⟨S1x256x128, .f32⟩
  | 7 => ⟨S256x128, .f32⟩
  | 8 => ⟨S128x512x128, .f32⟩
  | 9 => ⟨S1x128, .f32⟩
  | 10 => ⟨S128, .f32⟩
  | 11 => ⟨S1x1x128, .f32⟩
  | 12 => ⟨S128x512x128, .f32⟩
  | 13 => ⟨S128x512x128, .f32⟩
  | 14 => ⟨S_, .f32⟩
  | 15 => ⟨S128x512x128, .f32⟩
  | 16 => ⟨S128x512x128, .f32⟩
  | 17 => ⟨S128x512x128, .f32⟩
  | 18 => ⟨S128x512x128, .f32⟩
  | 19 => ⟨S128x512x128, .f32⟩
  | 20 => ⟨S128x512x128, .f32⟩
  | 21 => ⟨S_, .f32⟩
  | 22 => ⟨S128x128, .f32⟩
  | 23 => ⟨S128x128, .f32⟩
  | 24 => ⟨S1x128, .f32⟩
  | 25 => ⟨S128x128, .f32⟩
  | 26 => ⟨S128x128, .f32⟩
  | 27 => ⟨S_, .f32⟩
  | 28 => ⟨S128x128, .f32⟩
  | 29 => ⟨S128x128, .f32⟩
  | 30 => ⟨S128x128, .f32⟩
  | 31 => ⟨S1x128, .f32⟩
  | 32 => ⟨S128x128, .f32⟩
  | 33 => ⟨S128x128, .f32⟩
  | _ => ⟨S128x512x8, .f32⟩

abbrev hbmTy (i : Nat) : BufTy := match i / 128 with
  | 0 => hbmTy0_0 i
  | 1 => hbmTy0_1 i
  | _ => ⟨S128x512x8, .f32⟩

abbrev bufTy : (tb : Table) → Fin (tcTables nBuf tb) → BufTy
  | .hbm, ⟨i, _⟩ => hbmTy i
  | _, _ => ⟨S128x512x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_cst_3 : Ref sig .tc := ⟨.hbm, 47, rfl⟩
abbrev main_call2_v0 : Ref sig .tc := ⟨.hbm, 48, rfl⟩
abbrev main_call2_v1 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_cst_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call3_cst : Ref sig .tc := ⟨.hbm, 77, rfl⟩
abbrev main_call3_v0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call4_cst : Ref sig .tc := ⟨.hbm, 90, rfl⟩
abbrev main_call4_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call5_cst : Ref sig .tc := ⟨.hbm, 103, rfl⟩
abbrev main_call5_v0 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call6_cst : Ref sig .tc := ⟨.hbm, 116, rfl⟩
abbrev main_call6_v0 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_call7_cst : Ref sig .tc := ⟨.hbm, 129, rfl⟩
abbrev main_call7_v0 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_call8_cst : Ref sig .tc := ⟨.hbm, 142, rfl⟩
abbrev main_call8_v0 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_7 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_call9_cst : Ref sig .tc := ⟨.hbm, 155, rfl⟩
abbrev main_call9_v0 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S128x512x128_0_1_2 : S1x1x128.BroadcastsInDim S128x512x128 (![0, 1, 2] : Fin 3 → Fin S128x512x128.rank)
  bcast_S_S128x512x128 : S_.BroadcastsInDim S128x512x128 (![] : Fin 0 → Fin S128x512x128.rank)
  reducesTo_S128x512x8_S128x512_d2 : S128x512x8.ReducesTo [2] S128x512
  h_S_ : 0 < S_.numel
  bcast_S128x512_S128x512x1_0_1 : S128x512.BroadcastsInDim S128x512x1 (![0, 1] : Fin 2 → Fin S128x512x1.rank)
  bcast_S128x512_S128x1x512_0_2 : S128x512.BroadcastsInDim S128x1x512 (![0, 2] : Fin 2 → Fin S128x1x512.rank)
  bcast_S128x512x1_S128x512x512_0_1_2 : S128x512x1.BroadcastsInDim S128x512x512 (![0, 1, 2] : Fin 3 → Fin S128x512x512.rank)
  bcast_S128x1x512_S128x512x512_0_1_2 : S128x1x512.BroadcastsInDim S128x512x512 (![0, 1, 2] : Fin 3 → Fin S128x512x512.rank)
  bcast_S_S128x512x512 : S_.BroadcastsInDim S128x512x512 (![] : Fin 0 → Fin S128x512x512.rank)
  bcast_S_S128x1x512 : S_.BroadcastsInDim S128x1x512 (![] : Fin 0 → Fin S128x1x512.rank)
  reducesTo_S128x512x512_S128x512_d2 : S128x512x512.ReducesTo [2] S128x512
  bcast_S_S128x512 : S_.BroadcastsInDim S128x512 (![] : Fin 0 → Fin S128x512.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  concatenates_S128x512x128_S128x512x128_S128x512x256_d2 : Shape.Concatenates [S128x512x128, S128x512x128] S128x512x256 2
  slices_S3x256x128_S1x256x128_0_0_0 : S3x256x128.Slices ![0, 0, 0] S1x256x128
  shapeCasts_S1x256x128_S256x128 : S1x256x128.ShapeCasts S256x128
  bcast_S128x512x1_S128x512x128_0_1_2 : S128x512x1.BroadcastsInDim S128x512x128 (![0, 1, 2] : Fin 3 → Fin S128x512x128.rank)
  slices_S3x128x128_S1x128x128_1_0_0 : S3x128x128.Slices ![1, 0, 0] S1x128x128
  slices_S3x128_S1x128_1_0 : S3x128.Slices ![1, 0] S1x128
  slices_S3x256x128_S1x256x128_1_0_0 : S3x256x128.Slices ![1, 0, 0] S1x256x128
  slices_S3x128x128_S1x128x128_2_0_0 : S3x128x128.Slices ![2, 0, 0] S1x128x128
  slices_S3x128_S1x128_2_0 : S3x128.Slices ![2, 0] S1x128
  slices_S3x256x128_S1x256x128_2_0_0 : S3x256x128.Slices ![2, 0, 0] S1x256x128
  reducesTo_S128x512x128_S128x128_d1 : S128x512x128.ReducesTo [1] S128x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  dot_S128x512x8_S8x128_S128x512x128_2_0_01_1_n_n_wf : DotDims.WF S128x512x8 S8x128 S128x512x128 [2] [0] [0, 1] [1] [] []
  dot_S128x512x128_S128x128_S128x512x128_2_0_01_1_n_n_wf : DotDims.WF S128x512x128 S128x128 S128x512x128 [2] [0] [0, 1] [1] [] []
  dot_S128x512x8_S128x512x8_S128x512x512_2_2_1_1_0_0_wf : DotDims.WF S128x512x8 S128x512x8 S128x512x512 [2] [2] [1] [1] [0] [0]
  dot_S128x512x512_S128x512x128_S128x512x128_2_1_1_2_0_0_wf : DotDims.WF S128x512x512 S128x512x128 S128x512x128 [2] [1] [1] [2] [0] [0]
  dot_S128x512x256_S256x128_S128x512x128_2_0_01_1_n_n_wf : DotDims.WF S128x512x256 S256x128 S128x512x128 [2] [0] [0, 1] [1] [] []
  dot_S128x128_S128x128_S128x128_1_0_0_1_n_n_wf : DotDims.WF S128x128 S128x128 S128x128 [1] [0] [0] [1] [] []

variable [Facts₀]

def dot_S128x512x8_S8x128_S128x512x128_2_0_01_1_n_n : DotDims S128x512x8 S8x128 S128x512x128 where
  lhsContracting := [2]
  rhsContracting := [0]
  lhsNonContracting := [0, 1]
  rhsNonContracting := [1]
  lhsBatch := []
  rhsBatch := []
  wf := dot_S128x512x8_S8x128_S128x512x128_2_0_01_1_n_n_wf
def dot_S128x512x128_S128x128_S128x512x128_2_0_01_1_n_n : DotDims S128x512x128 S128x128 S128x512x128 where
  lhsContracting := [2]
  rhsContracting := [0]
  lhsNonContracting := [0, 1]
  rhsNonContracting := [1]
  lhsBatch := []
  rhsBatch := []
  wf := dot_S128x512x128_S128x128_S128x512x128_2_0_01_1_n_n_wf
def dot_S128x512x8_S128x512x8_S128x512x512_2_2_1_1_0_0 : DotDims S128x512x8 S128x512x8 S128x512x512 where
  lhsContracting := [2]
  rhsContracting := [2]
  lhsNonContracting := [1]
  rhsNonContracting := [1]
  lhsBatch := [0]
  rhsBatch := [0]
  wf := dot_S128x512x8_S128x512x8_S128x512x512_2_2_1_1_0_0_wf
def dot_S128x512x512_S128x512x128_S128x512x128_2_1_1_2_0_0 : DotDims S128x512x512 S128x512x128 S128x512x128 where
  lhsContracting := [2]
  rhsContracting := [1]
  lhsNonContracting := [1]
  rhsNonContracting := [2]
  lhsBatch := [0]
  rhsBatch := [0]
  wf := dot_S128x512x512_S128x512x128_S128x512x128_2_1_1_2_0_0_wf
def dot_S128x512x256_S256x128_S128x512x128_2_0_01_1_n_n : DotDims S128x512x256 S256x128 S128x512x128 where
  lhsContracting := [2]
  rhsContracting := [0]
  lhsNonContracting := [0, 1]
  rhsNonContracting := [1]
  lhsBatch := []
  rhsBatch := []
  wf := dot_S128x512x256_S256x128_S128x512x128_2_0_01_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

class Facts : Prop extends Facts₀ where

variable [Facts]
-- ==== Proof.RefRun.lean ====
/-
  The array program's run, read back.

  @main of the array program is a straight line of 148 host operations (the operations of the functions it calls —
  the rectifier, the masked select — standing in their calls' places).  Every weakly fair execution of it terminates
  with each buffer at what the line's operations, composed, make of the launch contents (`StableHlo.run_seq`).
  What the RESULT buffer then holds is read off in seven stretches — the embedding; the logits; the softmax that
  makes the adjacency; the first round (with the per-point weights laid out as a column); the second round; the
  third; the pooled readout — because the embedding, the adjacency, the weight column and each round's state are
  each read several times further down the line: a stretch's lemma takes the values it reads from earlier stretches
  as hypotheses and states the value it produces, as the stage `val_main_vN` of the operations read one at a time,
  so no value is ever written out twice.  A buffer that a stretch does not write keeps its contents (`keepK_…`):
  that carries each value from the stretch that makes it to the stretches that read it, and the argument arrays,
  which no operation writes, through the whole line.
-/
import proofs.«130221_j58248346468777_2_alg».proof.Proof.RefRunP
import proofs.«130221_j58248346468777_2_alg».proof.Proof.RefReadP

-- a stretch of some twenty-five operations is rewritten one operation and one reference at a time
set_option maxHeartbeats 4000000

noncomputable section

namespace Cert.ReferenceIdeal.NmpRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## What each stretch makes -/

theorem embed_eq (W : Valuation τ sig (Elt F)) (x0 : (⟨S128x512x8, .f32⟩ : BufTy).Contents (Elt F)) (x2 : (⟨S8x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F))
    (ha0 : W (Proc.devRef .tc main_arg0) = x0) (ha2 : W (Proc.devRef .tc main_arg2) = x2) (ha3 : W (Proc.devRef .tc main_arg3) = x3) (ha4 : W (Proc.devRef .tc main_arg4) = x4) (ha5 : W (Proc.devRef .tc main_arg5) = x5) :
    after (ops1 (F := F)) W (Proc.devRef .tc main_v9) = Cert.ReferenceIdeal.ReadP.val_main_v9 (F := F) x0 x2 x3 x4 x5 := by
  after_results
  rw [ha0, ha2, ha3, ha4, ha5]
  rfl

theorem logit_eq (W : Valuation τ sig (Elt F)) (x0 : (⟨S128x512x8, .f32⟩ : BufTy).Contents (Elt F)) (x1 : (⟨S128x512, .f32⟩ : BufTy).Contents (Elt F))
    (ha0 : W (Proc.devRef .tc main_arg0) = x0) (ha1 : W (Proc.devRef .tc main_arg1) = x1) :
    after (ops2 (F := F)) W (Proc.devRef .tc main_v28) = Cert.ReferenceIdeal.ReadP.val_main_v28 (F := F) x0 x1 := by
  after_results
  rw [ha0, ha1]
  rfl

theorem adj_eq (W : Valuation τ sig (Elt F)) (x0 : (⟨S128x512x8, .f32⟩ : BufTy).Contents (Elt F)) (x1 : (⟨S128x512, .f32⟩ : BufTy).Contents (Elt F))
    (h28 : W (Proc.devRef .tc main_v28) = Cert.ReferenceIdeal.ReadP.val_main_v28 (F := F) x0 x1) :
    after (ops3 (F := F)) W (Proc.devRef .tc main_v39) = Cert.ReferenceIdeal.ReadP.val_main_v39 (F := F) x0 x1 := by
  after_results
  rw [h28]
  rfl

theorem wcol_eq (W : Valuation τ sig (Elt F)) (x1 : (⟨S128x512, .f32⟩ : BufTy).Contents (Elt F))
    (ha1 : W (Proc.devRef .tc main_arg1) = x1) :
    after (ops4 (F := F)) W (Proc.devRef .tc main_v40) = Cert.ReferenceIdeal.ReadP.val_main_v40 (F := F) x1 := by
  after_results
  rw [ha1]
  rfl

theorem round0_eq (W : Valuation τ sig (Elt F)) (x0 : (⟨S128x512x8, .f32⟩ : BufTy).Contents (Elt F)) (x1 : (⟨S128x512, .f32⟩ : BufTy).Contents (Elt F)) (x2 : (⟨S8x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S3x128x128, .f32⟩ : BufTy).Contents (Elt F)) (x7 : (⟨S3x128, .f32⟩ : BufTy).Contents (Elt F)) (x8 : (⟨S3x256x128, .f32⟩ : BufTy).Contents (Elt F)) (x9 : (⟨S3x128, .f32⟩ : BufTy).Contents (Elt F))
    (h9 : W (Proc.devRef .tc main_v9) = Cert.ReferenceIdeal.ReadP.val_main_v9 (F := F) x0 x2 x3 x4 x5) (h39 : W (Proc.devRef .tc main_v39) = Cert.ReferenceIdeal.ReadP.val_main_v39 (F := F) x0 x1) (ha1 : W (Proc.devRef .tc main_arg1) = x1) (ha6 : W (Proc.devRef .tc main_arg6) = x6) (ha7 : W (Proc.devRef .tc main_arg7) = x7) (ha8 : W (Proc.devRef .tc main_arg8) = x8) (ha9 : W (Proc.devRef .tc main_arg9) = x9) :
    after (ops4 (F := F)) W (Proc.devRef .tc main_v62) = Cert.ReferenceIdeal.ReadP.val_main_v62 (F := F) x0 x1 x2 x3 x4 x5 x6 x7 x8 x9 := by
  after_results
  rw [h9, h39, ha1, ha6, ha7, ha8, ha9]
  rfl

theorem round1_eq (W : Valuation τ sig (Elt F)) (x0 : (⟨S128x512x8, .f32⟩ : BufTy).Contents (Elt F)) (x1 : (⟨S128x512, .f32⟩ : BufTy).Contents (Elt F)) (x2 : (⟨S8x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S3x128x128, .f32⟩ : BufTy).Contents (Elt F)) (x7 : (⟨S3x128, .f32⟩ : BufTy).Contents (Elt F)) (x8 : (⟨S3x256x128, .f32⟩ : BufTy).Contents (Elt F)) (x9 : (⟨S3x128, .f32⟩ : BufTy).Contents (Elt F))
    (h62 : W (Proc.devRef .tc main_v62) = Cert.ReferenceIdeal.ReadP.val_main_v62 (F := F) x0 x1 x2 x3 x4 x5 x6 x7 x8 x9) (h39 : W (Proc.devRef .tc main_v39) = Cert.ReferenceIdeal.ReadP.val_main_v39 (F := F) x0 x1) (h40 : W (Proc.devRef .tc main_v40) = Cert.ReferenceIdeal.ReadP.val_main_v40 (F := F) x1) (ha6 : W (Proc.devRef .tc main_arg6) = x6) (ha7 : W (Proc.devRef .tc main_arg7) = x7) (ha8 : W (Proc.devRef .tc main_arg8) = x8) (ha9 : W (Proc.devRef .tc main_arg9) = x9) :
    after (ops5 (F := F)) W (Proc.devRef .tc main_v84) = Cert.ReferenceIdeal.ReadP.val_main_v84 (F := F) x0 x1 x2 x3 x4 x5 x6 x7 x8 x9 := by
  after_results
  rw [h62, h39, h40, ha6, ha7, ha8, ha9]
  rfl

theorem round2_eq (W : Valuation τ sig (Elt F)) (x0 : (⟨S128x512x8, .f32⟩ : BufTy).Contents (Elt F)) (x1 : (⟨S128x512, .f32⟩ : BufTy).Contents (Elt F)) (x2 : (⟨S8x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S3x128x128, .f32⟩ : BufTy).Contents (Elt F)) (x7 : (⟨S3x128, .f32⟩ : BufTy).Contents (Elt F)) (x8 : (⟨S3x256x128, .f32⟩ : BufTy).Contents (Elt F)) (x9 : (⟨S3x128, .f32⟩ : BufTy).Contents (Elt F))
    (h84 : W (Proc.devRef .tc main_v84) = Cert.ReferenceIdeal.ReadP.val_main_v84 (F := F) x0 x1 x2 x3 x4 x5 x6 x7 x8 x9) (h39 : W (Proc.devRef .tc main_v39) = Cert.ReferenceIdeal.ReadP.val_main_v39 (F := F) x0 x1) (h40 : W (Proc.devRef .tc main_v40) = Cert.ReferenceIdeal.ReadP.val_main_v40 (F := F) x1) (ha6 : W (Proc.devRef .tc main_arg6) = x6) (ha7 : W (Proc.devRef .tc main_arg7) = x7) (ha8 : W (Proc.devRef .tc main_arg8) = x8) (ha9 : W (Proc.devRef .tc main_arg9) = x9) :
    after (ops6 (F := F)) W (Proc.devRef .tc main_v106) = Cert.ReferenceIdeal.ReadP.val_main_v106 (F := F) x0 x1 x2 x3 x4 x5 x6 x7 x8 x9 := by
  after_results
  rw [h84, h39, h40, ha6, ha7, ha8, ha9]
  rfl

theorem readout_eq (W : Valuation τ sig (Elt F)) (x0 : (⟨S128x512x8, .f32⟩ : BufTy).Contents (Elt F)) (x1 : (⟨S128x512, .f32⟩ : BufTy).Contents (Elt F)) (x2 : (⟨S8x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S3x128x128, .f32⟩ : BufTy).Contents (Elt F)) (x7 : (⟨S3x128, .f32⟩ : BufTy).Contents (Elt F)) (x8 : (⟨S3x256x128, .f32⟩ : BufTy).Contents (Elt F)) (x9 : (⟨S3x128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F))
    (h106 : W (Proc.devRef .tc main_v106) = Cert.ReferenceIdeal.ReadP.val_main_v106 (F := F) x0 x1 x2 x3 x4 x5 x6 x7 x8 x9) (h40 : W (Proc.devRef .tc main_v40) = Cert.ReferenceIdeal.ReadP.val_main_v40 (F := F) x1) (ha10 : W (Proc.devRef .tc main_arg10) = x10) (ha11 : W (Proc.devRef .tc main_arg11) = x11) (ha12 : W (Proc.devRef .tc main_arg12) = x12) (ha13 : W (Proc.devRef .tc main_arg13) = x13) :
    after (ops7 (F := F)) W (Proc.devRef .tc main_v118) = Cert.ReferenceIdeal.ReadP.val_main_v118 (F := F) x0 x1 x2 x3 x4 x5 x6 x7 x8 x9 x10 x11 x12 x13 := by
  after_results
  rw [h106, h40, ha10, ha11, ha12, ha13]
  rfl

/-! ## What each stretch leaves alone -/

theorem keep1_arg0 (W : Valuation τ sig (Elt F)) : after (ops1 (F := F)) W (Proc.devRef .tc main_arg0) = W (Proc.devRef .tc main_arg0) := by
  after_results
theorem keep1_arg1 (W : Valuation τ sig (Elt F)) : after (ops1 (F := F)) W (Proc.devRef .tc main_arg1) = W (Proc.devRef .tc main_arg1) := by
  after_results
theorem keep1_arg2 (W : Valuation τ sig (Elt F)) : after (ops1 (F := F)) W (Proc.devRef .tc main_arg2) = W (Proc.devRef .tc main_arg2) := by
  after_results
theorem keep1_arg3 (W : Valuation τ sig (Elt F)) : after (ops1 (F := F)) W (Proc.devRef .tc main_arg3) = W (Proc.devRef .tc main_arg3) := by
  after_results
theorem keep1_arg4 (W : Valuation τ sig (Elt F)) : after (ops1 (F := F)) W (Proc.devRef .tc main_arg4) = W (Proc.devRef .tc main_arg4) := by
  after_results
theorem keep1_arg5 (W : Valuation τ sig (Elt F)) : after (ops1 (F := F)) W (Proc.devRef .tc main_arg5) = W (Proc.devRef .tc main_arg5) := by
  after_results
theorem keep1_arg6 (W : Valuation τ sig (Elt F)) : after (ops1 (F := F)) W (Proc.devRef .tc main_arg6) = W (Proc.devRef .tc main_arg6) := by
  after_results
theorem keep1_arg7 (W : Valuation τ sig (Elt F)) : after (ops1 (F := F)) W (Proc.devRef .tc main_arg7) = W (Proc.devRef .tc main_arg7) := by
  after_results
theorem keep1_arg8 (W : Valuation τ sig (Elt F)) : after (ops1 (F := F)) W (Proc.devRef .tc main_arg8) = W (Proc.devRef .tc main_arg8) := by
  after_results
theorem keep1_arg9 (W : Valuation τ sig (Elt F)) : after (ops1 (F := F)) W (Proc.devRef .tc main_arg9) = W (Proc.devRef .tc main_arg9) := by
  after_results
theorem keep1_arg10 (W : Valuation τ sig (Elt F)) : after (ops1 (F := F)) W (Proc.devRef .tc main_arg10) = W (Proc.devRef .tc main_arg10) := by
  after_results
theorem keep1_arg11 (W : Valuation τ sig (Elt F)) : after (ops1 (F := F)) W (Proc.devRef .tc main_arg11) = W (Proc.devRef .tc main_arg11) := by
  after_results
theorem keep1_arg12 (W : Valuation τ sig (Elt F)) : after (ops1 (F := F)) W (Proc.devRef .tc main_arg12) = W (Proc.devRef .tc main_arg12) := by
  after_results
theorem keep1_arg13 (W : Valuation τ sig (Elt F)) : after (ops1 (F := F)) W (Proc.devRef .tc main_arg13) = W (Proc.devRef .tc main_arg13) := by
  after_results
theorem keep2_arg0 (W : Valuation τ sig (Elt F)) : after (ops2 (F := F)) W (Proc.devRef .tc main_arg0) = W (Proc.devRef .tc main_arg0) := by
  after_results
theorem keep2_arg1 (W : Valuation τ sig (Elt F)) : after (ops2 (F := F)) W (Proc.devRef .tc main_arg1) = W (Proc.devRef .tc main_arg1) := by
  after_results
theorem keep2_arg2 (W : Valuation τ sig (Elt F)) : after (ops2 (F := F)) W (Proc.devRef .tc main_arg2) = W (Proc.devRef .tc main_arg2) := by
  after_results
theorem keep2_arg3 (W : Valuation τ sig (Elt F)) : after (ops2 (F := F)) W (Proc.devRef .tc main_arg3) = W (Proc.devRef .tc main_arg3) := by
  after_results
theorem keep2_arg4 (W : Valuation τ sig (Elt F)) : after (ops2 (F := F)) W (Proc.devRef .tc main_arg4) = W (Proc.devRef .tc main_arg4) := by
  after_results
theorem keep2_arg5 (W : Valuation τ sig (Elt F)) : after (ops2 (F := F)) W (Proc.devRef .tc main_arg5) = W (Proc.devRef .tc main_arg5) := by
  after_results
theorem keep2_arg6 (W : Valuation τ sig (Elt F)) : after (ops2 (F := F)) W (Proc.devRef .tc main_arg6) = W (Proc.devRef .tc main_arg6) := by
  after_results
theorem keep2_arg7 (W : Valuation τ sig (Elt F)) : after (ops2 (F := F)) W (Proc.devRef .tc main_arg7) = W (Proc.devRef .tc main_arg7) := by
  after_results
theorem keep2_arg8 (W : Valuation τ sig (Elt F)) : after (ops2 (F := F)) W (Proc.devRef .tc main_arg8) = W (Proc.devRef .tc main_arg8) := by
  after_results
theorem keep2_arg9 (W : Valuation τ sig (Elt F)) : after (ops2 (F := F)) W (Proc.devRef .tc main_arg9) = W (Proc.devRef .tc main_arg9) := by
  after_results
theorem keep2_arg10 (W : Valuation τ sig (Elt F)) : after (ops2 (F := F)) W (Proc.devRef .tc main_arg10) = W (Proc.devRef .tc main_arg10) := by
  after_results
theorem keep2_arg11 (W : Valuation τ sig (Elt F)) : after (ops2 (F := F)) W (Proc.devRef .tc main_arg11) = W (Proc.devRef .tc main_arg11) := by
  after_results
theorem keep2_arg12 (W : Valuation τ sig (Elt F)) : after (ops2 (F := F)) W (Proc.devRef .tc main_arg12) = W (Proc.devRef .tc main_arg12) := by
  after_results
theorem keep2_arg13 (W : Valuation τ sig (Elt F)) : after (ops2 (F := F)) W (Proc.devRef .tc main_arg13) = W (Proc.devRef .tc main_arg13) := by
  after_results
theorem keep3_arg0 (W : Valuation τ sig (Elt F)) : after (ops3 (F := F)) W (Proc.devRef .tc main_arg0) = W (Proc.devRef .tc main_arg0) := by
  after_results
theorem keep3_arg1 (W : Valuation τ sig (Elt F)) : after (ops3 (F := F)) W (Proc.devRef .tc main_arg1) = W (Proc.devRef .tc main_arg1) := by
  after_results
theorem keep3_arg2 (W : Valuation τ sig (Elt F)) : after (ops3 (F := F)) W (Proc.devRef .tc main_arg2) = W (Proc.devRef .tc main_arg2) := by
  after_results
theorem keep3_arg3 (W : Valuation τ sig (Elt F)) : after (ops3 (F := F)) W (Proc.devRef .tc main_arg3) = W (Proc.devRef .tc main_arg3) := by
  after_results
theorem keep3_arg4 (W : Valuation τ sig (Elt F)) : after (ops3 (F := F)) W (Proc.devRef .tc main_arg4) = W (Proc.devRef .tc main_arg4) := by
  after_results
theorem keep3_arg5 (W : Valuation τ sig (Elt F)) : after (ops3 (F := F)) W (Proc.devRef .tc main_arg5) = W (Proc.devRef .tc main_arg5) := by
  after_results
theorem keep3_arg6 (W : Valuation τ sig (Elt F)) : after (ops3 (F := F)) W (Proc.devRef .tc main_arg6) = W (Proc.devRef .tc main_arg6) := by
  after_results
theorem keep3_arg7 (W : Valuation τ sig (Elt F)) : after (ops3 (F := F)) W (Proc.devRef .tc main_arg7) = W (Proc.devRef .tc main_arg7) := by
  after_results
theorem keep3_arg8 (W : Valuation τ sig (Elt F)) : after (ops3 (F := F)) W (Proc.devRef .tc main_arg8) = W (Proc.devRef .tc main_arg8) := by
  after_results
theorem keep3_arg9 (W : Valuation τ sig (Elt F)) : after (ops3 (F := F)) W (Proc.devRef .tc main_arg9) = W (Proc.devRef .tc main_arg9) := by
  after_results
theorem keep3_arg10 (W : Valuation τ sig (Elt F)) : after (ops3 (F := F)) W (Proc.devRef .tc main_arg10) = W (Proc.devRef .tc main_arg10) := by
  after_results
theorem keep3_arg11 (W : Valuation τ sig (Elt F)) : after (ops3 (F := F)) W (Proc.devRef .tc main_arg11) = W (Proc.devRef .tc main_arg11) := by
  after_results
theorem keep3_arg12 (W : Valuation τ sig (Elt F)) : after (ops3 (F := F)) W (Proc.devRef .tc main_arg12) = W (Proc.devRef .tc main_arg12) := by
  after_results
theorem keep3_arg13 (W : Valuation τ sig (Elt F)) : after (ops3 (F := F)) W (Proc.devRef .tc main_arg13) = W (Proc.devRef .tc main_arg13) := by
  after_results
theorem keep4_arg0 (W : Valuation τ sig (Elt F)) : after (ops4 (F := F)) W (Proc.devRef .tc main_arg0) = W (Proc.devRef .tc main_arg0) := by
  after_results
theorem keep4_arg1 (W : Valuation τ sig (Elt F)) : after (ops4 (F := F)) W (Proc.devRef .tc main_arg1) = W (Proc.devRef .tc main_arg1) := by
  after_results
theorem keep4_arg2 (W : Valuation τ sig (Elt F)) : after (ops4 (F := F)) W (Proc.devRef .tc main_arg2) = W (Proc.devRef .tc main_arg2) := by
  after_results
theorem keep4_arg3 (W : Valuation τ sig (Elt F)) : after (ops4 (F := F)) W (Proc.devRef .tc main_arg3) = W (Proc.devRef .tc main_arg3) := by
  after_results
theorem keep4_arg4 (W : Valuation τ sig (Elt F)) : after (ops4 (F := F)) W (Proc.devRef .tc main_arg4) = W (Proc.devRef .tc main_arg4) := by
  after_results
theorem keep4_arg5 (W : Valuation τ sig (Elt F)) : after (ops4 (F := F)) W (Proc.devRef .tc main_arg5) = W (Proc.devRef .tc main_arg5) := by
  after_results
theorem keep4_arg6 (W : Valuation τ sig (Elt F)) : after (ops4 (F := F)) W (Proc.devRef .tc main_arg6) = W (Proc.devRef .tc main_arg6) := by
  after_results
theorem keep4_arg7 (W : Valuation τ sig (Elt F)) : after (ops4 (F := F)) W (Proc.devRef .tc main_arg7) = W (Proc.devRef .tc main_arg7) := by
  after_results
theorem keep4_arg8 (W : Valuation τ sig (Elt F)) : after (ops4 (F := F)) W (Proc.devRef .tc main_arg8) = W (Proc.devRef .tc main_arg8) := by
  after_results
theorem keep4_arg9 (W : Valuation τ sig (Elt F)) : after (ops4 (F := F)) W (Proc.devRef .tc main_arg9) = W (Proc.devRef .tc main_arg9) := by
  after_results
theorem keep4_arg10 (W : Valuation τ sig (Elt F)) : after (ops4 (F := F)) W (Proc.devRef .tc main_arg10) = W (Proc.devRef .tc main_arg10) := by
  after_results
theorem keep4_arg11 (W : Valuation τ sig (Elt F)) : after (ops4 (F := F)) W (Proc.devRef .tc main_arg11) = W (Proc.devRef .tc main_arg11) := by
  after_results
theorem keep4_arg12 (W : Valuation τ sig (Elt F)) : after (ops4 (F := F)) W (Proc.devRef .tc main_arg12) = W (Proc.devRef .tc main_arg12) := by
  after_results
theorem keep4_arg13 (W : Valuation τ sig (Elt F)) : after (ops4 (F := F)) W (Proc.devRef .tc main_arg13) = W (Proc.devRef .tc main_arg13) := by
  after_results
theorem keep5_arg0 (W : Valuation τ sig (Elt F)) : after (ops5 (F := F)) W (Proc.devRef .tc main_arg0) = W (Proc.devRef .tc main_arg0) := by
  after_results
theorem keep5_arg1 (W : Valuation τ sig (Elt F)) : after (ops5 (F := F)) W (Proc.devRef .tc main_arg1) = W (Proc.devRef .tc main_arg1) := by
  after_results
theorem keep5_arg2 (W : Valuation τ sig (Elt F)) : after (ops5 (F := F)) W (Proc.devRef .tc main_arg2) = W (Proc.devRef .tc main_arg2) := by
  after_results
theorem keep5_arg3 (W : Valuation τ sig (Elt F)) : after (ops5 (F := F)) W (Proc.devRef .tc main_arg3) = W (Proc.devRef .tc main_arg3) := by
  after_results
theorem keep5_arg4 (W : Valuation τ sig (Elt F)) : after (ops5 (F := F)) W (Proc.devRef .tc main_arg4) = W (Proc.devRef .tc main_arg4) := by
  after_results
theorem keep5_arg5 (W : Valuation τ sig (Elt F)) : after (ops5 (F := F)) W (Proc.devRef .tc main_arg5) = W (Proc.devRef .tc main_arg5) := by
  after_results
theorem keep5_arg6 (W : Valuation τ sig (Elt F)) : after (ops5 (F := F)) W (Proc.devRef .tc main_arg6) = W (Proc.devRef .tc main_arg6) := by
  after_results
theorem keep5_arg7 (W : Valuation τ sig (Elt F)) : after (ops5 (F := F)) W (Proc.devRef .tc main_arg7) = W (Proc.devRef .tc main_arg7) := by
  after_results
theorem keep5_arg8 (W : Valuation τ sig (Elt F)) : after (ops5 (F := F)) W (Proc.devRef .tc main_arg8) = W (Proc.devRef .tc main_arg8) := by
  after_results
theorem keep5_arg9 (W : Valuation τ sig (Elt F)) : after (ops5 (F := F)) W (Proc.devRef .tc main_arg9) = W (Proc.devRef .tc main_arg9) := by
  after_results
theorem keep5_arg10 (W : Valuation τ sig (Elt F)) : after (ops5 (F := F)) W (Proc.devRef .tc main_arg10) = W (Proc.devRef .tc main_arg10) := by
  after_results
theorem keep5_arg11 (W : Valuation τ sig (Elt F)) : after (ops5 (F := F)) W (Proc.devRef .tc main_arg11) = W (Proc.devRef .tc main_arg11) := by
  after_results
theorem keep5_arg12 (W : Valuation τ sig (Elt F)) : after (ops5 (F := F)) W (Proc.devRef .tc main_arg12) = W (Proc.devRef .tc main_arg12) := by
  after_results
theorem keep5_arg13 (W : Valuation τ sig (Elt F)) : after (ops5 (F := F)) W (Proc.devRef .tc main_arg13) = W (Proc.devRef .tc main_arg13) := by
  after_results
theorem keep6_arg0 (W : Valuation τ sig (Elt F)) : after (ops6 (F := F)) W (Proc.devRef .tc main_arg0) = W (Proc.devRef .tc main_arg0) := by
  after_results
theorem keep6_arg1 (W : Valuation τ sig (Elt F)) : after (ops6 (F := F)) W (Proc.devRef .tc main_arg1) = W (Proc.devRef .tc main_arg1) := by
  after_results
theorem keep6_arg2 (W : Valuation τ sig (Elt F)) : after (ops6 (F := F)) W (Proc.devRef .tc main_arg2) = W (Proc.devRef .tc main_arg2) := by
  after_results
theorem keep6_arg3 (W : Valuation τ sig (Elt F)) : after (ops6 (F := F)) W (Proc.devRef .tc main_arg3) = W (Proc.devRef .tc main_arg3) := by
  after_results
theorem keep6_arg4 (W : Valuation τ sig (Elt F)) : after (ops6 (F := F)) W (Proc.devRef .tc main_arg4) = W (Proc.devRef .tc main_arg4) := by
  after_results
theorem keep6_arg5 (W : Valuation τ sig (Elt F)) : after (ops6 (F := F)) W (Proc.devRef .tc main_arg5) = W (Proc.devRef .tc main_arg5) := by
  after_results
theorem keep6_arg6 (W : Valuation τ sig (Elt F)) : after (ops6 (F := F)) W (Proc.devRef .tc main_arg6) = W (Proc.devRef .tc main_arg6) := by
  after_results
theorem keep6_arg7 (W : Valuation τ sig (Elt F)) : after (ops6 (F := F)) W (Proc.devRef .tc main_arg7) = W (Proc.devRef .tc main_arg7) := by
  after_results
theorem keep6_arg8 (W : Valuation τ sig (Elt F)) : after (ops6 (F := F)) W (Proc.devRef .tc main_arg8) = W (Proc.devRef .tc main_arg8) := by
  after_results
theorem keep6_arg9 (W : Valuation τ sig (Elt F)) : after (ops6 (F := F)) W (Proc.devRef .tc main_arg9) = W (Proc.devRef .tc main_arg9) := by
  after_results
theorem keep6_arg10 (W : Valuation τ sig (Elt F)) : after (ops6 (F := F)) W (Proc.devRef .tc main_arg10) = W (Proc.devRef .tc main_arg10) := by
  after_results
theorem keep6_arg11 (W : Valuation τ sig (Elt F)) : after (ops6 (F := F)) W (Proc.devRef .tc main_arg11) = W (Proc.devRef .tc main_arg11) := by
  after_results
theorem keep6_arg12 (W : Valuation τ sig (Elt F)) : after (ops6 (F := F)) W (Proc.devRef .tc main_arg12) = W (Proc.devRef .tc main_arg12) := by
  after_results
theorem keep6_arg13 (W : Valuation τ sig (Elt F)) : after (ops6 (F := F)) W (Proc.devRef .tc main_arg13) = W (Proc.devRef .tc main_arg13) := by
  after_results
theorem keep7_arg0 (W : Valuation τ sig (Elt F)) : after (ops7 (F := F)) W (Proc.devRef .tc main_arg0) = W (Proc.devRef .tc main_arg0) := by
  after_results
theorem keep7_arg1 (W : Valuation τ sig (Elt F)) : after (ops7 (F := F)) W (Proc.devRef .tc main_arg1) = W (Proc.devRef .tc main_arg1) := by
  after_results
theorem keep7_arg2 (W : Valuation τ sig (Elt F)) : after (ops7 (F := F)) W (Proc.devRef .tc main_arg2) = W (Proc.devRef .tc main_arg2) := by
  after_results
theorem keep7_arg3 (W : Valuation τ sig (Elt F)) : after (ops7 (F := F)) W (Proc.devRef .tc main_arg3) = W (Proc.devRef .tc main_arg3) := by
  after_results
theorem keep7_arg4 (W : Valuation τ sig (Elt F)) : after (ops7 (F := F)) W (Proc.devRef .tc main_arg4) = W (Proc.devRef .tc main_arg4) := by
  after_results
theorem keep7_arg5 (W : Valuation τ sig (Elt F)) : after (ops7 (F := F)) W (Proc.devRef .tc main_arg5) = W (Proc.devRef .tc main_arg5) := by
  after_results
theorem keep7_arg6 (W : Valuation τ sig (Elt F)) : after (ops7 (F := F)) W (Proc.devRef .tc main_arg6) = W (Proc.devRef .tc main_arg6) := by
  after_results
theorem keep7_arg7 (W : Valuation τ sig (Elt F)) : after (ops7 (F := F)) W (Proc.devRef .tc main_arg7) = W (Proc.devRef .tc main_arg7) := by
  after_results
theorem keep7_arg8 (W : Valuation τ sig (Elt F)) : after (ops7 (F := F)) W (Proc.devRef .tc main_arg8) = W (Proc.devRef .tc main_arg8) := by
  after_results
theorem keep7_arg9 (W : Valuation τ sig (Elt F)) : after (ops7 (F := F)) W (Proc.devRef .tc main_arg9) = W (Proc.devRef .tc main_arg9) := by
  after_results
theorem keep7_arg10 (W : Valuation τ sig (Elt F)) : after (ops7 (F := F)) W (Proc.devRef .tc main_arg10) = W (Proc.devRef .tc main_arg10) := by
  after_results
theorem keep7_arg11 (W : Valuation τ sig (Elt F)) : after (ops7 (F := F)) W (Proc.devRef .tc main_arg11) = W (Proc.devRef .tc main_arg11) := by
  after_results
theorem keep7_arg12 (W : Valuation τ sig (Elt F)) : after (ops7 (F := F)) W (Proc.devRef .tc main_arg12) = W (Proc.devRef .tc main_arg12) := by
  after_results
theorem keep7_arg13 (W : Valuation τ sig (Elt F)) : after (ops7 (F := F)) W (Proc.devRef .tc main_arg13) = W (Proc.devRef .tc main_arg13) := by
  after_results
theorem keep2_v9 (W : Valuation τ sig (Elt F)) : after (ops2 (F := F)) W (Proc.devRef .tc main_v9) = W (Proc.devRef .tc main_v9) := by
  after_results
theorem keep3_v9 (W : Valuation τ sig (Elt F)) : after (ops3 (F := F)) W (Proc.devRef .tc main_v9) = W (Proc.devRef .tc main_v9) := by
  after_results
theorem keep4_v39 (W : Valuation τ sig (Elt F)) : after (ops4 (F := F)) W (Proc.devRef .tc main_v39) = W (Proc.devRef .tc main_v39) := by
  after_results
theorem keep5_v39 (W : Valuation τ sig (Elt F)) : after (ops5 (F := F)) W (Proc.devRef .tc main_v39) = W (Proc.devRef .tc main_v39) := by
  after_results
theorem keep5_v40 (W : Valuation τ sig (Elt F)) : after (ops5 (F := F)) W (Proc.devRef .tc main_v40) = W (Proc.devRef .tc main_v40) := by
  after_results
theorem keep6_v40 (W : Valuation τ sig (Elt F)) : after (ops6 (F := F)) W (Proc.devRef .tc main_v40) = W (Proc.devRef .tc main_v40) := by
  after_results

/-! ## The whole line -/

/-- What @main's result holds after the whole line: the stretches' lemmas chained, each value that a later stretch
    reads carried past the stretches in between. -/
theorem out_eq (V : Valuation τ sig (Elt F)) :
    after (ops (F := F)) V (Proc.devRef .tc main_v118) = Cert.ReferenceIdeal.ReadP.val_main_v118 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  have e : after (ops (F := F)) V
      = after ops7 (after ops6 (after ops5 (after ops4 (after ops3 (after ops2 (after (ops1 (F := F)) V)))))) := by
    rw [ops_split]; simp only [after_append]
  rw [e]
  generalize hW1 : after (ops1 (F := F)) V = W1
  have e1_v9 : W1 (Proc.devRef .tc main_v9) = Cert.ReferenceIdeal.ReadP.val_main_v9 (F := F) (V (Proc.devRef .tc main_arg0)) (V (Proc.devRef .tc main_arg2)) (V (Proc.devRef .tc main_arg3)) (V (Proc.devRef .tc main_arg4)) (V (Proc.devRef .tc main_arg5)) := by
    rw [← hW1]; exact embed_eq V _ _ _ _ _ rfl rfl rfl rfl rfl
  have c1_arg0 : W1 (Proc.devRef .tc main_arg0) = V (Proc.devRef .tc main_arg0) := by
    rw [← hW1]; exact (keep1_arg0 V).trans rfl
  have c1_arg1 : W1 (Proc.devRef .tc main_arg1) = V (Proc.devRef .tc main_arg1) := by
    rw [← hW1]; exact (keep1_arg1 V).trans rfl
  have c1_arg6 : W1 (Proc.devRef .tc main_arg6) = V (Proc.devRef .tc main_arg6) := by
    rw [← hW1]; exact (keep1_arg6 V).trans rfl
  have c1_arg7 : W1 (Proc.devRef .tc main_arg7) = V (Proc.devRef .tc main_arg7) := by
    rw [← hW1]; exact (keep1_arg7 V).trans rfl
  have c1_arg8 : W1 (Proc.devRef .tc main_arg8) = V (Proc.devRef .tc main_arg8) := by
    rw [← hW1]; exact (keep1_arg8 V).trans rfl
  have c1_arg9 : W1 (Proc.devRef .tc main_arg9) = V (Proc.devRef .tc main_arg9) := by
    rw [← hW1]; exact (keep1_arg9 V).trans rfl
  have c1_arg10 : W1 (Proc.devRef .tc main_arg10) = V (Proc.devRef .tc main_arg10) := by
    rw [← hW1]; exact (keep1_arg10 V).trans rfl
  have c1_arg11 : W1 (Proc.devRef .tc main_arg11) = V (Proc.devRef .tc main_arg11) := by
    rw [← hW1]; exact (keep1_arg11 V).trans rfl
  have c1_arg12 : W1 (Proc.devRef .tc main_arg12) = V (Proc.devRef .tc main_arg12) := by
    rw [← hW1]; exact (keep1_arg12 V).trans rfl
  have c1_arg13 : W1 (Proc.devRef .tc main_arg13) = V (Proc.devRef .tc main_arg13) := by
    rw [← hW1]; exact (keep1_arg13 V).trans rfl
  generalize hW2 : after (ops2 (F := F)) W1 = W2
  have e2_v28 : W2 (Proc.devRef .tc main_v28) = Cert.ReferenceIdeal.ReadP.val_main_v28 (F := F) (V (Proc.devRef .tc main_arg0)) (V (Proc.devRef .tc main_arg1)) := by
    rw [← hW2]; exact logit_eq W1 _ _ c1_arg0 c1_arg1
  have c2_v9 : W2 (Proc.devRef .tc main_v9) = Cert.ReferenceIdeal.ReadP.val_main_v9 (F := F) (V (Proc.devRef .tc main_arg0)) (V (Proc.devRef .tc main_arg2)) (V (Proc.devRef .tc main_arg3)) (V (Proc.devRef .tc main_arg4)) (V (Proc.devRef .tc main_arg5)) := by
    rw [← hW2]; exact (keep2_v9 W1).trans e1_v9
  have c2_arg1 : W2 (Proc.devRef .tc main_arg1) = V (Proc.devRef .tc main_arg1) := by
    rw [← hW2]; exact (keep2_arg1 W1).trans c1_arg1
  have c2_arg6 : W2 (Proc.devRef .tc main_arg6) = V (Proc.devRef .tc main_arg6) := by
    rw [← hW2]; exact (keep2_arg6 W1).trans c1_arg6
  have c2_arg7 : W2 (Proc.devRef .tc main_arg7) = V (Proc.devRef .tc main_arg7) := by
    rw [← hW2]; exact (keep2_arg7 W1).trans c1_arg7
  have c2_arg8 : W2 (Proc.devRef .tc main_arg8) = V (Proc.devRef .tc main_arg8) := by
    rw [← hW2]; exact (keep2_arg8 W1).trans c1_arg8
  have c2_arg9 : W2 (Proc.devRef .tc main_arg9) = V (Proc.devRef .tc main_arg9) := by
    rw [← hW2]; exact (keep2_arg9 W1).trans c1_arg9
  have c2_arg10 : W2 (Proc.devRef .tc main_arg10) = V (Proc.devRef .tc main_arg10) := by
    rw [← hW2]; exact (keep2_arg10 W1).trans c1_arg10
  have c2_arg11 : W2 (Proc.devRef .tc main_arg11) = V (Proc.devRef .tc main_arg11) := by
    rw [← hW2]; exact (keep2_arg11 W1).trans c1_arg11
  have c2_arg12 : W2 (Proc.devRef .tc main_arg12) = V (Proc.devRef .tc main_arg12) := by
    rw [← hW2]; exact (keep2_arg12 W1).trans c1_arg12
  have c2_arg13 : W2 (Proc.devRef .tc main_arg13) = V (Proc.devRef .tc main_arg13) := by
    rw [← hW2]; exact (keep2_arg13 W1).trans c1_arg13
  generalize hW3 : after (ops3 (F := F)) W2 = W3
  have e3_v39 : W3 (Proc.devRef .tc main_v39) = Cert.ReferenceIdeal.ReadP.val_main_v39 (F := F) (V (Proc.devRef .tc main_arg0)) (V (Proc.devRef .tc main_arg1)) := by
    rw [← hW3]; exact adj_eq W2 _ _ e2_v28
  have c3_v9 : W3 (Proc.devRef .tc main_v9) = Cert.ReferenceIdeal.ReadP.val_main_v9 (F := F) (V (Proc.devRef .tc main_arg0)) (V (Proc.devRef .tc main_arg2)) (V (Proc.devRef .tc main_arg3)) (V (Proc.devRef .tc main_arg4)) (V (Proc.devRef .tc main_arg5)) := by
    rw [← hW3]; exact (keep3_v9 W2).trans c2_v9
  have c3_arg1 : W3 (Proc.devRef .tc main_arg1) = V (Proc.devRef .tc main_arg1) := by
    rw [← hW3]; exact (keep3_arg1 W2).trans c2_arg1
  have c3_arg6 : W3 (Proc.devRef .tc main_arg6) = V (Proc.devRef .tc main_arg6) := by
    rw [← hW3]; exact (keep3_arg6 W2).trans c2_arg6
  have c3_arg7 : W3 (Proc.devRef .tc main_arg7) = V (Proc.devRef .tc main_arg7) := by
    rw [← hW3]; exact (keep3_arg7 W2).trans c2_arg7
  have c3_arg8 : W3 (Proc.devRef .tc main_arg8) = V (Proc.devRef .tc main_arg8) := by
    rw [← hW3]; exact (keep3_arg8 W2).trans c2_arg8
  have c3_arg9 : W3 (Proc.devRef .tc main_arg9) = V (Proc.devRef .tc main_arg9) := by
    rw [← hW3]; exact (keep3_arg9 W2).trans c2_arg9
  have c3_arg10 : W3 (Proc.devRef .tc main_arg10) = V (Proc.devRef .tc main_arg10) := by
    rw [← hW3]; exact (keep3_arg10 W2).trans c2_arg10
  have c3_arg11 : W3 (Proc.devRef .tc main_arg11) = V (Proc.devRef .tc main_arg11) := by
    rw [← hW3]; exact (keep3_arg11 W2).trans c2_arg11
  have c3_arg12 : W3 (Proc.devRef .tc main_arg12) = V (Proc.devRef .tc main_arg12) := by
    rw [← hW3]; exact (keep3_arg12 W2).trans c2_arg12
  have c3_arg13 : W3 (Proc.devRef .tc main_arg13) = V (Proc.devRef .tc main_arg13) := by
    rw [← hW3]; exact (keep3_arg13 W2).trans c2_arg13
  generalize hW4 : after (ops4 (F := F)) W3 = W4
  have e4_v40 : W4 (Proc.devRef .tc main_v40) = Cert.ReferenceIdeal.ReadP.val_main_v40 (F := F) (V (Proc.devRef .tc main_arg1)) := by
    rw [← hW4]; exact wcol_eq W3 _ c3_arg1
  have e4_v62 : W4 (Proc.devRef .tc main_v62) = Cert.ReferenceIdeal.ReadP.val_main_v62 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
    rw [← hW4]; exact round0_eq W3 _ _ _ _ _ _ _ _ _ _ c3_v9 e3_v39 c3_arg1 c3_arg6 c3_arg7 c3_arg8 c3_arg9
  have c4_v39 : W4 (Proc.devRef .tc main_v39) = Cert.ReferenceIdeal.ReadP.val_main_v39 (F := F) (V (Proc.devRef .tc main_arg0)) (V (Proc.devRef .tc main_arg1)) := by
    rw [← hW4]; exact (keep4_v39 W3).trans e3_v39
  have c4_arg6 : W4 (Proc.devRef .tc main_arg6) = V (Proc.devRef .tc main_arg6) := by
    rw [← hW4]; exact (keep4_arg6 W3).trans c3_arg6
  have c4_arg7 : W4 (Proc.devRef .tc main_arg7) = V (Proc.devRef .tc main_arg7) := by
    rw [← hW4]; exact (keep4_arg7 W3).trans c3_arg7
  have c4_arg8 : W4 (Proc.devRef .tc main_arg8) = V (Proc.devRef .tc main_arg8) := by
    rw [← hW4]; exact (keep4_arg8 W3).trans c3_arg8
  have c4_arg9 : W4 (Proc.devRef .tc main_arg9) = V (Proc.devRef .tc main_arg9) := by
    rw [← hW4]; exact (keep4_arg9 W3).trans c3_arg9
  have c4_arg10 : W4 (Proc.devRef .tc main_arg10) = V (Proc.devRef .tc main_arg10) := by
    rw [← hW4]; exact (keep4_arg10 W3).trans c3_arg10
  have c4_arg11 : W4 (Proc.devRef .tc main_arg11) = V (Proc.devRef .tc main_arg11) := by
    rw [← hW4]; exact (keep4_arg11 W3).trans c3_arg11
  have c4_arg12 : W4 (Proc.devRef .tc main_arg12) = V (Proc.devRef .tc main_arg12) := by
    rw [← hW4]; exact (keep4_arg12 W3).trans c3_arg12
  have c4_arg13 : W4 (Proc.devRef .tc main_arg13) = V (Proc.devRef .tc main_arg13) := by
    rw [← hW4]; exact (keep4_arg13 W3).trans c3_arg13
  generalize hW5 : after (ops5 (F := F)) W4 = W5
  have e5_v84 : W5 (Proc.devRef .tc main_v84) = Cert.ReferenceIdeal.ReadP.val_main_v84 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
    rw [← hW5]; exact round1_eq W4 _ _ _ _ _ _ _ _ _ _ e4_v62 c4_v39 e4_v40 c4_arg6 c4_arg7 c4_arg8 c4_arg9
  have c5_v39 : W5 (Proc.devRef .tc main_v39) = Cert.ReferenceIdeal.ReadP.val_main_v39 (F := F) (V (Proc.devRef .tc main_arg0)) (V (Proc.devRef .tc main_arg1)) := by
    rw [← hW5]; exact (keep5_v39 W4).trans c4_v39
  have c5_v40 : W5 (Proc.devRef .tc main_v40) = Cert.ReferenceIdeal.ReadP.val_main_v40 (F := F) (V (Proc.devRef .tc main_arg1)) := by
    rw [← hW5]; exact (keep5_v40 W4).trans e4_v40
  have c5_arg6 : W5 (Proc.devRef .tc main_arg6) = V (Proc.devRef .tc main_arg6) := by
    rw [← hW5]; exact (keep5_arg6 W4).trans c4_arg6
  have c5_arg7 : W5 (Proc.devRef .tc main_arg7) = V (Proc.devRef .tc main_arg7) := by
    rw [← hW5]; exact (keep5_arg7 W4).trans c4_arg7
  have c5_arg8 : W5 (Proc.devRef .tc main_arg8) = V (Proc.devRef .tc main_arg8) := by
    rw [← hW5]; exact (keep5_arg8 W4).trans c4_arg8
  have c5_arg9 : W5 (Proc.devRef .tc main_arg9) = V (Proc.devRef .tc main_arg9) := by
    rw [← hW5]; exact (keep5_arg9 W4).trans c4_arg9
  have c5_arg10 : W5 (Proc.devRef .tc main_arg10) = V (Proc.devRef .tc main_arg10) := by
    rw [← hW5]; exact (keep5_arg10 W4).trans c4_arg10
  have c5_arg11 : W5 (Proc.devRef .tc main_arg11) = V (Proc.devRef .tc main_arg11) := by
    rw [← hW5]; exact (keep5_arg11 W4).trans c4_arg11
  have c5_arg12 : W5 (Proc.devRef .tc main_arg12) = V (Proc.devRef .tc main_arg12) := by
    rw [← hW5]; exact (keep5_arg12 W4).trans c4_arg12
  have c5_arg13 : W5 (Proc.devRef .tc main_arg13) = V (Proc.devRef .tc main_arg13) := by
    rw [← hW5]; exact (keep5_arg13 W4).trans c4_arg13
  generalize hW6 : after (ops6 (F := F)) W5 = W6
  have e6_v106 : W6 (Proc.devRef .tc main_v106) = Cert.ReferenceIdeal.ReadP.val_main_v106 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
    rw [← hW6]; exact round2_eq W5 _ _ _ _ _ _ _ _ _ _ e5_v84 c5_v39 c5_v40 c5_arg6 c5_arg7 c5_arg8 c5_arg9
  have c6_v40 : W6 (Proc.devRef .tc main_v40) = Cert.ReferenceIdeal.ReadP.val_main_v40 (F := F) (V (Proc.devRef .tc main_arg1)) := by
    rw [← hW6]; exact (keep6_v40 W5).trans c5_v40
  have c6_arg10 : W6 (Proc.devRef .tc main_arg10) = V (Proc.devRef .tc main_arg10) := by
    rw [← hW6]; exact (keep6_arg10 W5).trans c5_arg10
  have c6_arg11 : W6 (Proc.devRef .tc main_arg11) = V (Proc.devRef .tc main_arg11) := by
    rw [← hW6]; exact (keep6_arg11 W5).trans c5_arg11
  have c6_arg12 : W6 (Proc.devRef .tc main_arg12) = V (Proc.devRef .tc main_arg12) := by
    rw [← hW6]; exact (keep6_arg12 W5).trans c5_arg12
  have c6_arg13 : W6 (Proc.devRef .tc main_arg13) = V (Proc.devRef .tc main_arg13) := by
    rw [← hW6]; exact (keep6_arg13 W5).trans c5_arg13
  exact readout_eq W6 _ _ _ _ _ _ _ _ _ _ _ _ _ _ e6_v106 c6_v40 c6_arg10 c6_arg11 c6_arg12 c6_arg13

/-- No operation of the line writes an argument array. -/
theorem kept_arg0 (V : Valuation τ sig (Elt F)) : after (ops (F := F)) V (Proc.devRef .tc main_arg0) = V (Proc.devRef .tc main_arg0) := by
  rw [ops_split]; simp only [after_append]
  rw [keep7_arg0, keep6_arg0, keep5_arg0, keep4_arg0, keep3_arg0, keep2_arg0, keep1_arg0]
theorem kept_arg1 (V : Valuation τ sig (Elt F)) : after (ops (F := F)) V (Proc.devRef .tc main_arg1) = V (Proc.devRef .tc main_arg1) := by
  rw [ops_split]; simp only [after_append]
  rw [keep7_arg1, keep6_arg1, keep5_arg1, keep4_arg1, keep3_arg1, keep2_arg1, keep1_arg1]
theorem kept_arg2 (V : Valuation τ sig (Elt F)) : after (ops (F := F)) V (Proc.devRef .tc main_arg2) = V (Proc.devRef .tc main_arg2) := by
  rw [ops_split]; simp only [after_append]
  rw [keep7_arg2, keep6_arg2, keep5_arg2, keep4_arg2, keep3_arg2, keep2_arg2, keep1_arg2]
theorem kept_arg3 (V : Valuation τ sig (Elt F)) : after (ops (F := F)) V (Proc.devRef .tc main_arg3) = V (Proc.devRef .tc main_arg3) := by
  rw [ops_split]; simp only [after_append]
  rw [keep7_arg3, keep6_arg3, keep5_arg3, keep4_arg3, keep3_arg3, keep2_arg3, keep1_arg3]
theorem kept_arg4 (V : Valuation τ sig (Elt F)) : after (ops (F := F)) V (Proc.devRef .tc main_arg4) = V (Proc.devRef .tc main_arg4) := by
  rw [ops_split]; simp only [after_append]
  rw [keep7_arg4, keep6_arg4, keep5_arg4, keep4_arg4, keep3_arg4, keep2_arg4, keep1_arg4]
theorem kept_arg5 (V : Valuation τ sig (Elt F)) : after (ops (F := F)) V (Proc.devRef .tc main_arg5) = V (Proc.devRef .tc main_arg5) := by
  rw [ops_split]; simp only [after_append]
  rw [keep7_arg5, keep6_arg5, keep5_arg5, keep4_arg5, keep3_arg5, keep2_arg5, keep1_arg5]
theorem kept_arg6 (V : Valuation τ sig (Elt F)) : after (ops (F := F)) V (Proc.devRef .tc main_arg6) = V (Proc.devRef .tc main_arg6) := by
  rw [ops_split]; simp only [after_append]
  rw [keep7_arg6, keep6_arg6, keep5_arg6, keep4_arg6, keep3_arg6, keep2_arg6, keep1_arg6]
theorem kept_arg7 (V : Valuation τ sig (Elt F)) : after (ops (F := F)) V (Proc.devRef .tc main_arg7) = V (Proc.devRef .tc main_arg7) := by
  rw [ops_split]; simp only [after_append]
  rw [keep7_arg7, keep6_arg7, keep5_arg7, keep4_arg7, keep3_arg7, keep2_arg7, keep1_arg7]
theorem kept_arg8 (V : Valuation τ sig (Elt F)) : after (ops (F := F)) V (Proc.devRef .tc main_arg8) = V (Proc.devRef .tc main_arg8) := by
  rw [ops_split]; simp only [after_append]
  rw [keep7_arg8, keep6_arg8, keep5_arg8, keep4_arg8, keep3_arg8, keep2_arg8, keep1_arg8]
theorem kept_arg9 (V : Valuation τ sig (Elt F)) : after (ops (F := F)) V (Proc.devRef .tc main_arg9) = V (Proc.devRef .tc main_arg9) := by
  rw [ops_split]; simp only [after_append]
  rw [keep7_arg9, keep6_arg9, keep5_arg9, keep4_arg9, keep3_arg9, keep2_arg9, keep1_arg9]
theorem kept_arg10 (V : Valuation τ sig (Elt F)) : after (ops (F := F)) V (Proc.devRef .tc main_arg10) = V (Proc.devRef .tc main_arg10) := by
  rw [ops_split]; simp only [after_append]
  rw [keep7_arg10, keep6_arg10, keep5_arg10, keep4_arg10, keep3_arg10, keep2_arg10, keep1_arg10]
theorem kept_arg11 (V : Valuation τ sig (Elt F)) : after (ops (F := F)) V (Proc.devRef .tc main_arg11) = V (Proc.devRef .tc main_arg11) := by
  rw [ops_split]; simp only [after_append]
  rw [keep7_arg11, keep6_arg11, keep5_arg11, keep4_arg11, keep3_arg11, keep2_arg11, keep1_arg11]
theorem kept_arg12 (V : Valuation τ sig (Elt F)) : after (ops (F := F)) V (Proc.devRef .tc main_arg12) = V (Proc.devRef .tc main_arg12) := by
  rw [ops_split]; simp only [after_append]
  rw [keep7_arg12, keep6_arg12, keep5_arg12, keep4_arg12, keep3_arg12, keep2_arg12, keep1_arg12]
theorem kept_arg13 (V : Valuation τ sig (Elt F)) : after (ops (F := F)) V (Proc.devRef .tc main_arg13) = V (Proc.devRef .tc main_arg13) := by
  rw [ops_split]; simp only [after_append]
  rw [keep7_arg13, keep6_arg13, keep5_arg13, keep4_arg13, keep3_arg13, keep2_arg13, keep1_arg13]

/-- On every device, for any float values, from any memory with zero counters: every weakly fair execution of
    @main terminates with the result at the last stage of the operations read one at a time, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = Cert.ReferenceIdeal.ReadP.val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v118).trans (out_eq _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _)⟩)
    (run_seq scopedRefs_eq scopedSems_eq defs main (fun _ => ops) main_eq (fun _ => ops_sub) m ρ)

end Cert.ReferenceIdeal.NmpRun

end
-- ==== Proof.NmpSpec.lean ====
/-
  The function both programs compute, for ONE batch element, on the extended reals.

  A batch element is a cloud of 512 points with 8 features each (`jet n f`) and a 0/1-style
  weight per point (`msk n`).  The network is:

  * an embedding of each point by two dense layers with a rectifier after each;
  * a fixed adjacency between the points: the negated squared distance
    `-(|x_n|² + |x_m|² - 2 ⟨x_n, x_m⟩)`, plus a large negative constant on the columns whose weight is
    not positive, normalised along each row by a softmax (subtract the row's maximum, exponentiate,
    divide by the row's sum);
  * three rounds of message passing: a dense layer with rectifier makes a message per point, the
    adjacency averages the messages, and a dense layer over the pair (state, averaged message) with
    rectifier, multiplied by the point's weight, gives the next state;
  * a readout: the weighted states summed over the points, then two dense layers, a rectifier
    between them.

  Nothing here is specific to a tiling or to an order of summation: every sum is a `Finset` sum over
  the whole range of its index.  The dense layer over the pair (state, message) is written with the
  weight matrix already cut in its upper and lower half, `∑ j, h j * Lo j k + ∑ j, a j * Hi j k`;
  `sum_pair` below is the law that identifies it with the one sum over the 256 joined coordinates.
-/
import Idealize.ShloMosaic.PureOps.Ideal
import Idealize.ShloMosaic.PureOps.Ideal.Laws

noncomputable section

namespace Cert.Nmp

open Idealize.ShloMosaic

/-- The constant `2`, as the single-precision word both programs carry. -/
def two : EReal := Ideal.ofBits .f32 0x40000000#32
/-- The large negative constant `-10⁹` added to the columns that are masked out, as the word both programs carry. -/
def negBig : EReal := Ideal.ofBits .f32 0xCE6E6B28#32
/-- The value a row maximum starts from, as the word both programs carry (it denotes `-∞`). -/
def negInf : EReal := Ideal.ofBits .f32 0xFF800000#32

/-- The rectifier. -/
def relu (x : EReal) : EReal := max x 0

/-- One output coordinate of a dense layer: the row `x` against column `k` of `W`, plus the bias. -/
def dense {K H : ℕ} (x : Fin K → EReal) (W : Fin K → Fin H → EReal) (b : Fin H → EReal) (k : Fin H) : EReal :=
  (∑ j, x j * W j k) + b k

/-- The embedding of point `n`: two dense layers, a rectifier after each. -/
def embed (jet : Fin 512 → Fin 8 → EReal) (W0 : Fin 8 → Fin 128 → EReal) (b0 : Fin 128 → EReal)
    (W1 : Fin 128 → Fin 128 → EReal) (b1 : Fin 128 → EReal) (n : Fin 512) (k : Fin 128) : EReal :=
  relu (dense (fun j => relu (dense (jet n) W0 b0 j)) W1 b1 k)

/-- The squared length of point `n`. -/
def sqn (jet : Fin 512 → Fin 8 → EReal) (n : Fin 512) : EReal := ∑ f, jet n f * jet n f
/-- The inner product of points `n` and `m`. -/
def gram (jet : Fin 512 → Fin 8 → EReal) (n m : Fin 512) : EReal := ∑ f, jet n f * jet m f
/-- What a column adds to every logit: nothing where the point's weight is positive, `negBig` elsewhere. -/
def colTerm (w : EReal) : EReal := Scalar.select (Ideal.cmp .ogt w 0) 0 negBig
/-- The logit of the pair `(n, m)`: the negated squared distance plus the column's term. -/
def logit (jet : Fin 512 → Fin 8 → EReal) (msk : Fin 512 → EReal) (n m : Fin 512) : EReal :=
  -((sqn jet n + sqn jet m) - two * gram jet n m) + colTerm (msk m)
/-- The maximum of row `n` of the logits, started from `negInf`. -/
def rowMax (jet : Fin 512 → Fin 8 → EReal) (msk : Fin 512 → EReal) (n : Fin 512) : EReal :=
  max negInf ((Finset.univ : Finset (Fin 512)).fold max negInf (fun m => logit jet msk n m))
/-- The exponential of a logit less its row's maximum. -/
def expo (jet : Fin 512 → Fin 8 → EReal) (msk : Fin 512 → EReal) (n m : Fin 512) : EReal :=
  Ideal.exp (logit jet msk n m - rowMax jet msk n)
/-- The adjacency: each row of exponentials divided by its sum. -/
def adj (jet : Fin 512 → Fin 8 → EReal) (msk : Fin 512 → EReal) (n m : Fin 512) : EReal :=
  Ideal.div (expo jet msk n m) (∑ j, expo jet msk n j)

/-- The message of point `n`: a dense layer of its state, with rectifier. -/
def msg (h : Fin 512 → Fin 128 → EReal) (Wm : Fin 128 → Fin 128 → EReal) (bm : Fin 128 → EReal)
    (n : Fin 512) (k : Fin 128) : EReal :=
  relu (dense (h n) Wm bm k)
/-- The messages averaged by the adjacency. -/
def agg (A : Fin 512 → Fin 512 → EReal) (g : Fin 512 → Fin 128 → EReal) (i : Fin 512) (k : Fin 128) : EReal :=
  ∑ j, A i j * g j k
/-- One round: the dense layer over the pair (state, averaged message), its weight matrix given as its two
    halves, with rectifier, times the point's weight. -/
def layer (A : Fin 512 → Fin 512 → EReal) (msk : Fin 512 → EReal)
    (Wm : Fin 128 → Fin 128 → EReal) (bm : Fin 128 → EReal)
    (Lo Hi : Fin 128 → Fin 128 → EReal) (bu : Fin 128 → EReal)
    (h : Fin 512 → Fin 128 → EReal) (n : Fin 512) (k : Fin 128) : EReal :=
  relu (((∑ j, h n j * Lo j k) + (∑ j, agg A (msg h Wm bm) n j * Hi j k)) + bu k) * msk n

/-- The readout's pooled vector: the states, weighted once more by the points' weights, summed over the points.
    (The last round's state already carries one factor of the weight, so a point's rectified update enters the
    pooled vector with the square of its weight, as in both programs.) -/
def pooled (h : Fin 512 → Fin 128 → EReal) (msk : Fin 512 → EReal) (k : Fin 128) : EReal :=
  ∑ n, h n k * msk n
/-- The readout: two dense layers, a rectifier between them. -/
def readout (p : Fin 128 → EReal) (W1 : Fin 128 → Fin 128 → EReal) (b1 : Fin 128 → EReal)
    (W2 : Fin 128 → Fin 128 → EReal) (b2 : Fin 128 → EReal) (k : Fin 128) : EReal :=
  dense (fun j => relu (dense p W1 b1 j)) W2 b2 k

/-- The three rounds' parameters: round `t`'s message matrix and bias, the two halves of its update matrix, its
    update bias. -/
structure Round where
  Wm : Fin 128 → Fin 128 → EReal
  bm : Fin 128 → EReal
  Lo : Fin 128 → Fin 128 → EReal
  Hi : Fin 128 → Fin 128 → EReal
  bu : Fin 128 → EReal

/-- The whole network on one batch element. -/
def net (jet : Fin 512 → Fin 8 → EReal) (msk : Fin 512 → EReal)
    (W0 : Fin 8 → Fin 128 → EReal) (b0 : Fin 128 → EReal) (W1 : Fin 128 → Fin 128 → EReal) (b1 : Fin 128 → EReal)
    (r0 r1 r2 : Round)
    (V1 : Fin 128 → Fin 128 → EReal) (c1 : Fin 128 → EReal) (V2 : Fin 128 → Fin 128 → EReal) (c2 : Fin 128 → EReal)
    (k : Fin 128) : EReal :=
  let A := adj jet msk
  let h0 := embed jet W0 b0 W1 b1
  let h1 := layer A msk r0.Wm r0.bm r0.Lo r0.Hi r0.bu h0
  let h2 := layer A msk r1.Wm r1.bm r1.Lo r1.Hi r1.bu h1
  let h3 := layer A msk r2.Wm r2.bm r2.Lo r2.Hi r2.bu h2
  readout (pooled h3 msk) V1 c1 V2 c2 k

/-- A sum over 256 joined coordinates, the first 128 taken from `x` and the last 128 from `y`, against a matrix of
    256 rows, is the sum against its upper half plus the sum against its lower half.  Addition on the extended
    reals is commutative and associative, so this holds at the infinities too. -/
theorem sum_pair (x y : Fin 128 → EReal) (c : Fin 256 → EReal) (w : Fin 256 → EReal)
    (hlo : ∀ j : Fin 128, c ⟨j.val, by omega⟩ = x j) (hhi : ∀ j : Fin 128, c ⟨128 + j.val, by omega⟩ = y j) :
    (∑ q : Fin 256, c q * w q)
      = (∑ j : Fin 128, x j * w ⟨j.val, by omega⟩) + (∑ j : Fin 128, y j * w ⟨128 + j.val, by omega⟩) := by
  have h := Fin.sum_univ_add (a := 128) (b := 128) (fun q : Fin (128 + 128) => c q * w q)
  refine h.trans ?_
  congr 1
  · exact Finset.sum_congr rfl fun j _ => by
      rw [← hlo j]; rfl
  · exact Finset.sum_congr rfl fun j _ => by
      rw [← hhi j]; rfl

/-- Subtracting from zero is negating, on every extended real. -/
theorem zero_sub_eq_neg (x : EReal) : (0 : EReal) - x = -x := zero_sub x

end Cert.Nmp

end
-- ==== Proof.NmpArrays.lean ====
/-
  The network of `NmpSpec` as ONE function of the fourteen argument arrays, index by index.

  Batch element `b` of the result depends on batch element `b` of the point cloud and of the weights-per-point,
  and on all of the parameter arrays; round `t`'s parameters are slab `t` of the stacked parameter arrays, the
  update matrix cut into its rows `0 … 127` (which meet the state) and `128 … 255` (which meet the averaged message).
-/
import proofs.«130221_j58248346468777_2_alg».proof.Proof.NmpSpec
import Idealize.ShloMosaic.Lib.ValueIdx

noncomputable section

namespace Cert.Nmp

open Idealize.ShloMosaic Idealize.ShloMosaic.ValueIdx

/-- Round `t`'s parameters out of the stacked arrays. -/
def roundOf (Wm : (⟨3, ![3, 128, 128]⟩ : Shape).Idx → EReal) (bm : (⟨2, ![3, 128]⟩ : Shape).Idx → EReal)
    (Wu : (⟨3, ![3, 256, 128]⟩ : Shape).Idx → EReal) (bu : (⟨2, ![3, 128]⟩ : Shape).Idx → EReal) (t : Fin 3) : Round where
  Wm j k := Wm (ix3 t j k)
  bm k := bm (ix2 t k)
  Lo j k := Wu (ix3 t (⟨j.val, by omega⟩ : Fin 256) k)
  Hi j k := Wu (ix3 t (⟨128 + j.val, by omega⟩ : Fin 256) k)
  bu k := bu (ix2 t k)

/-- The network on batch element `b` of the arrays; `jet` and `msk` are that element's points and weights, however
    the caller's arrays lay them out. -/
def netOf (jet : Fin 512 → Fin 8 → EReal) (msk : Fin 512 → EReal)
    (W0 : (⟨2, ![8, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (Wm : (⟨3, ![3, 128, 128]⟩ : Shape).Idx → EReal) (bm : (⟨2, ![3, 128]⟩ : Shape).Idx → EReal)
    (Wu : (⟨3, ![3, 256, 128]⟩ : Shape).Idx → EReal) (bu : (⟨2, ![3, 128]⟩ : Shape).Idx → EReal)
    (V1 : (⟨2, ![128, 128]⟩ : Shape).Idx → EReal) (c1 : (⟨1, ![128]⟩ : Shape).Idx → EReal)
    (V2 : (⟨2, ![128, 128]⟩ : Shape).Idx → EReal) (c2 : (⟨1, ![128]⟩ : Shape).Idx → EReal) (k : Fin 128) : EReal :=
  net jet msk (fun f k => W0 (ix2 f k)) (fun k => b0 (ix1 k)) (fun j k => W1 (ix2 j k)) (fun k => b1 (ix1 k))
    (roundOf Wm bm Wu bu 0) (roundOf Wm bm Wu bu 1) (roundOf Wm bm Wu bu 2)
    (fun j k => V1 (ix2 j k)) (fun k => c1 (ix1 k)) (fun j k => V2 (ix2 j k)) (fun k => c2 (ix1 k)) k

/-- The result array, `[128, 128]`, as a function of the argument arrays. -/
def G (J : (⟨3, ![128, 512, 8]⟩ : Shape).Idx → EReal) (M : (⟨2, ![128, 512]⟩ : Shape).Idx → EReal)
    (W0 : (⟨2, ![8, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (Wm : (⟨3, ![3, 128, 128]⟩ : Shape).Idx → EReal) (bm : (⟨2, ![3, 128]⟩ : Shape).Idx → EReal)
    (Wu : (⟨3, ![3, 256, 128]⟩ : Shape).Idx → EReal) (bu : (⟨2, ![3, 128]⟩ : Shape).Idx → EReal)
    (V1 : (⟨2, ![128, 128]⟩ : Shape).Idx → EReal) (c1 : (⟨1, ![128]⟩ : Shape).Idx → EReal)
    (V2 : (⟨2, ![128, 128]⟩ : Shape).Idx → EReal) (c2 : (⟨1, ![128]⟩ : Shape).Idx → EReal) :
    (⟨2, ![128, 128]⟩ : Shape).Idx → EReal :=
  fun i => netOf (fun n f => J (ix3 (i 0) n f)) (fun n => M (ix2 (i 0) n)) W0 b0 W1 b1 Wm bm Wu bu V1 c1 V2 c2 (i 1)

end Cert.Nmp

end
-- ==== Proof.KerRun.lean ====
/-
  The kernel's result array as one function of its argument arrays.

  The region has a grid of 32 points.  Point `t` is handed batch elements `4 t … 4 t + 3` of the point cloud
  and of the per-point weights (the latter as the host laid them out before the region, `[128, 1, 512]`), and
  the whole of every parameter array; it writes back rows `4 t … 4 t + 3` of a `[128, 1, 128]` array.  Given
  that the body's output block at `(b, 0, k)` is the network on the block's batch element `b` (the hypothesis
  `BlockIsNet`, proved elsewhere from the body's arithmetic), the written-back blocks are the restrictions of ONE
  function `Gk` of the region-entry arrays, they cover the output array (row `r` lies in point `r / 4`'s block),
  so the array ends at `Gk`; and the host's two reshapes around the region — of the weights before it, of the result
  after it — only rename indices, so @main's result is `Nmp.G` of the argument arrays.
-/
import proofs.«130221_j58248346468777_2_alg».proof.Proof.Gen.KernelIdeal.Frame
import proofs.«130221_j58248346468777_2_alg».proof.Proof.NmpArrays
import Idealize.ShloMosaic.Lib.Pipeline.Value
import Idealize.ShloMosaic.Lib.ValueIdx
import Idealize.ShloMosaic.Lib.StableHlo.Run

set_option maxRecDepth 16384

noncomputable section

namespace Cert.KernelIdeal.NmpValue

open Idealize.ShloMosaic Idealize.ShloMosaic.TcCoe Idealize.SL.Sem Idealize.ShloMosaic.StableHlo
open Idealize.ShloMosaic.ValueIdx
open Cert.KernelIdeal Cert.KernelIdeal.Gen
open Idealize.ShloMosaic.Pipeline (Dat Cfg Window)

variable (m : (ℓ : Loc nD τ sig) → Buf (Elt Ideal) ℓ) (ρ : Dev nD → PrngReg)

/-- The body's output block, at row `b` and feature `k`, is the network on row `b` of its input blocks. -/
def BlockIsNet : Prop :=
  ∀ (x0 : Vec Ideal S4x512x8 .f32) (x1 : Vec Ideal S4x1x512 .f32) (x2 : Vec Ideal S8x128 .f32) (x3 : Vec Ideal S128 .f32) (x4 : Vec Ideal S128x128 .f32) (x5 : Vec Ideal S128 .f32) (x6 : Vec Ideal S3x128x128 .f32) (x7 : Vec Ideal S3x128 .f32) (x8 : Vec Ideal S3x256x128 .f32) (x9 : Vec Ideal S3x128 .f32) (x10 : Vec Ideal S128x128 .f32) (x11 : Vec Ideal S128 .f32) (x12 : Vec Ideal S128x128 .f32) (x13 : Vec Ideal S128 .f32) (b : Fin 4) (k : Fin 128),
    out0_14 (F := Ideal) x0 x1 x2 x3 x4 x5 x6 x7 x8 x9 x10 x11 x12 x13 (ix3 b (0 : Fin 1) k)
      = Cert.Nmp.netOf (fun n f => x0 (ix3 b n f)) (fun n => x1 (ix3 b (0 : Fin 1) n)) x2 x3 x4 x5 x6 x7 x8 x9 x10 x11 x12 x13 k

/-- The region's output array, `[128, 1, 128]`, as a function of the arrays the region finds: row `r` is the network
    on batch element `r`. -/
def Gk (J : S128x512x8.Idx → EReal) (Mk : S128x1x512.Idx → EReal) (W0 : S8x128.Idx → EReal) (b0 : S128.Idx → EReal) (W1 : S128x128.Idx → EReal) (b1 : S128.Idx → EReal) (Wm : S3x128x128.Idx → EReal) (bm : S3x128.Idx → EReal) (Wu : S3x256x128.Idx → EReal) (bu : S3x128.Idx → EReal) (V1 : S128x128.Idx → EReal) (c1 : S128.Idx → EReal) (V2 : S128x128.Idx → EReal) (c2 : S128.Idx → EReal) : S128x1x128.Idx → EReal :=
  fun i => Cert.Nmp.netOf (fun n f => J (ix3 (i 0) n f)) (fun n => Mk (ix3 (i 0) (0 : Fin 1) n)) W0 b0 W1 b1 Wm bm Wu bu V1 c1 V2 c2 (i 2)

/-- The printed index maps, decided once over the grid: the three moving windows are at block `t` on the leading axis,
    every parameter window at block `0`. -/
theorem idx_facts : ∀ t : Fin cfg0.N,
    win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_14.index t (0 : Fin 3) = t.val
    ∧ win0_14.index t (1 : Fin 3) = 0
    ∧ win0_14.index t (2 : Fin 3) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 3) = 0
    ∧ win0_6.index t (1 : Fin 3) = 0
    ∧ win0_6.index t (2 : Fin 3) = 0
    ∧ win0_7.index t (0 : Fin 2) = 0
    ∧ win0_7.index t (1 : Fin 2) = 0
    ∧ win0_8.index t (0 : Fin 3) = 0
    ∧ win0_8.index t (1 : Fin 3) = 0
    ∧ win0_8.index t (2 : Fin 3) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 1) = 0
    ∧ win0_12.index t (0 : Fin 2) = 0
    ∧ win0_12.index t (1 : Fin 2) = 0
    ∧ win0_13.index t (0 : Fin 1) = 0 :=
  (by decide +kernel : ∀ t : Fin grid0.N, _)

/-- Window 2's block is its whole array at every point. -/
theorem iblk2_eq (c : Dev nD) (t : Fin cfg0.N) : (iblk m c 2 t : S8x128.Idx → EReal) = V m c main_arg2 := by
  obtain ⟨e0, e1, e2, e3, e4, e5, e6, e7, e8, e9, e10, e11, e12, e13, e14, e15, e16, e17, e18, e19, e20, e21, e22, e23, e24, e25, e26, e27, e28, e29, e30⟩ := idx_facts t
  funext y
  show V m c main_arg2 (((cfg0.win 2).blk t).view.emb y) = V m c main_arg2 y
  refine congrArg _ (funext fun a => Fin.ext ?_)
  match a with
    | ⟨0, _⟩ => show win0_2.index t (0 : Fin 2) * 8 + 1 * (y 0).val = (y 0).val; omega
    | ⟨1, _⟩ => show win0_2.index t (1 : Fin 2) * 128 + 1 * (y 1).val = (y 1).val; omega

/-- Window 3's block is its whole array at every point. -/
theorem iblk3_eq (c : Dev nD) (t : Fin cfg0.N) : (iblk m c 3 t : S128.Idx → EReal) = V m c main_arg3 := by
  obtain ⟨e0, e1, e2, e3, e4, e5, e6, e7, e8, e9, e10, e11, e12, e13, e14, e15, e16, e17, e18, e19, e20, e21, e22, e23, e24, e25, e26, e27, e28, e29, e30⟩ := idx_facts t
  funext y
  show V m c main_arg3 (((cfg0.win 3).blk t).view.emb y) = V m c main_arg3 y
  refine congrArg _ (funext fun a => Fin.ext ?_)
  match a with
    | ⟨0, _⟩ => show win0_3.index t (0 : Fin 1) * 128 + 1 * (y 0).val = (y 0).val; omega

/-- Window 4's block is its whole array at every point. -/
theorem iblk4_eq (c : Dev nD) (t : Fin cfg0.N) : (iblk m c 4 t : S128x128.Idx → EReal) = V m c main_arg4 := by
  obtain ⟨e0, e1, e2, e3, e4, e5, e6, e7, e8, e9, e10, e11, e12, e13, e14, e15, e16, e17, e18, e19, e20, e21, e22, e23, e24, e25, e26, e27, e28, e29, e30⟩ := idx_facts t
  funext y
  show V m c main_arg4 (((cfg0.win 4).blk t).view.emb y) = V m c main_arg4 y
  refine congrArg _ (funext fun a => Fin.ext ?_)
  match a with
    | ⟨0, _⟩ => show win0_4.index t (0 : Fin 2) * 128 + 1 * (y 0).val = (y 0).val; omega
    | ⟨1, _⟩ => show win0_4.index t (1 : Fin 2) * 128 + 1 * (y 1).val = (y 1).val; omega

/-- Window 5's block is its whole array at every point. -/
theorem iblk5_eq (c : Dev nD) (t : Fin cfg0.N) : (iblk m c 5 t : S128.Idx → EReal) = V m c main_arg5 := by
  obtain ⟨e0, e1, e2, e3, e4, e5, e6, e7, e8, e9, e10, e11, e12, e13, e14, e15, e16, e17, e18, e19, e20, e21, e22, e23, e24, e25, e26, e27, e28, e29, e30⟩ := idx_facts t
  funext y
  show V m c main_arg5 (((cfg0.win 5).blk t).view.emb y) = V m c main_arg5 y
  refine congrArg _ (funext fun a => Fin.ext ?_)
  match a with
    | ⟨0, _⟩ => show win0_5.index t (0 : Fin 1) * 128 + 1 * (y 0).val = (y 0).val; omega

/-- Window 6's block is its whole array at every point. -/
theorem iblk6_eq (c : Dev nD) (t : Fin cfg0.N) : (iblk m c 6 t : S3x128x128.Idx → EReal) = V m c main_arg6 := by
  obtain ⟨e0, e1, e2, e3, e4, e5, e6, e7, e8, e9, e10, e11, e12, e13, e14, e15, e16, e17, e18, e19, e20, e21, e22, e23, e24, e25, e26, e27, e28, e29, e30⟩ := idx_facts t
  funext y
  show V m c main_arg6 (((cfg0.win 6).blk t).view.emb y) = V m c main_arg6 y
  refine congrArg _ (funext fun a => Fin.ext ?_)
  match a with
    | ⟨0, _⟩ => show win0_6.index t (0 : Fin 3) * 3 + 1 * (y 0).val = (y 0).val; omega
    | ⟨1, _⟩ => show win0_6.index t (1 : Fin 3) * 128 + 1 * (y 1).val = (y 1).val; omega
    | ⟨2, _⟩ => show win0_6.index t (2 : Fin 3) * 128 + 1 * (y 2).val = (y 2).val; omega

/-- Window 7's block is its whole array at every point. -/
theorem iblk7_eq (c : Dev nD) (t : Fin cfg0.N) : (iblk m c 7 t : S3x128.Idx → EReal) = V m c main_arg7 := by
  obtain ⟨e0, e1, e2, e3, e4, e5, e6, e7, e8, e9, e10, e11, e12, e13, e14, e15, e16, e17, e18, e19, e20, e21, e22, e23, e24, e25, e26, e27, e28, e29, e30⟩ := idx_facts t
  funext y
  show V m c main_arg7 (((cfg0.win 7).blk t).view.emb y) = V m c main_arg7 y
  refine congrArg _ (funext fun a => Fin.ext ?_)
  match a with
    | ⟨0, _⟩ => show win0_7.index t (0 : Fin 2) * 3 + 1 * (y 0).val = (y 0).val; omega
    | ⟨1, _⟩ => show win0_7.index t (1 : Fin 2) * 128 + 1 * (y 1).val = (y 1).val; omega

/-- Window 8's block is its whole array at every point. -/
theorem iblk8_eq (c : Dev nD) (t : Fin cfg0.N) : (iblk m c 8 t : S3x256x128.Idx → EReal) = V m c main_arg8 := by
  obtain ⟨e0, e1, e2, e3, e4, e5, e6, e7, e8, e9, e10, e11, e12, e13, e14, e15, e16, e17, e18, e19, e20, e21, e22, e23, e24, e25, e26, e27, e28, e29, e30⟩ := idx_facts t
  funext y
  show V m c main_arg8 (((cfg0.win 8).blk t).view.emb y) = V m c main_arg8 y
  refine congrArg _ (funext fun a => Fin.ext ?_)
  match a with
    | ⟨0, _⟩ => show win0_8.index t (0 : Fin 3) * 3 + 1 * (y 0).val = (y 0).val; omega
    | ⟨1, _⟩ => show win0_8.index t (1 : Fin 3) * 256 + 1 * (y 1).val = (y 1).val; omega
    | ⟨2, _⟩ => show win0_8.index t (2 : Fin 3) * 128 + 1 * (y 2).val = (y 2).val; omega

/-- Window 9's block is its whole array at every point. -/
theorem iblk9_eq (c : Dev nD) (t : Fin cfg0.N) : (iblk m c 9 t : S3x128.Idx → EReal) = V m c main_arg9 := by
  obtain ⟨e0, e1, e2, e3, e4, e5, e6, e7, e8, e9, e10, e11, e12, e13, e14, e15, e16, e17, e18, e19, e20, e21, e22, e23, e24, e25, e26, e27, e28, e29, e30⟩ := idx_facts t
  funext y
  show V m c main_arg9 (((cfg0.win 9).blk t).view.emb y) = V m c main_arg9 y
  refine congrArg _ (funext fun a => Fin.ext ?_)
  match a with
    | ⟨0, _⟩ => show win0_9.index t (0 : Fin 2) * 3 + 1 * (y 0).val = (y 0).val; omega
    | ⟨1, _⟩ => show win0_9.index t (1 : Fin 2) * 128 + 1 * (y 1).val = (y 1).val; omega

/-- Window 10's block is its whole array at every point. -/
theorem iblk10_eq (c : Dev nD) (t : Fin cfg0.N) : (iblk m c 10 t : S128x128.Idx → EReal) = V m c main_arg10 := by
  obtain ⟨e0, e1, e2, e3, e4, e5, e6, e7, e8, e9, e10, e11, e12, e13, e14, e15, e16, e17, e18, e19, e20, e21, e22, e23, e24, e25, e26, e27, e28, e29, e30⟩ := idx_facts t
  funext y
  show V m c main_arg10 (((cfg0.win 10).blk t).view.emb y) = V m c main_arg10 y
  refine congrArg _ (funext fun a => Fin.ext ?_)
  match a with
    | ⟨0, _⟩ => show win0_10.index t (0 : Fin 2) * 128 + 1 * (y 0).val = (y 0).val; omega
    | ⟨1, _⟩ => show win0_10.index t (1 : Fin 2) * 128 + 1 * (y 1).val = (y 1).val; omega

/-- Window 11's block is its whole array at every point. -/
theorem iblk11_eq (c : Dev nD) (t : Fin cfg0.N) : (iblk m c 11 t : S128.Idx → EReal) = V m c main_arg11 := by
  obtain ⟨e0, e1, e2, e3, e4, e5, e6, e7, e8, e9, e10, e11, e12, e13, e14, e15, e16, e17, e18, e19, e20, e21, e22, e23, e24, e25, e26, e27, e28, e29, e30⟩ := idx_facts t
  funext y
  show V m c main_arg11 (((cfg0.win 11).blk t).view.emb y) = V m c main_arg11 y
  refine congrArg _ (funext fun a => Fin.ext ?_)
  match a with
    | ⟨0, _⟩ => show win0_11.index t (0 : Fin 1) * 128 + 1 * (y 0).val = (y 0).val; omega

/-- Window 12's block is its whole array at every point. -/
theorem iblk12_eq (c : Dev nD) (t : Fin cfg0.N) : (iblk m c 12 t : S128x128.Idx → EReal) = V m c main_arg12 := by
  obtain ⟨e0, e1, e2, e3, e4, e5, e6, e7, e8, e9, e10, e11, e12, e13, e14, e15, e16, e17, e18, e19, e20, e21, e22, e23, e24, e25, e26, e27, e28, e29, e30⟩ := idx_facts t
  funext y
  show V m c main_arg12 (((cfg0.win 12).blk t).view.emb y) = V m c main_arg12 y
  refine congrArg _ (funext fun a => Fin.ext ?_)
  match a with
    | ⟨0, _⟩ => show win0_12.index t (0 : Fin 2) * 128 + 1 * (y 0).val = (y 0).val; omega
    | ⟨1, _⟩ => show win0_12.index t (1 : Fin 2) * 128 + 1 * (y 1).val = (y 1).val; omega

/-- Window 13's block is its whole array at every point. -/
theorem iblk13_eq (c : Dev nD) (t : Fin cfg0.N) : (iblk m c 13 t : S128.Idx → EReal) = V m c main_arg13 := by
  obtain ⟨e0, e1, e2, e3, e4, e5, e6, e7, e8, e9, e10, e11, e12, e13, e14, e15, e16, e17, e18, e19, e20, e21, e22, e23, e24, e25, e26, e27, e28, e29, e30⟩ := idx_facts t
  funext y
  show V m c main_arg13 (((cfg0.win 13).blk t).view.emb y) = V m c main_arg13 y
  refine congrArg _ (funext fun a => Fin.ext ?_)
  match a with
    | ⟨0, _⟩ => show win0_13.index t (0 : Fin 1) * 128 + 1 * (y 0).val = (y 0).val; omega

/-- The row of the arrays that row `b` of point `t`'s blocks is. -/
def gRow (t : Fin cfg0.N) (b : Fin 4) : Fin 128 := ⟨4 * t.val + b.val, by have := t.isLt; have h : cfg0.N = 32 := N_0; omega⟩

/-- Row `b` of point `t`'s block of the point cloud is row `4 t + b` of the array. -/
theorem iblk0_apply (c : Dev nD) (t : Fin cfg0.N) (b : Fin 4) (n : Fin 512) (f : Fin 8) :
    iblk m c 0 t (ix3 b n f) = V m c main_arg0 (ix3 (gRow t b) n f) := by
  obtain ⟨e0, e1, e2, e3, e4, e5, e6, e7, e8, e9, e10, e11, e12, e13, e14, e15, e16, e17, e18, e19, e20, e21, e22, e23, e24, e25, e26, e27, e28, e29, e30⟩ := idx_facts t
  show V m c main_arg0 (((cfg0.win 0).blk t).view.emb (ix3 b n f)) = V m c main_arg0 (ix3 (gRow t b) n f)
  refine congrArg _ (funext fun a => Fin.ext ?_)
  match a with
  | ⟨0, _⟩ => show win0_0.index t (0 : Fin 3) * 4 + 1 * b.val = 4 * t.val + b.val; omega
  | ⟨1, _⟩ => show win0_0.index t (1 : Fin 3) * 512 + 1 * n.val = n.val; omega
  | ⟨2, _⟩ => show win0_0.index t (2 : Fin 3) * 8 + 1 * f.val = f.val; omega

/-- Row `b` of point `t`'s block of the weights is row `4 t + b` of the array the region finds. -/
theorem iblk1_apply (c : Dev nD) (t : Fin cfg0.N) (b : Fin 4) (n : Fin 512) :
    iblk m c 1 t (ix3 b (0 : Fin 1) n) = V m c main_v0 (ix3 (gRow t b) (0 : Fin 1) n) := by
  obtain ⟨e0, e1, e2, e3, e4, e5, e6, e7, e8, e9, e10, e11, e12, e13, e14, e15, e16, e17, e18, e19, e20, e21, e22, e23, e24, e25, e26, e27, e28, e29, e30⟩ := idx_facts t
  show V m c main_v0 (((cfg0.win 1).blk t).view.emb (ix3 b (0 : Fin 1) n)) = V m c main_v0 (ix3 (gRow t b) (0 : Fin 1) n)
  refine congrArg _ (funext fun a => Fin.ext ?_)
  match a with
  | ⟨0, _⟩ => show win0_1.index t (0 : Fin 3) * 4 + 1 * b.val = 4 * t.val + b.val; omega
  | ⟨1, _⟩ => show win0_1.index t (1 : Fin 3) * 1 + 1 * 0 = 0; omega
  | ⟨2, _⟩ => show win0_1.index t (2 : Fin 3) * 512 + 1 * n.val = n.val; omega

/-- WHAT POINT `t` WRITES BACK is block `t` of `Gk` of the arrays as the region finds them. -/
theorem flushed_eq (hB : BlockIsNet) (c : Dev nD) (t : Fin cfg0.N) :
    (dats m 0 c).flushed 14 t = ((cfg0.win 14).blk t).view.read (Elt Ideal)
      (Gk (V m c main_arg0) (V m c main_v0) (V m c main_arg2) (V m c main_arg3) (V m c main_arg4) (V m c main_arg5) (V m c main_arg6) (V m c main_arg7) (V m c main_arg8) (V m c main_arg9) (V m c main_arg10) (V m c main_arg11) (V m c main_arg12) (V m c main_arg13)) := by
  show (cfg0.win 14).cut (grid0.coords t) ((dats m 0 c).after 14 t) = _
  rw [after0_14]
  obtain ⟨e0, e1, e2, e3, e4, e5, e6, e7, e8, e9, e10, e11, e12, e13, e14, e15, e16, e17, e18, e19, e20, e21, e22, e23, e24, e25, e26, e27, e28, e29, e30⟩ := idx_facts t
  funext j
  obtain ⟨b, z, k, rfl⟩ : ∃ (b : Fin 4) (z : Fin 1) (k : Fin 128), j = ix3 b z k := ⟨j 0, j 1, j 2, eq_ix3 j⟩
  obtain rfl : z = 0 := Subsingleton.elim _ _
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 b (0 : Fin 1) k)
    = Gk (V m c main_arg0) (V m c main_v0) (V m c main_arg2) (V m c main_arg3) (V m c main_arg4) (V m c main_arg5) (V m c main_arg6) (V m c main_arg7) (V m c main_arg8) (V m c main_arg9) (V m c main_arg10) (V m c main_arg11) (V m c main_arg12) (V m c main_arg13) (((cfg0.win 14).blk t).view.emb (ix3 b (0 : Fin 1) k))
  rw [hB]
  have hemb : ((cfg0.win 14).blk t).view.emb (ix3 b (0 : Fin 1) k) = ix3 (gRow t b) (0 : Fin 1) k := by
    funext a; apply Fin.ext
    match a with
    | ⟨0, _⟩ => show win0_14.index t (0 : Fin 3) * 4 + 1 * b.val = 4 * t.val + b.val; omega
    | ⟨1, _⟩ => show win0_14.index t (1 : Fin 3) * 1 + 1 * 0 = 0; omega
    | ⟨2, _⟩ => show win0_14.index t (2 : Fin 3) * 128 + 1 * k.val = k.val; omega
  rw [hemb]
  unfold Gk
  rw [iblk2_eq m c t, iblk3_eq m c t, iblk4_eq m c t, iblk5_eq m c t, iblk6_eq m c t, iblk7_eq m c t, iblk8_eq m c t, iblk9_eq m c t, iblk10_eq m c t, iblk11_eq m c t, iblk12_eq m c t, iblk13_eq m c t]
  have h0 : (fun (n : Fin 512) (f : Fin 8) => iblk m c 0 t (ix3 b n f)) = fun n f => V m c main_arg0 (ix3 (gRow t b) n f) :=
    funext fun n => funext fun f => iblk0_apply m c t b n f
  have h1 : (fun (n : Fin 512) => iblk m c 1 t (ix3 b (0 : Fin 1) n)) = fun n => V m c main_v0 (ix3 (gRow t b) (0 : Fin 1) n) :=
    funext fun n => iblk1_apply m c t b n
  rw [h0, h1]

/-- An index of the output array is in point `t`'s block iff each coordinate is in the block's range on its axis. -/
theorem mem_blk (t : Fin cfg0.N) (i : S128x1x128.Idx) :
    i ∈ ((cfg0.win 14).blk t).view.set ↔ ∀ a : Fin 3, win0_14.index t a * S4x1x128.size a ≤ (i a).val ∧ (i a).val < win0_14.index t a * S4x1x128.size a + S4x1x128.size a := by
  show i ∈ ((View.whole main_v1).slice (win0_14.rect t)).set ↔ _
  rw [View.set_slice_whole, Rect.mem_set_unit]
  exact Iff.rfl

/-- Every index of the output array is in some point's block: row `r` in point `r / 4`'s. -/
theorem cover (i : S128x1x128.Idx) :
    ∃ t : Fin cfg0.N, (cfg0.win 14).flush t = true ∧ i ∈ ((cfg0.win 14).blk t).view.set := by
  have hi0 : (i 0).val < 128 := (i 0).isLt
  have hi1 : (i 1).val < 1 := (i 1).isLt
  have hi2 : (i 2).val < 128 := (i 2).isLt
  have hN : cfg0.N = 32 := N_0
  let t : Fin cfg0.N := ⟨(i 0).val / 4, by omega⟩
  have ht : t.val = (i 0).val / 4 := rfl
  refine ⟨t, flush0_14 t, ?_⟩
  rw [mem_blk]
  obtain ⟨e0, e1, e2, e3, e4, e5, e6, e7, e8, e9, e10, e11, e12, e13, e14, e15, e16, e17, e18, e19, e20, e21, e22, e23, e24, e25, e26, e27, e28, e29, e30⟩ := idx_facts t
  intro a
  match a with
  | ⟨0, _⟩ => show win0_14.index t (0 : Fin 3) * 4 ≤ (i 0).val ∧ (i 0).val < win0_14.index t (0 : Fin 3) * 4 + 4; omega
  | ⟨1, _⟩ => show win0_14.index t (1 : Fin 3) * 1 ≤ (i 1).val ∧ (i 1).val < win0_14.index t (1 : Fin 3) * 1 + 1; omega
  | ⟨2, _⟩ => show win0_14.index t (2 : Fin 3) * 128 ≤ (i 2).val ∧ (i 2).val < win0_14.index t (2 : Fin 3) * 128 + 128; omega

/-- THE OUTPUT ARRAY after the region: `Gk` of the arrays the region found. -/
theorem final (hB : BlockIsNet) (c : Dev nD) :
    (dats m 0 c).arrAt 14 cfg0.N = Gk (V m c main_arg0) (V m c main_v0) (V m c main_arg2) (V m c main_arg3) (V m c main_arg4) (V m c main_arg5) (V m c main_arg6) (V m c main_arg7) (V m c main_arg8) (V m c main_arg9) (V m c main_arg10) (V m c main_arg11) (V m c main_arg12) (V m c main_arg13) :=
  (dats m 0 c).arrAt_eq_of_cover 14 _ (fun t _ => flushed_eq m hB c t) cover

/-- The weights as the region finds them: the host's reshape of the argument to `[128, 1, 512]`. -/
theorem V_main_v0 (c : Dev nD) :
    (V m c main_v0 : S128x1x512.Idx → EReal)
      = shapeCast S128x1x512 (m ((c : Thread nD τ).loc main_arg1)) shapeCasts_S128x512_S128x1x512 := by
  show StableHlo.after hostOps0 (fun b => m (c, b)) (Proc.devRef .tc main_v0) = _
  after_results
  rfl

/-- The reshaped weights at `(r, 0, n)` are the argument's at `(r, n)`. -/
theorem V_main_v0_apply (c : Dev nD) (r : Fin 128) (n : Fin 512) :
    V m c main_v0 (ix3 r (0 : Fin 1) n) = m ((c : Thread nD τ).loc main_arg1) (ix2 r n) := by
  rw [V_main_v0]
  refine shapeCast_apply _ _ _ _ ?_
  show (S128x512.rowMajor (ix2 r n)).val = (S128x1x512.rowMajor (ix3 r (0 : Fin 1) n)).val
  rw [Shape.rowMajor_val_two, Shape.rowMajor_val_three]
  show r.val * 512 + n.val = (r.val * 1 + 0) * 512 + n.val
  omega

/-- @MAIN'S RESULT: the host's reshape of the region's output to `[128, 128]` is the network of the argument arrays. -/
theorem result_eq (hB : BlockIsNet) (c : Dev nD) :
    Pipeline.afterTail₀ cfgs (dats m) 0 (V0 m) [hostOps1] c main_v2
      = Cert.Nmp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1)
      = Gk (V m c main_arg0) (V m c main_v0) (V m c main_arg2) (V m c main_arg3) (V m c main_arg4) (V m c main_arg5) (V m c main_arg6) (V m c main_arg7) (V m c main_arg8) (V m c main_arg9) (V m c main_arg10) (V m c main_arg11) (V m c main_arg12) (V m c main_arg13) :=
    (Pipeline.withArrays_arr spec0 launch0.win.arr_inj c _ _ 14).trans (final m hB c)
  funext i
  obtain ⟨b, k, rfl⟩ : ∃ (b : Fin 128) (k : Fin 128), i = ix2 b k := ⟨i 0, i 1, eq_ix2 i⟩
  show shapeCast S128x128 (Pipeline.withArrays (cfgs 0).spec c (V0 m c) (fun w => (dats m 0 c).arrAt w (cfgs 0).N) (Proc.tc.devRef main_v1))
      shapeCasts_S128x1x128_S128x128 (ix2 b k) = _
  rw [hw]
  rw [shapeCast_apply _ _ (ix2 b k) (ix3 b (0 : Fin 1) k) (by
    show (S128x1x128.rowMajor (ix3 b (0 : Fin 1) k)).val = (S128x128.rowMajor (ix2 b k)).val
    rw [Shape.rowMajor_val_three, Shape.rowMajor_val_two]
    show (b.val * 1 + 0) * 128 + k.val = b.val * 128 + k.val
    omega)]
  unfold Gk Cert.Nmp.G
  have hm : (fun n : Fin 512 => V m c main_v0 (ix3 b (0 : Fin 1) n)) = fun n => m ((c : Thread nD τ).loc main_arg1) (ix2 b n) :=
    funext fun n => V_main_v0_apply m c b n
  rw [V_main_arg0 m c, V_main_arg2 m c, V_main_arg3 m c, V_main_arg4 m c, V_main_arg5 m c, V_main_arg6 m c, V_main_arg7 m c, V_main_arg8 m c, V_main_arg9 m c, V_main_arg10 m c, V_main_arg11 m c, V_main_arg12 m c, V_main_arg13 m c]
  exact congrArg (fun μ => Cert.Nmp.netOf (fun n f => m ((c : Thread nD τ).loc main_arg0) (ix3 b n f)) μ (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) k) hm

/-- The frame run re-posted: @main's result at the network of the arguments, the arguments unchanged. -/
theorem run (hB : BlockIsNet) : θ_run defs (onTc (τ := τ) (main (F := Ideal))) ⟨m, fun _ => 0, ρ⟩ fun r => ∀ c : Dev nD,
      r.2.mem ((c : Thread nD τ).loc main_v2) = Cert.Nmp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨((h c).2 main_v2 (Pipeline.mem_restRefs_of main_v2 (by decide) (by decide))).trans (result_eq m hB c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c)))⟩)
    (run_main m ρ)

end Cert.KernelIdeal.NmpValue

end
-- ==== Proof.KerOps.lean ====
/-
  The kernel's vector operations read at an index, on the extended reals: the reshapes between the flat
  `[2048, 128]` layout (row `512 b + n`) and the batched `[4, 512, 128]` one, a matrix product into a zero
  accumulator as the plain sum over the contracted coordinate, a bias row repeated down the rows, a per-point
  column repeated across the features, the rectifier, and the cuts that take one round's parameters out of
  their slab.
-/
import proofs.«130221_j58248346468777_2_alg».proof.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NmpOps

open Idealize.ShloMosaic Idealize.ShloMosaic.ValueIdx Cert.KernelIdeal

variable [Facts₀]
open Facts₀

/-- The flat row of point `n` of batch element `b`. -/
def row (b : Fin 4) (n : Fin 512) : Fin 2048 := ⟨512 * b.val + n.val, by omega⟩

/-- Reading the flat layout as the batched one: the two indices have the same row-major position,
    `(512 b + n) · 128 + k`. -/
theorem unflat_apply {α : Type} (v : S2048x128.Idx → α) (h : S2048x128.ShapeCasts S4x512x128)
    (b : Fin 4) (n : Fin 512) (k : Fin 128) :
    shapeCast S4x512x128 v h (ix3 b n k) = v (ix2 (row b n) k) :=
  shapeCast_apply v h _ _ (by
    rw [Shape.rowMajor_val_two, Shape.rowMajor_val_three]
    show (512 * b.val + n.val) * 128 + k.val = (b.val * 512 + n.val) * 128 + k.val
    omega)

/-- Reading the batched layout as the flat one, at the flat row of `(b, n)`. -/
theorem flat_apply {α : Type} (v : S4x512x128.Idx → α) (h : S4x512x128.ShapeCasts S2048x128)
    (b : Fin 4) (n : Fin 512) (k : Fin 128) :
    shapeCast S2048x128 v h (ix2 (row b n) k) = v (ix3 b n k) :=
  shapeCast_apply v h _ _ (by
    rw [Shape.rowMajor_val_two, Shape.rowMajor_val_three]
    show (b.val * 512 + n.val) * 128 + k.val = (512 * b.val + n.val) * 128 + k.val
    omega)

/-! ### The flat dense product: which operand entries meet at output `(r, k)` and contraction position `q` -/

private theorem dense_lhs0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch from by show ¬(0 : Fin 2) ∈ ([] : List (Fin 2)); decide), dif_pos (show (0 : Fin S2048x128.rank) ∈ dot_S2048x128_S128x128_S2048x128_1_0_0_1_n_n.lhsNonContracting from by show (0 : Fin 2) ∈ ([0] : List (Fin 2)); decide)]
  rfl
private theorem dense_lhs1 (i : S2048x128.Idx) (q : dot_S2048x128_S128x128_S2048x128_1_0_0_1_n_n.contr.Idx) :
    (dot_S2048x128_S128x128_S2048x128_1_0_0_1_n_n.lhsIdx i q 1).val = (q ⟨0, Nat.one_pos⟩).val :=
  dot_S2048x128_S128x128_S2048x128_1_0_0_1_n_n.lhsIdx_val_of_single rfl i q
private theorem dense_rhs0 (i : S2048x128.Idx) (q : dot_S2048x128_S128x128_S2048x128_1_0_0_1_n_n.contr.Idx) :
    (dot_S2048x128_S128x128_S2048x128_1_0_0_1_n_n.rhsIdx i q 0).val = (q ⟨0, Nat.one_pos⟩).val :=
  dot_S2048x128_S128x128_S2048x128_1_0_0_1_n_n.rhsIdx_val_of_single rfl i q
private theorem dense_rhs1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch from by show ¬(1 : Fin 2) ∈ ([] : List (Fin 2)); decide), dif_pos (show (1 : Fin S128x128.rank) ∈ dot_S2048x128_S128x128_S2048x128_1_0_0_1_n_n.rhsNonContracting from by show (1 : Fin 2) ∈ ([1] : List (Fin 2)); decide)]
  rfl

/-- A flat dense product into the zero accumulator: entry `(r, k)` is `∑ j, X (r, j) · W (j, k)`. The contraction
    index set has one axis of extent 128; the sum is carried over to `Fin 128` along that bijection. -/
theorem dense2048_apply {φ₁ φ₂ : FTy} (X : FVec Ideal S2048x128 φ₁) (W : FVec Ideal S128x128 φ₂)
    (r : Fin 2048) (k : Fin 128) :
    matmul dot_S2048x128_S128x128_S2048x128_1_0_0_1_n_n none X W (constant S2048x128 .f32 0x00000000#32) (ix2 r k)
      = ∑ j : Fin 128, X (ix2 r j) * W (ix2 j k) := by
  refine (Ideal.matmul_constant_zero_apply dot_S2048x128_S128x128_S2048x128_1_0_0_1_n_n none X W (ix2 r k)).trans ?_
  rw [← Equiv.sum_comp (ValueIdx.contrEquiv1 dot_S2048x128_S128x128_S2048x128_1_0_0_1_n_n 128 rfl rfl).symm]
  refine Finset.sum_congr rfl fun j _ => ?_
  have hk := ValueIdx.contrEquiv1_symm_val dot_S2048x128_S128x128_S2048x128_1_0_0_1_n_n 128 rfl rfl j
  have el : dot_S2048x128_S128x128_S2048x128_1_0_0_1_n_n.lhsIdx (ix2 r k) ((ValueIdx.contrEquiv1 dot_S2048x128_S128x128_S2048x128_1_0_0_1_n_n 128 rfl rfl).symm j) = ix2 r j := funext fun a => Fin.ext (by
    match a with
    | ⟨0, _⟩ => exact dense_lhs0 _ _
    | ⟨1, _⟩ => exact (dense_lhs1 _ _).trans hk)
  have er : dot_S2048x128_S128x128_S2048x128_1_0_0_1_n_n.rhsIdx (ix2 r k) ((ValueIdx.contrEquiv1 dot_S2048x128_S128x128_S2048x128_1_0_0_1_n_n 128 rfl rfl).symm j) = ix2 j k := funext fun a => Fin.ext (by
    match a with
    | ⟨0, _⟩ => exact (dense_rhs0 _ _).trans hk
    | ⟨1, _⟩ => exact dense_rhs1 _ _)
  rw [el, er]

/-- A bias vector laid as one row and repeated down the 2048 rows reads its entry `k` in every row. -/
theorem biasRow_apply {α : Type} (v : S128.Idx → α) (h1 : S128.ShapeCasts S1x128) (h2 : S1x128.Broadcasts S2048x128)
    (r : Fin 2048) (k : Fin 128) :
    broadcastTo S2048x128 (shapeCast S1x128 v h1) h2 (ix2 r k) = v (ix1 k) :=
  (broadcastTo_1b_ab_apply (shapeCast S1x128 v h1) h2 r k).trans (shapeCast_a_1a_apply v h1 (0 : Fin 1) k)

/-- A per-point column repeated across the 128 features reads the point's entry at every feature. -/
theorem maskCol_apply {α : Type} (v : S4x512x1.Idx → α) (h : S4x512x1.Broadcasts S4x512x128)
    (b : Fin 4) (n : Fin 512) (k : Fin 128) :
    broadcastTo S4x512x128 v h (ix3 b n k) = v (ix3 b n (0 : Fin 1)) :=
  broadcastTo_apply v h (ix3 b n k) (ix3 b n (0 : Fin 1)) fun ax => by
    match ax with
    | ⟨0, _⟩ => show b.val = if (4 : Nat) = 1 then 0 else b.val; rw [if_neg (by decide)]
    | ⟨1, _⟩ => show n.val = if (512 : Nat) = 1 then 0 else n.val; rw [if_neg (by decide)]
    | ⟨2, _⟩ => show (0 : Nat) = if (1 : Nat) = 1 then 0 else k.val; rw [if_pos rfl]

/-! ### The batched product of the adjacency with the messages -/

private theorem bmm_lhs0 (i : S4x512x128.Idx) (q : dot_S4x512x512_S4x512x128_S4x512x128_2_1_1_2_0_0.contr.Idx) :
    (dot_S4x512x512_S4x512x128_S4x512x128_2_1_1_2_0_0.lhsIdx i q 0).val = (i 0).val := by
  unfold DotDims.lhsIdx
  rw [dif_pos (show (0 : Fin S4x512x512.rank) ∈ dot_S4x512x512_S4x512x128_S4x512x128_2_1_1_2_0_0.lhsBatch from by show (0 : Fin 3) ∈ ([0] : List (Fin 3)); decide)]
  rfl
private theorem bmm_lhs1 (i : S4x512x128.Idx) (q : dot_S4x512x512_S4x512x128_S4x512x128_2_1_1_2_0_0.contr.Idx) :
    (dot_S4x512x512_S4x512x128_S4x512x128_2_1_1_2_0_0.lhsIdx i q 1).val = (i 1).val := by
  unfold DotDims.lhsIdx
  rw [dif_neg (show ¬(1 : Fin S4x512x512.rank) ∈ dot_S4x512x512_S4x512x128_S4x512x128_2_1_1_2_0_0.lhsBatch from by show ¬(1 : Fin 3) ∈ ([0] : List (Fin 3)); decide), dif_pos (show (1 : Fin S4x512x512.rank) ∈ dot_S4x512x512_S4x512x128_S4x512x128_2_1_1_2_0_0.lhsNonContracting from by show (1 : Fin 3) ∈ ([1] : List (Fin 3)); decide)]
  rfl
private theorem bmm_lhs2 (i : S4x512x128.Idx) (q : dot_S4x512x512_S4x512x128_S4x512x128_2_1_1_2_0_0.contr.Idx) :
    (dot_S4x512x512_S4x512x128_S4x512x128_2_1_1_2_0_0.lhsIdx i q 2).val = (q ⟨0, Nat.one_pos⟩).val :=
  dot_S4x512x512_S4x512x128_S4x512x128_2_1_1_2_0_0.lhsIdx_val_of_single rfl i q
private theorem bmm_rhs0 (i : S4x512x128.Idx) (q : dot_S4x512x512_S4x512x128_S4x512x128_2_1_1_2_0_0.contr.Idx) :
    (dot_S4x512x512_S4x512x128_S4x512x128_2_1_1_2_0_0.rhsIdx i q 0).val = (i 0).val := by
  unfold DotDims.rhsIdx
  rw [dif_pos (show (0 : Fin S4x512x128.rank) ∈ dot_S4x512x512_S4x512x128_S4x512x128_2_1_1_2_0_0.rhsBatch from by show (0 : Fin 3) ∈ ([0] : List (Fin 3)); decide)]
  rfl
private theorem bmm_rhs1 (i : S4x512x128.Idx) (q : dot_S4x512x512_S4x512x128_S4x512x128_2_1_1_2_0_0.contr.Idx) :
    (dot_S4x512x512_S4x512x128_S4x512x128_2_1_1_2_0_0.rhsIdx i q 1).val = (q ⟨0, Nat.one_pos⟩).val :=
  dot_S4x512x512_S4x512x128_S4x512x128_2_1_1_2_0_0.rhsIdx_val_of_single rfl i q
private theorem bmm_rhs2 (i : S4x512x128.Idx) (q : dot_S4x512x512_S4x512x128_S4x512x128_2_1_1_2_0_0.contr.Idx) :
    (dot_S4x512x512_S4x512x128_S4x512x128_2_1_1_2_0_0.rhsIdx i q 2).val = (i 2).val := by
  unfold DotDims.rhsIdx
  rw [dif_neg (show ¬(2 : Fin S4x512x128.rank) ∈ dot_S4x512x512_S4x512x128_S4x512x128_2_1_1_2_0_0.rhsBatch from by show ¬(2 : Fin 3) ∈ ([0] : List (Fin 3)); decide), dif_pos (show (2 : Fin S4x512x128.rank) ∈ dot_S4x512x512_S4x512x128_S4x512x128_2_1_1_2_0_0.rhsNonContracting from by show (2 : Fin 3) ∈ ([2] : List (Fin 3)); decide)]
  rfl

/-- The batched product into the zero accumulator: entry `(b, i, k)` is `∑ j, A (b, i, j) · g (b, j, k)`. -/
theorem bmm_apply {φ₁ φ₂ : FTy} (A : FVec Ideal S4x512x512 φ₁) (g : FVec Ideal S4x512x128 φ₂)
    (b : Fin 4) (i : Fin 512) (k : Fin 128) :
    matmul dot_S4x512x512_S4x512x128_S4x512x128_2_1_1_2_0_0 none A g (constant S4x512x128 .f32 0x00000000#32) (ix3 b i k)
      = ∑ j : Fin 512, A (ix3 b i j) * g (ix3 b j k) := by
  refine (Ideal.matmul_constant_zero_apply dot_S4x512x512_S4x512x128_S4x512x128_2_1_1_2_0_0 none A g (ix3 b i k)).trans ?_
  rw [← Equiv.sum_comp (ValueIdx.contrEquiv1 dot_S4x512x512_S4x512x128_S4x512x128_2_1_1_2_0_0 512 rfl rfl).symm]
  refine Finset.sum_congr rfl fun j _ => ?_
  have hk := ValueIdx.contrEquiv1_symm_val dot_S4x512x512_S4x512x128_S4x512x128_2_1_1_2_0_0 512 rfl rfl j
  have el : dot_S4x512x512_S4x512x128_S4x512x128_2_1_1_2_0_0.lhsIdx (ix3 b i k) ((ValueIdx.contrEquiv1 dot_S4x512x512_S4x512x128_S4x512x128_2_1_1_2_0_0 512 rfl rfl).symm j) = ix3 b i j := funext fun a => Fin.ext (by
    match a with
    | ⟨0, _⟩ => exact bmm_lhs0 _ _
    | ⟨1, _⟩ => exact bmm_lhs1 _ _
    | ⟨2, _⟩ => exact (bmm_lhs2 _ _).trans hk)
  have er : dot_S4x512x512_S4x512x128_S4x512x128_2_1_1_2_0_0.rhsIdx (ix3 b i k) ((ValueIdx.contrEquiv1 dot_S4x512x512_S4x512x128_S4x512x128_2_1_1_2_0_0 512 rfl rfl).symm j) = ix3 b j k := funext fun a => Fin.ext (by
    match a with
    | ⟨0, _⟩ => exact bmm_rhs0 _ _
    | ⟨1, _⟩ => exact (bmm_rhs1 _ _).trans hk
    | ⟨2, _⟩ => exact bmm_rhs2 _ _)
  rw [el, er]

/-- The rectifier as the kernel writes it: the maximum against a splat of the word for zero. -/
theorem relu0_apply {s : Shape} (v : FVec Ideal s .f32) (i : s.Idx) :
    maximumf v (broadcast s (Scalar.ofBits (F := Ideal) .f32 0x00000000#32)) i = max (v i) 0 := by
  show max (v i) (Ideal.ofBits .f32 0x00000000#32) = max (v i) 0
  rw [Ideal.ofBits_zero_f32]

theorem cast_1x128x128_apply {α : Type} (v : S1x128x128.Idx → α) (h : S1x128x128.ShapeCasts S128x128)
    (j k : Fin 128) : shapeCast S128x128 v h (ix2 j k) = v (ix3 (0 : Fin 1) j k) :=
  shapeCast_1ab_ab_apply v h j k

theorem cast_1x256x128_apply {α : Type} (v : S1x256x128.Idx → α) (h : S1x256x128.ShapeCasts S256x128)
    (j : Fin 256) (k : Fin 128) : shapeCast S256x128 v h (ix2 j k) = v (ix3 (0 : Fin 1) j k) :=
  shapeCast_1ab_ab_apply v h j k

theorem cast_1x128_apply {α : Type} (v : S1x128.Idx → α) (h : S1x128.ShapeCasts S128)
    (k : Fin 128) : shapeCast S128 v h (ix1 k) = v (ix2 (0 : Fin 1) k) :=
  shapeCast_1a_a_apply v h k

/-- The upper half of a round's update matrix: rows `0 … 127`. -/
theorem sliceLo_apply {α : Type} (v : S256x128.Idx → α) (h : S256x128.Slices ![0, 0] S128x128) (j k : Fin 128) :
    extractStridedSlice S128x128 ![0, 0] v h (ix2 j k) = v (ix2 (⟨j.val, by omega⟩ : Fin 256) k) :=
  slice2_axis0_apply 0 v h j k _ (Nat.zero_add _).symm

/-- The lower half of a round's update matrix: rows `128 … 255`. -/
theorem sliceHi_apply {α : Type} (v : S256x128.Idx → α) (h : S256x128.Slices ![128, 0] S128x128) (j k : Fin 128) :
    extractStridedSlice S128x128 ![128, 0] v h (ix2 j k) = v (ix2 (⟨128 + j.val, by omega⟩ : Fin 256) k) :=
  slice2_axis0_apply 128 v h j k _ rfl

end Cert.KernelIdeal.NmpOps

end
-- ==== Proof.KerRoundOps.lean ====
/-
  The patterns the kernel's message-passing rounds are assembled from, each read at an index on the extended
  reals.  The state of the 4 batch elements lives either batched, `[4, 512, 128]`, or flat, `[2048, 128]` with
  point `n` of batch element `b` in row `512 b + n`.  A round is made of:

  * a dense layer on the flat layout followed by the rectifier (the messages);
  * the batched product of the adjacency with the messages, flattened (the averaged messages);
  * the sum of two products and a bias row, followed by the rectifier (the update before the weights);
  * the product by the per-point weight, a column repeated across the features;
  * the cuts that take one round's matrices and bias rows out of their one-slab blocks.
-/
import proofs.«130221_j58248346468777_2_alg».proof.Proof.KerOps
import proofs.«130221_j58248346468777_2_alg».proof.Proof.NmpSpec

noncomputable section

namespace Cert.NmpKer

open Idealize.ShloMosaic Idealize.ShloMosaic.ValueIdx Cert.KernelIdeal Cert.KernelIdeal.NmpOps

variable [Facts₀]
open Facts₀

/-- A dense layer on the flat layout followed by the rectifier: the row against a column, plus the bias, cut at
    zero. -/
theorem denseRelu_apply {φ₁ φ₂ : FTy} (X : FVec Ideal S2048x128 φ₁) (W : FVec Ideal S128x128 φ₂)
    (c : FVec Ideal S128 .f32) (h1 : S128.ShapeCasts S1x128) (h2 : S1x128.Broadcasts S2048x128)
    (r : Fin 2048) (k : Fin 128) :
    maximumf (addf (matmul dot_S2048x128_S128x128_S2048x128_1_0_0_1_n_n none X W (constant S2048x128 .f32 0x00000000#32))
        (broadcastTo S2048x128 (shapeCast S1x128 c h1) h2))
      (broadcast S2048x128 (Scalar.ofBits (F := Ideal) .f32 0x00000000#32)) (ix2 r k)
      = Nmp.relu ((∑ j : Fin 128, X (ix2 r j) * W (ix2 j k)) + c (ix1 k)) := by
  refine (relu0_apply _ _).trans ?_
  unfold Nmp.relu
  refine congrArg (fun t => max t 0) ?_
  refine (addf_apply _ _ _).trans ?_
  rw [dense2048_apply, biasRow_apply]

/-- The messages of a round, batched: the flat state through a dense layer with rectifier, the matrix and the bias
    row taken out of their one-slab blocks. -/
theorem msgs_apply {φ₁ : FTy} (X : FVec Ideal S2048x128 φ₁) (Wm : Vec Ideal S1x128x128 .f32) (bm : Vec Ideal S1x128 .f32)
    (hc : S2048x128.ShapeCasts S4x512x128) (hW : S1x128x128.ShapeCasts S128x128) (hb : S1x128.ShapeCasts S128)
    (h1 : S128.ShapeCasts S1x128) (h2 : S1x128.Broadcasts S2048x128) (hlt : FTy.bits .bf16 < FTy.bits .f32)
    (b : Fin 4) (n : Fin 512) (k : Fin 128) :
    shapeCast S4x512x128
        (maximumf (addf (matmul dot_S2048x128_S128x128_S2048x128_1_0_0_1_n_n none X
              (truncf .bf16 (shapeCast S128x128 Wm hW) hlt) (constant S2048x128 .f32 0x00000000#32))
            (broadcastTo S2048x128 (shapeCast S1x128 (shapeCast S128 bm hb) h1) h2))
          (broadcast S2048x128 (Scalar.ofBits (F := Ideal) .f32 0x00000000#32))) hc (ix3 b n k)
      = Nmp.relu ((∑ j : Fin 128, X (ix2 (row b n) j) * Wm (ix3 (0 : Fin 1) j k)) + bm (ix2 (0 : Fin 1) k)) := by
  refine (unflat_apply _ hc b n k).trans ?_
  refine (denseRelu_apply X _ _ h1 h2 (row b n) k).trans ?_
  refine congrArg Nmp.relu ?_
  rw [cast_1x128_apply]
  refine congrArg (· + bm (ix2 (0 : Fin 1) k)) ?_
  refine Finset.sum_congr rfl fun j _ => ?_
  refine congrArg (X (ix2 (row b n) j) * ·) ?_
  exact cast_1x128x128_apply Wm hW j k

/-- The adjacency against the batched messages, flattened: row `512 b + n` holds the average of the messages of
    batch element `b` seen from point `n`. -/
theorem aggFlat_apply {φ₁ φ₂ : FTy} (A : FVec Ideal S4x512x512 φ₁) (g : FVec Ideal S4x512x128 φ₂)
    (hc : S4x512x128.ShapeCasts S2048x128) (b : Fin 4) (n : Fin 512) (k : Fin 128) :
    shapeCast S2048x128
        (matmul dot_S4x512x512_S4x512x128_S4x512x128_2_1_1_2_0_0 none A g (constant S4x512x128 .f32 0x00000000#32)) hc
        (ix2 (row b n) k)
      = ∑ m : Fin 512, A (ix3 b n m) * g (ix3 b m k) := by
  refine (flat_apply _ hc b n k).trans ?_
  exact bmm_apply A g b n k

/-- The update before the weights: two products and a bias row summed, cut at zero. -/
theorem update_apply (P Q : FVec Ideal S2048x128 .f32) (c : FVec Ideal S128 .f32)
    (h1 : S128.ShapeCasts S1x128) (h2 : S1x128.Broadcasts S2048x128) (r : Fin 2048) (k : Fin 128) :
    maximumf (addf (addf P Q) (broadcastTo S2048x128 (shapeCast S1x128 c h1) h2))
      (broadcast S2048x128 (Scalar.ofBits (F := Ideal) .f32 0x00000000#32)) (ix2 r k)
      = Nmp.relu ((P (ix2 r k) + Q (ix2 r k)) + c (ix1 k)) := by
  refine (relu0_apply _ _).trans ?_
  unfold Nmp.relu
  refine congrArg (fun t => max t 0) ?_
  refine (addf_apply _ _ _).trans ?_
  rw [biasRow_apply]
  rfl

/-- The product by the per-point weight, batched. -/
theorem weighted_apply (Y : FVec Ideal S2048x128 .f32) (w : FVec Ideal S4x512x1 .f32)
    (hc : S2048x128.ShapeCasts S4x512x128) (hb : S4x512x1.Broadcasts S4x512x128)
    (b : Fin 4) (n : Fin 512) (k : Fin 128) :
    mulf (shapeCast S4x512x128 Y hc) (broadcastTo S4x512x128 w hb) (ix3 b n k)
      = Y (ix2 (row b n) k) * w (ix3 b n (0 : Fin 1)) := by
  refine (mulf_apply _ _ _).trans ?_
  rw [unflat_apply, maskCol_apply]

/-- The same, flattened again. -/
theorem weightedFlat_apply (Y : FVec Ideal S2048x128 .f32) (w : FVec Ideal S4x512x1 .f32)
    (hc : S2048x128.ShapeCasts S4x512x128) (hb : S4x512x1.Broadcasts S4x512x128) (hf : S4x512x128.ShapeCasts S2048x128)
    (b : Fin 4) (n : Fin 512) (k : Fin 128) :
    shapeCast S2048x128 (mulf (shapeCast S4x512x128 Y hc) (broadcastTo S4x512x128 w hb)) hf (ix2 (row b n) k)
      = Y (ix2 (row b n) k) * w (ix3 b n (0 : Fin 1)) :=
  (flat_apply _ hf b n k).trans (weighted_apply Y w hc hb b n k)

/-- Rows `0 … 127` of a round's update matrix, out of its one-slab block. -/
theorem lo_apply (U : Vec Ideal S1x256x128 .f32) (hU : S1x256x128.ShapeCasts S256x128)
    (hs : S256x128.Slices ![0, 0] S128x128) (hlt : FTy.bits .bf16 < FTy.bits .f32) (j k : Fin 128) :
    extractStridedSlice S128x128 ![0, 0] (truncf .bf16 (shapeCast S256x128 U hU : FVec Ideal S256x128 .f32) hlt : FVec Ideal S256x128 .bf16) hs (ix2 j k)
      = U (ix3 (0 : Fin 1) (⟨j.val, by omega⟩ : Fin 256) k) := by
  refine (sliceLo_apply _ hs j k).trans ?_
  exact cast_1x256x128_apply U hU _ k

/-- Rows `128 … 255` of a round's update matrix, out of its one-slab block. -/
theorem hi_apply (U : Vec Ideal S1x256x128 .f32) (hU : S1x256x128.ShapeCasts S256x128)
    (hs : S256x128.Slices ![128, 0] S128x128) (hlt : FTy.bits .bf16 < FTy.bits .f32) (j k : Fin 128) :
    extractStridedSlice S128x128 ![128, 0] (truncf .bf16 (shapeCast S256x128 U hU : FVec Ideal S256x128 .f32) hlt : FVec Ideal S256x128 .bf16) hs (ix2 j k)
      = U (ix3 (0 : Fin 1) (⟨128 + j.val, by omega⟩ : Fin 256) k) := by
  refine (sliceHi_apply _ hs j k).trans ?_
  exact cast_1x256x128_apply U hU _ k

/-- One round before the rectifier, with the messages `g` given: the state against the upper half of the update
    matrix, the averaged messages against the lower half, the bias. -/
def preStep (A : Fin 512 → Fin 512 → EReal) (Lo Hi : Fin 128 → Fin 128 → EReal)
    (bu : Fin 128 → EReal) (h g : Fin 512 → Fin 128 → EReal) (n : Fin 512) (k : Fin 128) : EReal :=
  ((∑ j, h n j * Lo j k) + (∑ j, (∑ m, A n m * g m j) * Hi j k)) + bu k

/-- One round with the messages `g` given: the rectifier, then the point's weight. -/
def step (A : Fin 512 → Fin 512 → EReal) (w : Fin 512 → EReal) (Lo Hi : Fin 128 → Fin 128 → EReal)
    (bu : Fin 128 → EReal) (h g : Fin 512 → Fin 128 → EReal) (n : Fin 512) (k : Fin 128) : EReal :=
  Nmp.relu (preStep A Lo Hi bu h g n k) * w n

/-- The specification's round is `step` on the messages of its state. -/
theorem layer_eq_step (A : Fin 512 → Fin 512 → EReal) (w : Fin 512 → EReal)
    (Wm : Fin 128 → Fin 128 → EReal) (bm : Fin 128 → EReal) (Lo Hi : Fin 128 → Fin 128 → EReal)
    (bu : Fin 128 → EReal) (h : Fin 512 → Fin 128 → EReal) :
    Nmp.layer A w Wm bm Lo Hi bu h = step A w Lo Hi bu h (Nmp.msg h Wm bm) := rfl

end Cert.NmpKer

end
-- ==== Proof.KerRound0.lean ====
/-
  Round 0 of the kernel's message passing, read at an index on the extended reals: the embedded state flattened,
  its messages (a dense layer with rectifier), and the state after the round — the state against the upper half of
  the update matrix plus the averaged messages against the lower half plus the bias, cut at zero, times the point's
  weight — in the flat layout.
-/
import proofs.«130221_j58248346468777_2_alg».proof.Proof.KerRoundOps
import proofs.«130221_j58248346468777_2_alg».proof.Proof.Gen.KernelIdeal.Skeleton

noncomputable section

namespace Cert.NmpKer

open Idealize.ShloMosaic Idealize.ShloMosaic.ValueIdx Cert.KernelIdeal Cert.KernelIdeal.Gen Cert.KernelIdeal.NmpOps

/-- The embedded state flattened: row `512 b + n` is point `n` of batch element `b`. -/
theorem pay11_apply (v25 : FVec Ideal S4x512x128 .f32) (b : Fin 4) (n : Fin 512) (k : Fin 128) :
    k0_pay11 (F := Ideal) v25 (ix2 (row b n) k) = v25 (ix3 b n k) := by
  unfold k0_pay11
  exact flat_apply v25 _ b n k

/-- Round 0's messages are the specification's messages of the embedded state. -/
theorem pay12_apply (v25 : FVec Ideal S4x512x128 .f32) (v58 : Vec Ideal S1x128x128 .f32) (v61 : Vec Ideal S1x128 .f32)
    (b : Fin 4) (n : Fin 512) (k : Fin 128) :
    k0_pay12 (F := Ideal) v25 v58 v61 (ix3 b n k)
      = Nmp.msg (fun n k => v25 (ix3 b n k)) (fun j k => v58 (ix3 (0 : Fin 1) j k)) (fun k => v61 (ix2 (0 : Fin 1) k)) n k := by
  unfold k0_pay12
  refine (msgs_apply _ v58 v61 _ _ _ _ _ _ b n k).trans ?_
  unfold Nmp.msg Nmp.dense
  refine congrArg Nmp.relu ?_
  refine congrArg (· + v61 (ix2 (0 : Fin 1) k)) ?_
  refine Finset.sum_congr rfl fun j _ => ?_
  exact congrArg (· * v58 (ix3 (0 : Fin 1) j k)) (pay11_apply v25 b n j)

/-- The state after round 0, flat: one `step` of the state `h` with the messages `g`, whatever names the adjacency,
    the weights, the two halves of the update matrix and the bias have at an index. -/
theorem pay16_apply (v3 : FVec Ideal S4x512x1 .f32) (v57 : FVec Ideal S4x512x512 .bf16)
    (v66 v67 : FVec Ideal S128x128 .bf16) (v69 : FVec Ideal S128 .f32) (v70 : FVec Ideal S2048x128 .f32)
    (v79 : FVec Ideal S4x512x128 .bf16) (b : Fin 4)
    (A : Fin 512 → Fin 512 → EReal) (w : Fin 512 → EReal) (Lo Hi : Fin 128 → Fin 128 → EReal) (bu : Fin 128 → EReal)
    (h g : Fin 512 → Fin 128 → EReal)
    (hA : ∀ i j, v57 (ix3 b i j) = A i j) (hw : ∀ n, v3 (ix3 b n (0 : Fin 1)) = w n)
    (hLo : ∀ j k, v66 (ix2 j k) = Lo j k) (hHi : ∀ j k, v67 (ix2 j k) = Hi j k) (hbu : ∀ k, v69 (ix1 k) = bu k)
    (hh : ∀ n k, v70 (ix2 (row b n) k) = h n k) (hg : ∀ n k, v79 (ix3 b n k) = g n k)
    (n : Fin 512) (k : Fin 128) :
    k0_pay16 (F := Ideal) v3 v57 v66 v67 v69 v70 v79 (constant (F := Ideal) S4x512x128 .f32 0x00000000#32) (ix2 (row b n) k)
      = step A w Lo Hi bu h g n k := by
  unfold k0_pay16
  refine (weightedFlat_apply _ v3 _ _ _ b n k).trans ?_
  rw [hw n]
  unfold step preStep
  refine congrArg (· * w n) ?_
  refine (update_apply _ _ v69 _ _ (row b n) k).trans ?_
  rw [hbu k]
  refine congrArg (fun t => Nmp.relu (t + bu k)) ?_
  rw [dense2048_apply, dense2048_apply]
  congr 1
  · refine Finset.sum_congr rfl fun j _ => ?_
    rw [hLo j k]
    exact congrArg (· * Lo j k) (hh n j)
  · refine Finset.sum_congr rfl fun j _ => ?_
    rw [hHi j k]
    refine congrArg (· * Hi j k) ?_
    refine (aggFlat_apply v57 v79 _ b n j).trans ?_
    exact Finset.sum_congr rfl fun m _ => by rw [hA n m, hg m j]

end Cert.NmpKer

end
-- ==== Proof.KerRound1.lean ====
/-
  Round 1 of the kernel's message passing up to where the kernel's arithmetic is cut, read at an index on the
  extended reals, over the flat state `S` that round 0 leaves (whatever it is at an index): the state against the
  upper half of round 1's update matrix, and round 1's messages averaged by the adjacency.
-/
import proofs.«130221_j58248346468777_2_alg».proof.Proof.KerRoundOps
import proofs.«130221_j58248346468777_2_alg».proof.Proof.Gen.KernelIdeal.Skeleton

noncomputable section

namespace Cert.NmpKer

open Idealize.ShloMosaic Idealize.ShloMosaic.ValueIdx Cert.KernelIdeal Cert.KernelIdeal.Gen Cert.KernelIdeal.NmpOps

/-- The state that round 0 leaves, against rows `0 … 127` of round 1's update matrix. -/
theorem pay17_apply (v3 : FVec Ideal S4x512x1 .f32) (v57 : FVec Ideal S4x512x512 .bf16)
    (v66 v67 : FVec Ideal S128x128 .bf16) (v69 : FVec Ideal S128 .f32) (v70 : FVec Ideal S2048x128 .f32)
    (v79 : FVec Ideal S4x512x128 .bf16) (cst : FVec Ideal S4x512x128 .f32) (v100 : Vec Ideal S1x256x128 .f32)
    (b : Fin 4) (h1 : Fin 512 → Fin 128 → EReal)
    (hh1 : ∀ n k, k0_pay16 (F := Ideal) v3 v57 v66 v67 v69 v70 v79 cst (ix2 (row b n) k) = h1 n k)
    (n : Fin 512) (k : Fin 128) :
    k0_pay17 (F := Ideal) v3 v57 v66 v67 v69 v70 v79 cst v100 (ix2 (row b n) k)
      = ∑ j : Fin 128, h1 n j * v100 (ix3 (0 : Fin 1) (⟨j.val, by omega⟩ : Fin 256) k) := by
  unfold k0_pay17 k0_pay13
  generalize k0_pay16 (F := Ideal) v3 v57 v66 v67 v69 v70 v79 cst = S at hh1 ⊢
  refine (dense2048_apply _ _ (row b n) k).trans ?_
  refine Finset.sum_congr rfl fun j _ => ?_
  rw [lo_apply]
  exact congrArg (· * v100 (ix3 (0 : Fin 1) (⟨j.val, by omega⟩ : Fin 256) k)) (hh1 n j)

/-- Round 1's messages — the specification's messages of the state that round 0 leaves — averaged by the adjacency,
    flat. -/
theorem pay18_apply (v3 : FVec Ideal S4x512x1 .f32) (v57 : FVec Ideal S4x512x512 .bf16)
    (v66 v67 : FVec Ideal S128x128 .bf16) (v69 : FVec Ideal S128 .f32) (v70 : FVec Ideal S2048x128 .f32)
    (v79 : FVec Ideal S4x512x128 .bf16) (cst : FVec Ideal S4x512x128 .f32)
    (v95 : Vec Ideal S1x128x128 .f32) (v98 : Vec Ideal S1x128 .f32)
    (b : Fin 4) (A : Fin 512 → Fin 512 → EReal) (h1 : Fin 512 → Fin 128 → EReal)
    (hA : ∀ i j, v57 (ix3 b i j) = A i j)
    (hh1 : ∀ n k, k0_pay16 (F := Ideal) v3 v57 v66 v67 v69 v70 v79 cst (ix2 (row b n) k) = h1 n k)
    (n : Fin 512) (k : Fin 128) :
    k0_pay18 (F := Ideal) v3 v57 v66 v67 v69 v70 v79 cst v95 v98 (ix2 (row b n) k)
      = ∑ m : Fin 512, A n m * Nmp.msg h1 (fun j k => v95 (ix3 (0 : Fin 1) j k)) (fun k => v98 (ix2 (0 : Fin 1) k)) m k := by
  unfold k0_pay18
  generalize k0_pay16 (F := Ideal) v3 v57 v66 v67 v69 v70 v79 cst = S at hh1 ⊢
  refine (aggFlat_apply v57 _ _ b n k).trans ?_
  refine Finset.sum_congr rfl fun m _ => ?_
  rw [hA n m]
  refine congrArg (A n m * ·) ?_
  refine (msgs_apply _ v95 v98 _ _ _ _ _ _ b m k).trans ?_
  unfold Nmp.msg Nmp.dense
  refine congrArg Nmp.relu ?_
  refine congrArg (· + v98 (ix2 (0 : Fin 1) k)) ?_
  refine Finset.sum_congr rfl fun j _ => ?_
  exact congrArg (· * v95 (ix3 (0 : Fin 1) j k)) (hh1 m j)

end Cert.NmpKer

end
-- ==== Proof.KerRound2.lean ====
/-
  The rest of round 1 and all of round 2 up to the rectifier, read at an index on the extended reals.  The kernel
  forms them in one stretch; here the stretch is cut in two at the state that round 1 leaves:

  * `r1State`: the two products already formed (the state against the upper half of round 1's update matrix, the
    averaged messages still to meet the lower half), summed with the bias, cut at zero, times the point's weight;
  * `r2Pre`: round 2 on a flat state `S` — its messages, their average by the adjacency, the two products and the
    bias — before the rectifier.
-/
import proofs.«130221_j58248346468777_2_alg».proof.Proof.KerRoundOps
import proofs.«130221_j58248346468777_2_alg».proof.Proof.Gen.KernelIdeal.Skeleton

noncomputable section

namespace Cert.NmpKer

open Idealize.ShloMosaic Idealize.ShloMosaic.ValueIdx Cert.KernelIdeal Cert.KernelIdeal.Gen Cert.KernelIdeal.NmpOps

/-- The state that round 1 leaves, flat, from the two products already formed. -/
def r1State (v3 : FVec Ideal S4x512x1 .f32) (v104 : FVec Ideal S128x128 .bf16) (v106 : FVec Ideal S128 .f32)
    (v120 : FVec Ideal S2048x128 .f32) (v121 : FVec Ideal S2048x128 .bf16) (cst_53 : FVec Ideal S2048x128 .f32) :
    FVec Ideal S2048x128 .f32 :=
  have v122 : FVec Ideal S2048x128 .f32 := matmul dot_S2048x128_S128x128_S2048x128_1_0_0_1_n_n none v121 v104 cst_53
  have v123 : FVec Ideal S2048x128 .f32 := addf v120 v122
  have v124 : FVec Ideal S1x128 .f32 := shapeCast S1x128 v106 shapeCasts_S128_S1x128
  have v125 : FVec Ideal S2048x128 .f32 := broadcastTo S2048x128 v124 broadcasts_S1x128_S2048x128
  have v126 : FVec Ideal S2048x128 .f32 := addf v123 v125
  have cst_54 : Ideal .f32 := Scalar.ofBits .f32 0x00000000#32
  have v127 : FVec Ideal S2048x128 .f32 := broadcast S2048x128 cst_54
  have v128 : FVec Ideal S2048x128 .f32 := maximumf v126 v127
  have v129 : FVec Ideal S4x512x128 .f32 := shapeCast S4x512x128 v128 shapeCasts_S2048x128_S4x512x128
  have v130 : FVec Ideal S4x512x128 .f32 := broadcastTo S4x512x128 v3 broadcasts_S4x512x1_S4x512x128
  have v131 : FVec Ideal S4x512x128 .f32 := mulf v129 v130
  shapeCast S2048x128 v131 shapeCasts_S4x512x128_S2048x128

/-- Round 2 before the rectifier, on the flat state `v144`. -/
def r2Pre (v57 : FVec Ideal S4x512x512 .bf16) (v144 : FVec Ideal S2048x128 .f32) (v132 : Vec Ideal S1x128x128 .f32)
    (v135 : Vec Ideal S1x128 .f32) (v137 : Vec Ideal S1x256x128 .f32) (v142 : Vec Ideal S1x128 .f32) :
    FVec Ideal S2048x128 .f32 :=
  have v133 : FVec Ideal S128x128 .f32 := shapeCast S128x128 v132 shapeCasts_S1x128x128_S128x128
  have v134 : FVec Ideal S128x128 .bf16 := truncf .bf16 v133 bitsLt_bf16_f32
  have v136 : FVec Ideal S128 .f32 := shapeCast S128 v135 shapeCasts_S1x128_S128
  have v138 : FVec Ideal S256x128 .f32 := shapeCast S256x128 v137 shapeCasts_S1x256x128_S256x128
  have v139 : FVec Ideal S256x128 .bf16 := truncf .bf16 v138 bitsLt_bf16_f32
  have v140 : FVec Ideal S128x128 .bf16 := extractStridedSlice S128x128 ![0, 0] v139 slices_S256x128_o0_0_S128x128
  have v141 : FVec Ideal S128x128 .bf16 := extractStridedSlice S128x128 ![128, 0] v139 slices_S256x128_o128_0_S128x128
  have v143 : FVec Ideal S128 .f32 := shapeCast S128 v142 shapeCasts_S1x128_S128
  have v145 : FVec Ideal S2048x128 .bf16 := truncf .bf16 v144 bitsLt_bf16_f32
  have cst_64 : FVec Ideal S2048x128 .f32 := constant S2048x128 .f32 0x00000000#32
  have v146 : FVec Ideal S2048x128 .f32 := matmul dot_S2048x128_S128x128_S2048x128_1_0_0_1_n_n none v145 v134 cst_64
  have v147 : FVec Ideal S1x128 .f32 := shapeCast S1x128 v136 shapeCasts_S128_S1x128
  have v148 : FVec Ideal S2048x128 .f32 := broadcastTo S2048x128 v147 broadcasts_S1x128_S2048x128
  have v149 : FVec Ideal S2048x128 .f32 := addf v146 v148
  have cst_65 : Ideal .f32 := Scalar.ofBits .f32 0x00000000#32
  have v150 : FVec Ideal S2048x128 .f32 := broadcast S2048x128 cst_65
  have v151 : FVec Ideal S2048x128 .f32 := maximumf v149 v150
  have v152 : FVec Ideal S4x512x128 .f32 := shapeCast S4x512x128 v151 shapeCasts_S2048x128_S4x512x128
  have v153 : FVec Ideal S4x512x128 .bf16 := truncf .bf16 v152 bitsLt_bf16_f32
  have cst_66 : FVec Ideal S4x512x128 .f32 := constant S4x512x128 .f32 0x00000000#32
  have v154 : FVec Ideal S4x512x128 .f32 := matmul dot_S4x512x512_S4x512x128_S4x512x128_2_1_1_2_0_0 none v57 v153 cst_66
  have v155 : FVec Ideal S2048x128 .f32 := shapeCast S2048x128 v154 shapeCasts_S4x512x128_S2048x128
  have v156 : FVec Ideal S2048x128 .bf16 := truncf .bf16 v144 bitsLt_bf16_f32
  have cst_67 : FVec Ideal S2048x128 .f32 := constant S2048x128 .f32 0x00000000#32
  have v157 : FVec Ideal S2048x128 .f32 := matmul dot_S2048x128_S128x128_S2048x128_1_0_0_1_n_n none v156 v140 cst_67
  have v158 : FVec Ideal S2048x128 .bf16 := truncf .bf16 v155 bitsLt_bf16_f32
  have cst_68 : FVec Ideal S2048x128 .f32 := constant S2048x128 .f32 0x00000000#32
  have v159 : FVec Ideal S2048x128 .f32 := matmul dot_S2048x128_S128x128_S2048x128_1_0_0_1_n_n none v158 v141 cst_68
  have v160 : FVec Ideal S2048x128 .f32 := addf v157 v159
  have v161 : FVec Ideal S1x128 .f32 := shapeCast S1x128 v143 shapeCasts_S128_S1x128
  have v162 : FVec Ideal S2048x128 .f32 := broadcastTo S2048x128 v161 broadcasts_S1x128_S2048x128
  have v163 : FVec Ideal S2048x128 .f32 := addf v160 v162
  v163

/-- The kernel's stretch is the second part on the first. -/
theorem pay19_split (v3 : FVec Ideal S4x512x1 .f32) (v57 : FVec Ideal S4x512x512 .bf16) (v104 : FVec Ideal S128x128 .bf16)
    (v106 : FVec Ideal S128 .f32) (v120 : FVec Ideal S2048x128 .f32) (v121 : FVec Ideal S2048x128 .bf16)
    (cst_53 : FVec Ideal S2048x128 .f32) (v132 : Vec Ideal S1x128x128 .f32) (v135 : Vec Ideal S1x128 .f32)
    (v137 : Vec Ideal S1x256x128 .f32) (v142 : Vec Ideal S1x128 .f32) :
    k0_pay19 (F := Ideal) v3 v57 v104 v106 v120 v121 cst_53 v132 v135 v137 v142
      = r2Pre v57 (r1State v3 v104 v106 v120 v121 cst_53) v132 v135 v137 v142 := rfl

/-- The state that round 1 leaves: the sum `P` of the state against the upper half, the averaged messages `a`
    against the lower half `Hi`, the bias, cut at zero, times the weight. -/
theorem r1State_apply (v3 : FVec Ideal S4x512x1 .f32) (v104 : FVec Ideal S128x128 .bf16) (v106 : FVec Ideal S128 .f32)
    (v120 : FVec Ideal S2048x128 .f32) (v121 : FVec Ideal S2048x128 .bf16) (b : Fin 4)
    (w : Fin 512 → EReal) (P a : Fin 512 → Fin 128 → EReal) (Hi : Fin 128 → Fin 128 → EReal) (bu : Fin 128 → EReal)
    (hw : ∀ n, v3 (ix3 b n (0 : Fin 1)) = w n) (hP : ∀ n k, v120 (ix2 (row b n) k) = P n k)
    (ha : ∀ n k, v121 (ix2 (row b n) k) = a n k) (hHi : ∀ j k, v104 (ix2 j k) = Hi j k)
    (hbu : ∀ k, v106 (ix1 k) = bu k) (n : Fin 512) (k : Fin 128) :
    r1State v3 v104 v106 v120 v121 (constant (F := Ideal) S2048x128 .f32 0x00000000#32) (ix2 (row b n) k)
      = Nmp.relu ((P n k + ∑ j, a n j * Hi j k) + bu k) * w n := by
  unfold r1State
  refine (weightedFlat_apply _ v3 _ _ _ b n k).trans ?_
  rw [hw n]
  refine congrArg (· * w n) ?_
  refine (update_apply _ _ v106 _ _ (row b n) k).trans ?_
  rw [hbu k, hP n k]
  refine congrArg (fun t => Nmp.relu ((P n k + t) + bu k)) ?_
  refine (dense2048_apply _ _ (row b n) k).trans ?_
  exact Finset.sum_congr rfl fun j _ => by rw [ha n j, hHi j k]

/-- Round 2 before the rectifier on a flat state that reads `h`: `preStep` of `h` with the specification's messages
    of `h`, round 2's matrices and bias rows read out of their one-slab blocks. -/
theorem r2Pre_apply (v57 : FVec Ideal S4x512x512 .bf16) (S : FVec Ideal S2048x128 .f32) (v132 : Vec Ideal S1x128x128 .f32)
    (v135 : Vec Ideal S1x128 .f32) (v137 : Vec Ideal S1x256x128 .f32) (v142 : Vec Ideal S1x128 .f32) (b : Fin 4)
    (A : Fin 512 → Fin 512 → EReal) (h : Fin 512 → Fin 128 → EReal)
    (hA : ∀ i j, v57 (ix3 b i j) = A i j) (hS : ∀ n k, S (ix2 (row b n) k) = h n k) (n : Fin 512) (k : Fin 128) :
    r2Pre v57 S v132 v135 v137 v142 (ix2 (row b n) k)
      = preStep A (fun j k => v137 (ix3 (0 : Fin 1) (⟨j.val, by omega⟩ : Fin 256) k))
          (fun j k => v137 (ix3 (0 : Fin 1) (⟨128 + j.val, by omega⟩ : Fin 256) k)) (fun k => v142 (ix2 (0 : Fin 1) k)) h
          (Nmp.msg h (fun j k => v132 (ix3 (0 : Fin 1) j k)) (fun k => v135 (ix2 (0 : Fin 1) k))) n k := by
  unfold r2Pre
  refine (addf_apply _ _ _).trans ?_
  unfold preStep
  refine congrArg₂ (· + ·) ?_ ((biasRow_apply _ _ _ (row b n) k).trans (cast_1x128_apply v142 _ k))
  refine (addf_apply _ _ _).trans ?_
  refine congrArg₂ (· + ·) ?_ ?_
  · refine (dense2048_apply _ _ (row b n) k).trans ?_
    refine Finset.sum_congr rfl fun j _ => ?_
    rw [lo_apply]
    exact congrArg (· * v137 (ix3 (0 : Fin 1) (⟨j.val, by omega⟩ : Fin 256) k)) (hS n j)
  · refine (dense2048_apply _ _ (row b n) k).trans ?_
    refine Finset.sum_congr rfl fun j _ => ?_
    rw [hi_apply]
    refine congrArg (· * v137 (ix3 (0 : Fin 1) (⟨128 + j.val, by omega⟩ : Fin 256) k)) ?_
    refine (aggFlat_apply v57 _ _ b n j).trans ?_
    refine Finset.sum_congr rfl fun m _ => ?_
    rw [hA n m]
    refine congrArg (A n m * ·) ?_
    refine (msgs_apply _ v132 v135 _ _ _ _ _ _ b m j).trans ?_
    unfold Nmp.msg Nmp.dense
    refine congrArg Nmp.relu ?_
    refine congrArg (· + v135 (ix2 (0 : Fin 1) j)) ?_
    refine Finset.sum_congr rfl fun i _ => ?_
    exact congrArg (· * v132 (ix3 (0 : Fin 1) i j)) (hS m i)

/-- The kernel's stretch: round 2 before the rectifier, on the state that one `step` of round 1 leaves. -/
theorem pay19_apply (v3 : FVec Ideal S4x512x1 .f32) (v57 : FVec Ideal S4x512x512 .bf16) (v104 : FVec Ideal S128x128 .bf16)
    (v106 : FVec Ideal S128 .f32) (v120 : FVec Ideal S2048x128 .f32) (v121 : FVec Ideal S2048x128 .bf16)
    (v132 : Vec Ideal S1x128x128 .f32) (v135 : Vec Ideal S1x128 .f32)
    (v137 : Vec Ideal S1x256x128 .f32) (v142 : Vec Ideal S1x128 .f32) (b : Fin 4)
    (A : Fin 512 → Fin 512 → EReal) (w : Fin 512 → EReal) (Lo Hi : Fin 128 → Fin 128 → EReal) (bu : Fin 128 → EReal)
    (h1 g1 : Fin 512 → Fin 128 → EReal)
    (hA : ∀ i j, v57 (ix3 b i j) = A i j) (hw : ∀ n, v3 (ix3 b n (0 : Fin 1)) = w n)
    (hHi : ∀ j k, v104 (ix2 j k) = Hi j k) (hbu : ∀ k, v106 (ix1 k) = bu k)
    (hP : ∀ n k, v120 (ix2 (row b n) k) = ∑ j, h1 n j * Lo j k)
    (ha : ∀ n k, v121 (ix2 (row b n) k) = ∑ m, A n m * g1 m k) (n : Fin 512) (k : Fin 128) :
    k0_pay19 (F := Ideal) v3 v57 v104 v106 v120 v121 (constant (F := Ideal) S2048x128 .f32 0x00000000#32) v132 v135 v137 v142
        (ix2 (row b n) k)
      = preStep A (fun j k => v137 (ix3 (0 : Fin 1) (⟨j.val, by omega⟩ : Fin 256) k))
          (fun j k => v137 (ix3 (0 : Fin 1) (⟨128 + j.val, by omega⟩ : Fin 256) k)) (fun k => v142 (ix2 (0 : Fin 1) k))
          (step A w Lo Hi bu h1 g1)
          (Nmp.msg (step A w Lo Hi bu h1 g1) (fun j k => v132 (ix3 (0 : Fin 1) j k)) (fun k => v135 (ix2 (0 : Fin 1) k))) n k := by
  rw [pay19_split]
  refine r2Pre_apply v57 _ v132 v135 v137 v142 b A _ hA (fun n k => ?_) n k
  exact r1State_apply v3 v104 v106 v120 v121 b w (fun n k => ∑ j, h1 n j * Lo j k) (fun n k => ∑ m, A n m * g1 m k)
    Hi bu hw hP ha hHi hbu n k

end Cert.NmpKer

end
-- ==== Proof.KerReadout.lean ====
/-
  The kernel's readout, read at an index on the extended reals.  The last round's sum is cut at zero, weighted by
  the point's weight (the round's own weighting) and once more (the pooling's), summed over the 512 points of each
  batch element; the pooled vector goes through two dense layers, a rectifier between them; the result, `[4, 128]`,
  is laid as `[4, 1, 128]`.  The stretch is cut in two at the pooled vector: `pooledK` and `readK`.
-/
import proofs.«130221_j58248346468777_2_alg».proof.Proof.KerRoundOps
import proofs.«130221_j58248346468777_2_alg».proof.Proof.Gen.KernelIdeal.Skeleton

noncomputable section

namespace Cert.NmpKer

open Idealize.ShloMosaic Idealize.ShloMosaic.ValueIdx Cert.KernelIdeal Cert.KernelIdeal.Gen Cert.KernelIdeal.NmpOps

/-! ### The small dense product: which operand entries meet at output `(b, k)` and contraction position `q` -/

private theorem d4_lhs0 (i : S4x128.Idx) (q : dot_S4x128_S128x128_S4x128_1_0_0_1_n_n.contr.Idx) :
    (dot_S4x128_S128x128_S4x128_1_0_0_1_n_n.lhsIdx i q 0).val = (i 0).val := by
  unfold DotDims.lhsIdx
  rw [dif_neg (show ¬(0 : Fin S4x128.rank) ∈ dot_S4x128_S128x128_S4x128_1_0_0_1_n_n.lhsBatch from by show ¬(0 : Fin 2) ∈ ([] : List (Fin 2)); decide), dif_pos (show (0 : Fin S4x128.rank) ∈ dot_S4x128_S128x128_S4x128_1_0_0_1_n_n.lhsNonContracting from by show (0 : Fin 2) ∈ ([0] : List (Fin 2)); decide)]
  rfl
private theorem d4_lhs1 (i : S4x128.Idx) (q : dot_S4x128_S128x128_S4x128_1_0_0_1_n_n.contr.Idx) :
    (dot_S4x128_S128x128_S4x128_1_0_0_1_n_n.lhsIdx i q 1).val = (q ⟨0, Nat.one_pos⟩).val :=
  dot_S4x128_S128x128_S4x128_1_0_0_1_n_n.lhsIdx_val_of_single rfl i q
private theorem d4_rhs0 (i : S4x128.Idx) (q : dot_S4x128_S128x128_S4x128_1_0_0_1_n_n.contr.Idx) :
    (dot_S4x128_S128x128_S4x128_1_0_0_1_n_n.rhsIdx i q 0).val = (q ⟨0, Nat.one_pos⟩).val :=
  dot_S4x128_S128x128_S4x128_1_0_0_1_n_n.rhsIdx_val_of_single rfl i q
private theorem d4_rhs1 (i : S4x128.Idx) (q : dot_S4x128_S128x128_S4x128_1_0_0_1_n_n.contr.Idx) :
    (dot_S4x128_S128x128_S4x128_1_0_0_1_n_n.rhsIdx i q 1).val = (i 1).val := by
  unfold DotDims.rhsIdx
  rw [dif_neg (show ¬(1 : Fin S128x128.rank) ∈ dot_S4x128_S128x128_S4x128_1_0_0_1_n_n.rhsBatch from by show ¬(1 : Fin 2) ∈ ([] : List (Fin 2)); decide), dif_pos (show (1 : Fin S128x128.rank) ∈ dot_S4x128_S128x128_S4x128_1_0_0_1_n_n.rhsNonContracting from by show (1 : Fin 2) ∈ ([1] : List (Fin 2)); decide)]
  rfl

/-- The `[4, 128] · [128, 128]` product into the zero accumulator: entry `(b, k)` is `∑ j, X (b, j) · W (j, k)`; the
    contraction index set has one axis of extent 128, and the sum is carried over to `Fin 128` along that bijection. -/
theorem dense4_apply {φ₁ φ₂ : FTy} (X : FVec Ideal S4x128 φ₁) (W : FVec Ideal S128x128 φ₂) (b : Fin 4) (k : Fin 128) :
    matmul dot_S4x128_S128x128_S4x128_1_0_0_1_n_n none X W (constant S4x128 .f32 0x00000000#32) (ix2 b k)
      = ∑ j : Fin 128, X (ix2 b j) * W (ix2 j k) := by
  refine (Ideal.matmul_constant_zero_apply dot_S4x128_S128x128_S4x128_1_0_0_1_n_n none X W (ix2 b k)).trans ?_
  rw [← Equiv.sum_comp (ValueIdx.contrEquiv1 dot_S4x128_S128x128_S4x128_1_0_0_1_n_n 128 rfl rfl).symm]
  refine Finset.sum_congr rfl fun j _ => ?_
  have hk := ValueIdx.contrEquiv1_symm_val dot_S4x128_S128x128_S4x128_1_0_0_1_n_n 128 rfl rfl j
  have el : dot_S4x128_S128x128_S4x128_1_0_0_1_n_n.lhsIdx (ix2 b k) ((ValueIdx.contrEquiv1 dot_S4x128_S128x128_S4x128_1_0_0_1_n_n 128 rfl rfl).symm j) = ix2 b j := funext fun a => Fin.ext (by
    match a with
    | ⟨0, _⟩ => exact d4_lhs0 _ _
    | ⟨1, _⟩ => exact (d4_lhs1 _ _).trans hk)
  have er : dot_S4x128_S128x128_S4x128_1_0_0_1_n_n.rhsIdx (ix2 b k) ((ValueIdx.contrEquiv1 dot_S4x128_S128x128_S4x128_1_0_0_1_n_n 128 rfl rfl).symm j) = ix2 j k := funext fun a => Fin.ext (by
    match a with
    | ⟨0, _⟩ => exact (d4_rhs0 _ _).trans hk
    | ⟨1, _⟩ => exact d4_rhs1 _ _)
  rw [el, er]

/-- A bias vector laid as one row and repeated down the 4 rows reads its entry `k` in every row. -/
theorem biasRow4_apply {α : Type} (v : S128.Idx → α) (h1 : S128.ShapeCasts S1x128) (h2 : S1x128.Broadcasts S4x128)
    (b : Fin 4) (k : Fin 128) :
    broadcastTo S4x128 (shapeCast S1x128 v h1) h2 (ix2 b k) = v (ix1 k) :=
  (broadcastTo_1b_ab_apply (shapeCast S1x128 v h1) h2 b k).trans (shapeCast_a_1a_apply v h1 (0 : Fin 1) k)

/-- The result laid as `[4, 1, 128]` reads, at `(b, 0, k)`, its entry `(b, k)`. -/
theorem cast_4x128_apply {α : Type} (v : S4x128.Idx → α) (h : S4x128.ShapeCasts S4x1x128) (b : Fin 4) (k : Fin 128) :
    shapeCast S4x1x128 v h (ix3 b (0 : Fin 1) k) = v (ix2 b k) :=
  shapeCast_apply v h _ _ (by
    rw [Shape.rowMajor_val_two, Shape.rowMajor_val_three]
    show b.val * 128 + k.val = (b.val * 1 + 0) * 128 + k.val
    omega)

/-- The sum over the 512 points of a batch element. -/
theorem sumPoints_apply (v : FVec Ideal S4x512x128 .f32) (h : S4x512x128.Reduces [1] S4x128) (hφ : FKind.Formats .f32)
    (hacc : (0x00000000#32 : BitVec 32) = FKind.add.neutral .f32 hφ) (b : Fin 4) (k : Fin 128) :
    multiReduction (F := Ideal) .add [1] S4x128 v 0x00000000#32 h hφ hacc (ix2 b k) = ∑ n : Fin 512, v (ix3 b n k) := by
  refine (Ideal.multiReduction_add_single v _ h hφ hacc (ix2 b k)).trans ?_
  show ∑ n : Fin 512, v (h.lift (ix2 b k) n) = _
  refine Finset.sum_congr rfl fun n _ => ?_
  refine congrArg v (funext fun a => Fin.ext ?_)
  match a with
  | ⟨0, _⟩ => rfl
  | ⟨1, _⟩ => rfl
  | ⟨2, _⟩ => rfl

/-- The pooled vector: the last round's sum cut at zero, weighted twice, summed over the points. -/
def pooledK (v3 : FVec Ideal S4x512x1 .f32) (v163 : FVec Ideal S2048x128 .f32) (v164 : FVec Ideal S2048x128 .f32) :
    FVec Ideal S4x128 .f32 :=
  have v165 : FVec Ideal S2048x128 .f32 := maximumf v163 v164
  have v166 : FVec Ideal S4x512x128 .f32 := shapeCast S4x512x128 v165 shapeCasts_S2048x128_S4x512x128
  have v167 : FVec Ideal S4x512x128 .f32 := broadcastTo S4x512x128 v3 broadcasts_S4x512x1_S4x512x128
  have v168 : FVec Ideal S4x512x128 .f32 := mulf v166 v167
  have v169 : FVec Ideal S4x512x128 .f32 := broadcastTo S4x512x128 v3 broadcasts_S4x512x1_S4x512x128
  have v170 : FVec Ideal S4x512x128 .f32 := mulf v168 v169
  have v171 : FVec Ideal S4x128 .f32 := multiReduction .add [1] S4x128 v170 0x00000000#32 reduces_S4x512x128_S4x128 (.inl rfl) rfl
  v171

/-- The two dense layers on the pooled vector, and the result's layout. -/
def readK (v171 : FVec Ideal S4x128 .f32) (v173 : Vec Ideal S128x128 .f32) (v176 : Vec Ideal S128 .f32)
    (v183 : Vec Ideal S128x128 .f32) (v186 : Vec Ideal S128 .f32) : FVec Ideal S4x1x128 .f32 :=
  have v172 : FVec Ideal S4x128 .bf16 := truncf .bf16 v171 bitsLt_bf16_f32
  have v174 : FVec Ideal S128x128 .bf16 := truncf .bf16 v173 bitsLt_bf16_f32
  have cst_73 : FVec Ideal S4x128 .f32 := constant S4x128 .f32 0x00000000#32
  have v175 : FVec Ideal S4x128 .f32 := matmul dot_S4x128_S128x128_S4x128_1_0_0_1_n_n none v172 v174 cst_73
  have v177 : FVec Ideal S1x128 .f32 := shapeCast S1x128 v176 shapeCasts_S128_S1x128
  have v178 : FVec Ideal S4x128 .f32 := broadcastTo S4x128 v177 broadcasts_S1x128_S4x128
  have v179 : FVec Ideal S4x128 .f32 := addf v175 v178
  have cst_75 : Ideal .f32 := Scalar.ofBits .f32 0x00000000#32
  have v180 : FVec Ideal S4x128 .f32 := broadcast S4x128 cst_75
  have v181 : FVec Ideal S4x128 .f32 := maximumf v179 v180
  have v182 : FVec Ideal S4x128 .bf16 := truncf .bf16 v181 bitsLt_bf16_f32
  have v184 : FVec Ideal S128x128 .bf16 := truncf .bf16 v183 bitsLt_bf16_f32
  have cst_78 : FVec Ideal S4x128 .f32 := constant S4x128 .f32 0x00000000#32
  have v185 : FVec Ideal S4x128 .f32 := matmul dot_S4x128_S128x128_S4x128_1_0_0_1_n_n none v182 v184 cst_78
  have v187 : FVec Ideal S1x128 .f32 := shapeCast S1x128 v186 shapeCasts_S128_S1x128
  have v188 : FVec Ideal S4x128 .f32 := broadcastTo S4x128 v187 broadcasts_S1x128_S4x128
  have v189 : FVec Ideal S4x128 .f32 := addf v185 v188
  have v190 : FVec Ideal S4x1x128 .f32 := shapeCast S4x1x128 v189 shapeCasts_S4x128_S4x1x128
  v190

/-- The kernel's stretch is the second part on the first. -/
theorem pay1_split (v3 : FVec Ideal S4x512x1 .f32) (v163 v164 : FVec Ideal S2048x128 .f32) (v173 : Vec Ideal S128x128 .f32)
    (v176 : Vec Ideal S128 .f32) (v183 : Vec Ideal S128x128 .f32) (v186 : Vec Ideal S128 .f32) :
    k0_pay1 (F := Ideal) v3 v163 v164 v173 v176 v183 v186 = readK (pooledK v3 v163 v164) v173 v176 v183 v186 := rfl

/-- The pooled vector of batch element `b` at feature `k`, when the last round's sum reads `pre` and the weights `w`. -/
theorem pooledK_apply (v3 : FVec Ideal S4x512x1 .f32) (v163 : FVec Ideal S2048x128 .f32) (b : Fin 4)
    (w : Fin 512 → EReal) (pre : Fin 512 → Fin 128 → EReal)
    (hw : ∀ n, v3 (ix3 b n (0 : Fin 1)) = w n) (hpre : ∀ n k, v163 (ix2 (row b n) k) = pre n k) (k : Fin 128) :
    pooledK v3 v163 (k0_pay20 (F := Ideal)) (ix2 b k) = ∑ n, (Nmp.relu (pre n k) * w n) * w n := by
  unfold pooledK
  refine (sumPoints_apply _ _ _ _ b k).trans ?_
  refine Finset.sum_congr rfl fun n _ => ?_
  refine (mulf_apply _ _ _).trans ?_
  rw [maskCol_apply, hw n]
  refine congrArg (· * w n) ?_
  refine (weighted_apply _ v3 _ _ b n k).trans ?_
  rw [hw n]
  refine congrArg (· * w n) ?_
  unfold k0_pay20
  refine (relu0_apply _ _).trans ?_
  rw [hpre n k]
  rfl

/-- The two dense layers on a pooled vector `p` are the specification's readout of row `b` of `p`. -/
theorem readK_apply (p : FVec Ideal S4x128 .f32) (v173 : Vec Ideal S128x128 .f32) (v176 : Vec Ideal S128 .f32)
    (v183 : Vec Ideal S128x128 .f32) (v186 : Vec Ideal S128 .f32) (b : Fin 4) (k : Fin 128) :
    readK p v173 v176 v183 v186 (ix3 b (0 : Fin 1) k)
      = Nmp.readout (fun j => p (ix2 b j)) (fun j k => v173 (ix2 j k)) (fun k => v176 (ix1 k))
          (fun j k => v183 (ix2 j k)) (fun k => v186 (ix1 k)) k := by
  unfold readK
  refine (cast_4x128_apply _ _ b k).trans ?_
  refine (addf_apply _ _ _).trans ?_
  unfold Nmp.readout Nmp.dense
  refine congrArg₂ (· + ·) ?_ (biasRow4_apply v186 _ _ b k)
  refine (dense4_apply _ _ b k).trans ?_
  refine Finset.sum_congr rfl fun j _ => ?_
  refine congrArg (· * v183 (ix2 j k)) ?_
  refine (relu0_apply _ _).trans ?_
  refine congrArg Nmp.relu ?_
  refine (addf_apply _ _ _).trans ?_
  exact congrArg₂ (· + ·) (dense4_apply _ _ b j) (biasRow4_apply v176 _ _ b j)

/-- The kernel's readout stretch, when the last round's sum reads `pre` and the weights `w`: the specification's
    readout of the pooled last state `relu pre · w`. -/
theorem pay1_apply (v3 : FVec Ideal S4x512x1 .f32) (v163 : FVec Ideal S2048x128 .f32) (v173 : Vec Ideal S128x128 .f32)
    (v176 : Vec Ideal S128 .f32) (v183 : Vec Ideal S128x128 .f32) (v186 : Vec Ideal S128 .f32) (b : Fin 4)
    (w : Fin 512 → EReal) (pre : Fin 512 → Fin 128 → EReal)
    (hw : ∀ n, v3 (ix3 b n (0 : Fin 1)) = w n) (hpre : ∀ n k, v163 (ix2 (row b n) k) = pre n k) (k : Fin 128) :
    k0_pay1 (F := Ideal) v3 v163 (k0_pay20 (F := Ideal)) v173 v176 v183 v186 (ix3 b (0 : Fin 1) k)
      = Nmp.readout (Nmp.pooled (fun n k => Nmp.relu (pre n k) * w n) w) (fun j k => v173 (ix2 j k))
          (fun k => v176 (ix1 k)) (fun j k => v183 (ix2 j k)) (fun k => v186 (ix1 k)) k := by
  rw [pay1_split]
  refine (readK_apply _ v173 v176 v183 v186 b k).trans ?_
  refine congrArg (fun p => Nmp.readout p (fun j k => v173 (ix2 j k)) (fun k => v176 (ix1 k))
    (fun j k => v183 (ix2 j k)) (fun k => v186 (ix1 k)) k) ?_
  funext j
  exact pooledK_apply v3 v163 b w pre hw hpre j

end Cert.NmpKer

end
-- ==== Proof.KerBlockOf.lean ====
/-
  The whole kernel body on one batch element of its block, read at an index on the extended reals, from three
  facts about its first stages (the per-point weights, the embedded state, the adjacency): the three rounds chained
  — round 0's state, round 1's two products, round 2's sum before the rectifier — and the readout give the
  specification's network on the round parameters as the kernel loads them (slab `t` of the stacked arrays), and a
  load of slab `t` reads the array at leading coordinate `t`.
-/
import proofs.«130221_j58248346468777_2_alg».proof.Proof.KerRound0
import proofs.«130221_j58248346468777_2_alg».proof.Proof.KerRound1
import proofs.«130221_j58248346468777_2_alg».proof.Proof.KerRound2
import proofs.«130221_j58248346468777_2_alg».proof.Proof.KerReadout
import proofs.«130221_j58248346468777_2_alg».proof.Proof.NmpArrays
import proofs.«130221_j58248346468777_2_alg».proof.Proof.Gen.KernelIdeal.Frame

noncomputable section

namespace Cert.NmpKer

open Idealize.ShloMosaic Idealize.ShloMosaic.ValueIdx Cert.KernelIdeal Cert.KernelIdeal.Gen Cert.KernelIdeal.NmpOps

/-! ### One round's parameters out of their one-slab blocks -/

theorem pay8_apply (u : Vec Ideal S1x256x128 .f32) (j k : Fin 128) :
    k0_pay8 (F := Ideal) u (ix2 j k) = u (ix3 (0 : Fin 1) (⟨j.val, by omega⟩ : Fin 256) k) := by
  unfold k0_pay8 k0_pay7
  exact lo_apply u _ _ _ j k

theorem pay9_apply (u : Vec Ideal S1x256x128 .f32) (j k : Fin 128) :
    k0_pay9 (F := Ideal) u (ix2 j k) = u (ix3 (0 : Fin 1) (⟨128 + j.val, by omega⟩ : Fin 256) k) := by
  unfold k0_pay9 k0_pay7
  exact hi_apply u _ _ _ j k

theorem pay10_apply (d : Vec Ideal S1x128 .f32) (k : Fin 128) :
    k0_pay10 (F := Ideal) d (ix1 k) = d (ix2 (0 : Fin 1) k) := by
  unfold k0_pay10
  exact cast_1x128_apply d _ k

theorem pay14_apply (u : Vec Ideal S1x256x128 .f32) (j k : Fin 128) :
    k0_pay14 (F := Ideal) u (ix2 j k) = u (ix3 (0 : Fin 1) (⟨128 + j.val, by omega⟩ : Fin 256) k) := by
  unfold k0_pay14 k0_pay13
  exact hi_apply u _ _ _ j k

theorem pay15_apply (d : Vec Ideal S1x128 .f32) (k : Fin 128) :
    k0_pay15 (F := Ideal) d (ix1 k) = d (ix2 (0 : Fin 1) k) := by
  unfold k0_pay15
  exact cast_1x128_apply d _ k

/-- A round's parameters as the kernel reads them out of the four one-slab blocks it loads. -/
def roundLd (m : Vec Ideal S1x128x128 .f32) (c : Vec Ideal S1x128 .f32) (u : Vec Ideal S1x256x128 .f32)
    (d : Vec Ideal S1x128 .f32) : Nmp.Round where
  Wm j k := m (ix3 (0 : Fin 1) j k)
  bm k := c (ix2 (0 : Fin 1) k)
  Lo j k := u (ix3 (0 : Fin 1) (⟨j.val, by omega⟩ : Fin 256) k)
  Hi j k := u (ix3 (0 : Fin 1) (⟨128 + j.val, by omega⟩ : Fin 256) k)
  bu k := d (ix2 (0 : Fin 1) k)

/-- The network from the adjacency, the weights and the embedded state on. -/
def netFrom (A : Fin 512 → Fin 512 → EReal) (w : Fin 512 → EReal) (h0 : Fin 512 → Fin 128 → EReal)
    (r0 r1 r2 : Nmp.Round) (V1 : Fin 128 → Fin 128 → EReal) (c1 : Fin 128 → EReal)
    (V2 : Fin 128 → Fin 128 → EReal) (c2 : Fin 128 → EReal) (k : Fin 128) : EReal :=
  Nmp.readout (Nmp.pooled
    (Nmp.layer A w r2.Wm r2.bm r2.Lo r2.Hi r2.bu
      (Nmp.layer A w r1.Wm r1.bm r1.Lo r1.Hi r1.bu
        (Nmp.layer A w r0.Wm r0.bm r0.Lo r0.Hi r0.bu h0))) w) V1 c1 V2 c2 k

theorem net_eq_netFrom (jet : Fin 512 → Fin 8 → EReal) (msk : Fin 512 → EReal)
    (W0 : Fin 8 → Fin 128 → EReal) (b0 : Fin 128 → EReal) (W1 : Fin 128 → Fin 128 → EReal) (b1 : Fin 128 → EReal)
    (r0 r1 r2 : Nmp.Round) (V1 : Fin 128 → Fin 128 → EReal) (c1 : Fin 128 → EReal)
    (V2 : Fin 128 → Fin 128 → EReal) (c2 : Fin 128 → EReal) (k : Fin 128) :
    Nmp.net jet msk W0 b0 W1 b1 r0 r1 r2 V1 c1 V2 c2 k
      = netFrom (Nmp.adj jet msk) msk (Nmp.embed jet W0 b0 W1 b1) r0 r1 r2 V1 c1 V2 c2 k := rfl

/-! ### The stages chained -/

/-- The body's stages after the first ones, on one batch element: when the weights column reads `w`, the adjacency
    `A` and the embedded state `h0`, the stored value is the network from there on. -/
theorem chain_eq (V3 : FVec Ideal S4x512x1 .f32) (V57 : FVec Ideal S4x512x512 .bf16) (V25 : FVec Ideal S4x512x128 .f32)
    (m0 m1 m2 : Vec Ideal S1x128x128 .f32) (c0 c1 c2 : Vec Ideal S1x128 .f32)
    (u0 u1 u2 : Vec Ideal S1x256x128 .f32) (d0 d1 d2 : Vec Ideal S1x128 .f32)
    (V1 : Vec Ideal S128x128 .f32) (e1 : Vec Ideal S128 .f32) (V2 : Vec Ideal S128x128 .f32) (e2 : Vec Ideal S128 .f32)
    (b : Fin 4) (A : Fin 512 → Fin 512 → EReal) (w : Fin 512 → EReal) (h0 : Fin 512 → Fin 128 → EReal)
    (hw : ∀ n, V3 (ix3 b n (0 : Fin 1)) = w n) (hA : ∀ i j, V57 (ix3 b i j) = A i j)
    (hh0 : ∀ n k, V25 (ix3 b n k) = h0 n k) (k : Fin 128) :
    k0_pay1 (F := Ideal) V3
        (k0_pay19 V3 V57 (k0_pay14 u1) (k0_pay15 d1)
          (k0_pay17 V3 V57 (k0_pay8 u0) (k0_pay9 u0) (k0_pay10 d0) (k0_pay11 V25) (k0_pay12 V25 m0 c0) (constant (F := Ideal) S4x512x128 .f32 0x00000000#32) u1)
          (k0_pay18 V3 V57 (k0_pay8 u0) (k0_pay9 u0) (k0_pay10 d0) (k0_pay11 V25) (k0_pay12 V25 m0 c0) (constant (F := Ideal) S4x512x128 .f32 0x00000000#32) m1 c1)
          (constant (F := Ideal) S2048x128 .f32 0x00000000#32) m2 c2 u2 d2)
        (k0_pay20 (F := Ideal)) V1 e1 V2 e2 (ix3 b (0 : Fin 1) k)
      = netFrom A w h0 (roundLd m0 c0 u0 d0) (roundLd m1 c1 u1 d1) (roundLd m2 c2 u2 d2)
          (fun j k => V1 (ix2 j k)) (fun k => e1 (ix1 k)) (fun j k => V2 (ix2 j k)) (fun k => e2 (ix1 k)) k := by
  have hV : (fun n k => V25 (ix3 b n k)) = h0 := funext fun n => funext fun k => hh0 n k
  have e16 : ∀ n k, k0_pay16 (F := Ideal) V3 V57 (k0_pay8 u0) (k0_pay9 u0) (k0_pay10 d0) (k0_pay11 V25) (k0_pay12 V25 m0 c0) (constant (F := Ideal) S4x512x128 .f32 0x00000000#32) (ix2 (row b n) k)
      = Nmp.layer A w (roundLd m0 c0 u0 d0).Wm (roundLd m0 c0 u0 d0).bm (roundLd m0 c0 u0 d0).Lo (roundLd m0 c0 u0 d0).Hi
          (roundLd m0 c0 u0 d0).bu h0 n k := fun n k =>
    pay16_apply V3 V57 _ _ _ _ _ b A w (roundLd m0 c0 u0 d0).Lo (roundLd m0 c0 u0 d0).Hi (roundLd m0 c0 u0 d0).bu h0
      (Nmp.msg h0 (roundLd m0 c0 u0 d0).Wm (roundLd m0 c0 u0 d0).bm) hA hw (pay8_apply u0) (pay9_apply u0) (pay10_apply d0)
      (fun n k => (pay11_apply V25 b n k).trans (hh0 n k))
      (fun n k => (pay12_apply V25 m0 c0 b n k).trans (by rw [hV]; rfl)) n k
  have e17 : ∀ n k, k0_pay17 (F := Ideal) V3 V57 (k0_pay8 u0) (k0_pay9 u0) (k0_pay10 d0) (k0_pay11 V25) (k0_pay12 V25 m0 c0) (constant (F := Ideal) S4x512x128 .f32 0x00000000#32) u1 (ix2 (row b n) k)
      = ∑ j : Fin 128, (Nmp.layer A w (roundLd m0 c0 u0 d0).Wm (roundLd m0 c0 u0 d0).bm (roundLd m0 c0 u0 d0).Lo (roundLd m0 c0 u0 d0).Hi (roundLd m0 c0 u0 d0).bu h0) n j * (roundLd m1 c1 u1 d1).Lo j k := fun n k =>
    pay17_apply V3 V57 _ _ _ _ _ _ u1 b _ e16 n k
  have e18 : ∀ n k, k0_pay18 (F := Ideal) V3 V57 (k0_pay8 u0) (k0_pay9 u0) (k0_pay10 d0) (k0_pay11 V25) (k0_pay12 V25 m0 c0) (constant (F := Ideal) S4x512x128 .f32 0x00000000#32) m1 c1 (ix2 (row b n) k)
      = ∑ m : Fin 512, A n m * Nmp.msg (Nmp.layer A w (roundLd m0 c0 u0 d0).Wm (roundLd m0 c0 u0 d0).bm (roundLd m0 c0 u0 d0).Lo (roundLd m0 c0 u0 d0).Hi (roundLd m0 c0 u0 d0).bu h0) (roundLd m1 c1 u1 d1).Wm (roundLd m1 c1 u1 d1).bm m k := fun n k =>
    pay18_apply V3 V57 _ _ _ _ _ _ m1 c1 b A _ hA e16 n k
  have e19 := fun n k => pay19_apply V3 V57 (k0_pay14 u1) (k0_pay15 d1) _ _ m2 c2 u2 d2 b A w
    (roundLd m1 c1 u1 d1).Lo (roundLd m1 c1 u1 d1).Hi (roundLd m1 c1 u1 d1).bu (Nmp.layer A w (roundLd m0 c0 u0 d0).Wm (roundLd m0 c0 u0 d0).bm (roundLd m0 c0 u0 d0).Lo (roundLd m0 c0 u0 d0).Hi (roundLd m0 c0 u0 d0).bu h0) (Nmp.msg (Nmp.layer A w (roundLd m0 c0 u0 d0).Wm (roundLd m0 c0 u0 d0).bm (roundLd m0 c0 u0 d0).Lo (roundLd m0 c0 u0 d0).Hi (roundLd m0 c0 u0 d0).bu h0) (roundLd m1 c1 u1 d1).Wm (roundLd m1 c1 u1 d1).bm)
    hA hw (pay14_apply u1) (pay15_apply d1) e17 e18 n k
  exact pay1_apply V3 _ V1 e1 V2 e2 b w _ hw e19 k

/-! ### Loads of one slab of a stacked array -/

/-- A load of slab `t` of a stack of three matrices reads, at `(0, j, k)`, the stack at `(t, j, k)`. -/
theorem ld_slab3 {Val : EltTy → Type} {e : EltTy} {A B : Nat} (t : Fin 3) (o : Nat) (ho : o = t.val)
    (X : (⟨3, ![3, A, B]⟩ : Shape).Idx → Val e)
    (inb : ∀ a, (![o, 0, 0] : Fin 3 → Nat) a + (⟨3, ![1, A, B]⟩ : Shape).size a ≤ (⟨3, ![3, A, B]⟩ : Shape).size a)
    (j : Fin A) (k : Fin B) :
    View.ld X (Rect.unit (s := ⟨3, ![3, A, B]⟩) ![o, 0, 0] (⟨3, ![1, A, B]⟩ : Shape).size inb) (ix3 (0 : Fin 1) j k)
      = X (ix3 t j k) := by
  subst ho
  refine congrArg X (funext fun a => Fin.ext ?_)
  match a with
  | ⟨0, _⟩ => show t.val + 1 * 0 = t.val; omega
  | ⟨1, _⟩ => show 0 + 1 * j.val = j.val; omega
  | ⟨2, _⟩ => show 0 + 1 * k.val = k.val; omega

/-- A load of row `t` of a stack of three rows reads, at `(0, k)`, the stack at `(t, k)`. -/
theorem ld_slab2 {Val : EltTy → Type} {e : EltTy} {B : Nat} (t : Fin 3) (o : Nat) (ho : o = t.val)
    (X : (⟨2, ![3, B]⟩ : Shape).Idx → Val e)
    (inb : ∀ a, (![o, 0] : Fin 2 → Nat) a + (⟨2, ![1, B]⟩ : Shape).size a ≤ (⟨2, ![3, B]⟩ : Shape).size a)
    (k : Fin B) :
    View.ld X (Rect.unit (s := ⟨2, ![3, B]⟩) ![o, 0] (⟨2, ![1, B]⟩ : Shape).size inb) (ix2 (0 : Fin 1) k)
      = X (ix2 t k) := by
  subst ho
  refine congrArg X (funext fun a => Fin.ext ?_)
  match a with
  | ⟨0, _⟩ => show t.val + 1 * 0 = t.val; omega
  | ⟨1, _⟩ => show 0 + 1 * k.val = k.val; omega

/-- The parameters the kernel reads out of its loads of slab `t` are round `t`'s. -/
theorem roundLd_ld (x6 : Vec Ideal S3x128x128 .f32) (x7 : Vec Ideal S3x128 .f32) (x8 : Vec Ideal S3x256x128 .f32)
    (x9 : Vec Ideal S3x128 .f32) (t : Fin 3) (o : Nat) (ho : o = t.val)
    (i6 : ∀ a, (![o, 0, 0] : Fin 3 → Nat) a + S1x128x128.size a ≤ S3x128x128.size a)
    (i7 : ∀ a, (![o, 0] : Fin 2 → Nat) a + S1x128.size a ≤ S3x128.size a)
    (i8 : ∀ a, (![o, 0, 0] : Fin 3 → Nat) a + S1x256x128.size a ≤ S3x256x128.size a)
    (i9 : ∀ a, (![o, 0] : Fin 2 → Nat) a + S1x128.size a ≤ S3x128.size a) :
    roundLd (View.ld x6 (Rect.unit (s := S3x128x128) ![o, 0, 0] S1x128x128.size i6))
        (View.ld x7 (Rect.unit (s := S3x128) ![o, 0] S1x128.size i7))
        (View.ld x8 (Rect.unit (s := S3x256x128) ![o, 0, 0] S1x256x128.size i8))
        (View.ld x9 (Rect.unit (s := S3x128) ![o, 0] S1x128.size i9))
      = Nmp.roundOf x6 x7 x8 x9 t := by
  unfold roundLd Nmp.roundOf
  refine congr (congr (congr (congr (congrArg Nmp.Round.mk ?_) ?_) ?_) ?_) ?_
  · funext j k; exact ld_slab3 t o ho x6 i6 j k
  · funext k; exact ld_slab2 t o ho x7 i7 k
  · funext j k; exact ld_slab3 t o ho x8 i8 _ k
  · funext j k; exact ld_slab3 t o ho x8 i8 _ k
  · funext k; exact ld_slab2 t o ho x9 i9 k

/-! ### The output block at an index -/

theorem zeros3 : (![0, 0, 0] : Fin 3 → Nat) = fun _ => 0 := by
  funext a; match a with | ⟨0, _⟩ => rfl | ⟨1, _⟩ => rfl | ⟨2, _⟩ => rfl
theorem zeros2 : (![0, 0] : Fin 2 → Nat) = fun _ => 0 := by
  funext a; match a with | ⟨0, _⟩ => rfl | ⟨1, _⟩ => rfl
theorem zeros1 : (![0] : Fin 1 → Nat) = fun _ => 0 := by
  funext a; match a with | ⟨0, _⟩ => rfl

/-- The body's output block at `(b, 0, k)` is the network on batch element `b` of the block's points and weights,
    given the three facts about the body's first stages on that batch element. -/
theorem block_of (x0 : Vec Ideal S4x512x8 .f32) (x1 : Vec Ideal S4x1x512 .f32) (x2 : Vec Ideal S8x128 .f32) (x3 : Vec Ideal S128 .f32) (x4 : Vec Ideal S128x128 .f32) (x5 : Vec Ideal S128 .f32) (x6 : Vec Ideal S3x128x128 .f32) (x7 : Vec Ideal S3x128 .f32) (x8 : Vec Ideal S3x256x128 .f32) (x9 : Vec Ideal S3x128 .f32) (x10 : Vec Ideal S128x128 .f32) (x11 : Vec Ideal S128 .f32) (x12 : Vec Ideal S128x128 .f32) (x13 : Vec Ideal S128 .f32) (b : Fin 4) (k : Fin 128)
    (h3 : ∀ n : Fin 512, k0_pay3 (F := Ideal) x1 (ix3 b n (0 : Fin 1)) = x1 (ix3 b (0 : Fin 1) n))
    (h4 : ∀ (n : Fin 512) (k : Fin 128), k0_pay4 (F := Ideal) x0 x2 x3 x4 x5 (ix3 b n k)
      = Nmp.embed (fun n f => x0 (ix3 b n f)) (fun f k => x2 (ix2 f k)) (fun k => x3 (ix1 k)) (fun j k => x4 (ix2 j k))
          (fun k => x5 (ix1 k)) n k)
    (h6 : ∀ n m : Fin 512, k0_pay6 (F := Ideal) (k0_pay2 x1) (k0_pay5 x0) (ix3 b n m)
      = Nmp.adj (fun n f => x0 (ix3 b n f)) (fun n => x1 (ix3 b (0 : Fin 1) n)) n m) :
    out0_14 (F := Ideal) x0 x1 x2 x3 x4 x5 x6 x7 x8 x9 x10 x11 x12 x13 (ix3 b (0 : Fin 1) k)
      = Nmp.netOf (fun n f => x0 (ix3 b n f)) (fun n => x1 (ix3 b (0 : Fin 1) n)) x2 x3 x4 x5 x6 x7 x8 x9 x10 x11 x12 x13 k := by
  unfold out0_14
  rw [View.canon_unit_zero zeros3]
  simp only [View.ld_unit_zero (S := S4x512x8) zeros3, View.ld_unit_zero (S := S4x1x512) zeros3,
    View.ld_unit_zero (S := S8x128) zeros2, View.ld_unit_zero (S := S128) zeros1, View.ld_unit_zero (S := S128x128) zeros2]
  refine (chain_eq _ _ _ (View.ld x6 r0_5) (View.ld x6 r0_8) (View.ld x6 r0_11) (View.ld x7 r0_6) (View.ld x7 r0_9) (View.ld x7 r0_12)
    (View.ld x8 r0_7) (View.ld x8 r0_10) (View.ld x8 r0_13) (View.ld x9 r0_6) (View.ld x9 r0_9) (View.ld x9 r0_12)
    x10 x11 x12 x13 b _ _ _ h3 h6 h4 k).trans ?_
  unfold Nmp.netOf
  rw [net_eq_netFrom]
  rw [roundLd_ld x6 x7 x8 x9 0 0 rfl, roundLd_ld x6 x7 x8 x9 1 1 rfl, roundLd_ld x6 x7 x8 x9 2 2 rfl]

end Cert.NmpKer

end
-- ==== Proof.KerEmb.lean ====
/-
  The kernel's embedding stage on the extended reals, read at a point: the two dense layers, each a matrix
  product into a zero accumulator plus a bias row, each followed by the rectifier, computed on the flat layout
  (row `512 b + n`) and read back in the batched one, are the embedding of point `n` of batch element `b`.
-/
import proofs.«130221_j58248346468777_2_alg».proof.Proof.Gen.KernelIdeal.Skeleton
import proofs.«130221_j58248346468777_2_alg».proof.Proof.KerOps
import proofs.«130221_j58248346468777_2_alg».proof.Proof.NmpArrays

noncomputable section

namespace Cert.NmpKer

open Idealize.ShloMosaic Idealize.ShloMosaic.ValueIdx Cert.KernelIdeal Cert.KernelIdeal.Gen Cert.KernelIdeal.NmpOps
open Cert.KernelIdeal.Facts₀

/-- Reading the batched `[4, 512, 8]` layout as the flat `[2048, 8]` one, at the flat row of `(b, n)`: the two
    indices have the same row-major position, `(512 b + n) · 8 + f`. -/
theorem flat8_apply {α : Type} (v : S4x512x8.Idx → α) (h : S4x512x8.ShapeCasts S2048x8)
    (b : Fin 4) (n : Fin 512) (f : Fin 8) :
    shapeCast S2048x8 v h (ix2 (row b n) f) = v (ix3 b n f) :=
  shapeCast_apply v h _ _ (by
    rw [Shape.rowMajor_val_two, Shape.rowMajor_val_three]
    show (b.val * 512 + n.val) * 8 + f.val = (512 * b.val + n.val) * 8 + f.val
    omega)

/-! ### The first dense product: which operand entries meet at output `(r, k)` and contraction position `q` -/

private theorem in_lhs0 (i : S2048x128.Idx) (q : dot_S2048x8_S8x128_S2048x128_1_0_0_1_n_n.contr.Idx) :
    (dot_S2048x8_S8x128_S2048x128_1_0_0_1_n_n.lhsIdx i q 0).val = (i 0).val := by
  unfold DotDims.lhsIdx
  rw [dif_neg (show ¬(0 : Fin S2048x8.rank) ∈ dot_S2048x8_S8x128_S2048x128_1_0_0_1_n_n.lhsBatch from by show ¬(0 : Fin 2) ∈ ([] : List (Fin 2)); decide), dif_pos (show (0 : Fin S2048x8.rank) ∈ dot_S2048x8_S8x128_S2048x128_1_0_0_1_n_n.lhsNonContracting from by show (0 : Fin 2) ∈ ([0] : List (Fin 2)); decide)]
  rfl
private theorem in_lhs1 (i : S2048x128.Idx) (q : dot_S2048x8_S8x128_S2048x128_1_0_0_1_n_n.contr.Idx) :
    (dot_S2048x8_S8x128_S2048x128_1_0_0_1_n_n.lhsIdx i q 1).val = (q ⟨0, Nat.one_pos⟩).val :=
  dot_S2048x8_S8x128_S2048x128_1_0_0_1_n_n.lhsIdx_val_of_single rfl i q
private theorem in_rhs0 (i : S2048x128.Idx) (q : dot_S2048x8_S8x128_S2048x128_1_0_0_1_n_n.contr.Idx) :
    (dot_S2048x8_S8x128_S2048x128_1_0_0_1_n_n.rhsIdx i q 0).val = (q ⟨0, Nat.one_pos⟩).val :=
  dot_S2048x8_S8x128_S2048x128_1_0_0_1_n_n.rhsIdx_val_of_single rfl i q
private theorem in_rhs1 (i : S2048x128.Idx) (q : dot_S2048x8_S8x128_S2048x128_1_0_0_1_n_n.contr.Idx) :
    (dot_S2048x8_S8x128_S2048x128_1_0_0_1_n_n.rhsIdx i q 1).val = (i 1).val := by
  unfold DotDims.rhsIdx
  rw [dif_neg (show ¬(1 : Fin S8x128.rank) ∈ dot_S2048x8_S8x128_S2048x128_1_0_0_1_n_n.rhsBatch from by show ¬(1 : Fin 2) ∈ ([] : List (Fin 2)); decide), dif_pos (show (1 : Fin S8x128.rank) ∈ dot_S2048x8_S8x128_S2048x128_1_0_0_1_n_n.rhsNonContracting from by show (1 : Fin 2) ∈ ([1] : List (Fin 2)); decide)]
  rfl

/-- The first dense product into the zero accumulator: entry `(r, k)` is `∑ f, X (r, f) · W (f, k)`, the sum over the
    eight features. -/
theorem dense8_apply {φ₁ φ₂ : FTy} (X : FVec Ideal S2048x8 φ₁) (W : FVec Ideal S8x128 φ₂)
    (r : Fin 2048) (k : Fin 128) :
    matmul dot_S2048x8_S8x128_S2048x128_1_0_0_1_n_n none X W (constant S2048x128 .f32 0x00000000#32) (ix2 r k)
      = ∑ f : Fin 8, X (ix2 r f) * W (ix2 f k) := by
  refine (Ideal.matmul_constant_zero_apply dot_S2048x8_S8x128_S2048x128_1_0_0_1_n_n none X W (ix2 r k)).trans ?_
  rw [← Equiv.sum_comp (ValueIdx.contrEquiv1 dot_S2048x8_S8x128_S2048x128_1_0_0_1_n_n 8 rfl rfl).symm]
  refine Finset.sum_congr rfl fun j _ => ?_
  have hk := ValueIdx.contrEquiv1_symm_val dot_S2048x8_S8x128_S2048x128_1_0_0_1_n_n 8 rfl rfl j
  have el : dot_S2048x8_S8x128_S2048x128_1_0_0_1_n_n.lhsIdx (ix2 r k) ((ValueIdx.contrEquiv1 dot_S2048x8_S8x128_S2048x128_1_0_0_1_n_n 8 rfl rfl).symm j) = ix2 r j := funext fun a => Fin.ext (by
    match a with
    | ⟨0, _⟩ => exact in_lhs0 _ _
    | ⟨1, _⟩ => exact (in_lhs1 _ _).trans hk)
  have er : dot_S2048x8_S8x128_S2048x128_1_0_0_1_n_n.rhsIdx (ix2 r k) ((ValueIdx.contrEquiv1 dot_S2048x8_S8x128_S2048x128_1_0_0_1_n_n 8 rfl rfl).symm j) = ix2 j k := funext fun a => Fin.ext (by
    match a with
    | ⟨0, _⟩ => exact (in_rhs0 _ _).trans hk
    | ⟨1, _⟩ => exact in_rhs1 _ _)
  rw [el, er]

/-- The embedding stage at `(b, n, k)`: the batched reading of the flat result at row `512 b + n`; there the second
    rectified dense layer, whose inputs are the first rectified dense layer over the eight features of point `n`. -/
theorem pay4_apply (v0 : Vec Ideal S4x512x8 .f32) (v6 : Vec Ideal S8x128 .f32) (v9 v19 : Vec Ideal S128 .f32)
    (v16 : Vec Ideal S128x128 .f32) (b : Fin 4) (n : Fin 512) (k : Fin 128) :
    k0_pay4 (F := Ideal) v0 v6 v9 v16 v19 (ix3 b n k)
      = Cert.Nmp.embed (fun n f => v0 (ix3 b n f)) (fun f k => v6 (ix2 f k)) (fun k => v9 (ix1 k))
          (fun j k => v16 (ix2 j k)) (fun k => v19 (ix1 k)) n k := by
  unfold k0_pay4
  refine (unflat_apply _ _ b n k).trans ?_
  refine (relu0_apply _ _).trans ?_
  unfold Cert.Nmp.embed Cert.Nmp.relu Cert.Nmp.dense
  refine congrArg (fun x => max x 0) ?_
  refine congrArg₂ (fun x y => x + y) ?_ (biasRow_apply v19 _ _ (row b n) k)
  refine (dense2048_apply _ _ (row b n) k).trans ?_
  refine Finset.sum_congr rfl fun j _ => ?_
  refine congrArg (fun x => x * v16 (ix2 j k)) ?_
  refine (relu0_apply _ _).trans ?_
  refine congrArg (fun x => max x 0) ?_
  refine congrArg₂ (fun x y => x + y) ?_ (biasRow_apply v9 _ _ (row b n) j)
  refine (dense8_apply _ _ (row b n) j).trans ?_
  refine Finset.sum_congr rfl fun f _ => ?_
  exact congrArg (fun x => x * v6 (ix2 f j)) (flat8_apply _ _ b n f)

end Cert.NmpKer

end
-- ==== Proof.KerAdjOps.lean ====
/-
  The operations of the kernel's adjacency stage read at an index, on the extended reals: the weights per point in
  their row and column layouts, the steps between the `[4, 512]`, `[4, 512, 1]`, `[4, 1, 512]` and `[4, 512, 512]`
  layouts, a sum or a maximum along the last axis as the sum or the fold over that axis's coordinate, and the Gram
  product into a zero accumulator as the plain sum over the eight features.
-/
import proofs.«130221_j58248346468777_2_alg».proof.Proof.Gen.KernelIdeal.Skeleton
import proofs.«130221_j58248346468777_2_alg».proof.Proof.KerOps
import proofs.«130221_j58248346468777_2_alg».proof.Proof.NmpArrays

noncomputable section

namespace Cert.NmpKer

open Idealize.ShloMosaic Idealize.ShloMosaic.ValueIdx Cert.KernelIdeal Cert.KernelIdeal.Gen Cert.KernelIdeal.NmpOps

/-! ### The weights per point: a cast to the same shape, then the column layout -/

/-- The weights read through a cast to their own shape are the weights. -/
theorem pay2_apply (v1 : Vec Ideal S4x1x512 .f32) (b : Fin 4) (m : Fin 512) :
    k0_pay2 (F := Ideal) v1 (ix3 b (0 : Fin 1) m) = v1 (ix3 b (0 : Fin 1) m) := by
  unfold k0_pay2
  exact shapeCast_apply v1 _ _ _ rfl

/-- The transposed weights: the column entry of point `n` is the row entry of point `n`. -/
theorem pay3_apply (v1 : Vec Ideal S4x1x512 .f32) (b : Fin 4) (n : Fin 512) :
    k0_pay3 (F := Ideal) v1 (ix3 b n (0 : Fin 1)) = v1 (ix3 b (0 : Fin 1) n) := by
  unfold k0_pay3
  exact (transpose_ix3_021_apply (k0_pay2 (F := Ideal) v1) _ b n (0 : Fin 1)).trans (pay2_apply v1 b n)

/-! ### Layout steps between `[4, 512]`, `[4, 512, 1]`, `[4, 1, 512]` and `[4, 512, 512]` -/

/-- A per-point value laid as a column: `(b, n, 0)` reads `(b, n)`. -/
theorem colCast_apply {α : Type} (x : S4x512.Idx → α) (h : S4x512.ShapeCasts S4x512x1) (b : Fin 4) (n : Fin 512) :
    shapeCast S4x512x1 x h (ix3 b n (0 : Fin 1)) = x (ix2 b n) :=
  shapeCast_apply x h _ _ (by
    rw [Shape.rowMajor_val_two, Shape.rowMajor_val_three]
    show b.val * 512 + n.val = (b.val * 512 + n.val) * 1 + 0
    omega)

/-- A column repeated across the 512 columns reads the row's entry everywhere. -/
theorem colB_apply {α : Type} (v : S4x512x1.Idx → α) (h : S4x512x1.Broadcasts S4x512x512)
    (b : Fin 4) (n m : Fin 512) :
    broadcastTo S4x512x512 v h (ix3 b n m) = v (ix3 b n (0 : Fin 1)) :=
  broadcastTo_apply v h (ix3 b n m) (ix3 b n (0 : Fin 1)) fun ax => by
    match ax with
    | ⟨0, _⟩ => show b.val = if (4 : Nat) = 1 then 0 else b.val; rw [if_neg (by decide)]
    | ⟨1, _⟩ => show n.val = if (512 : Nat) = 1 then 0 else n.val; rw [if_neg (by decide)]
    | ⟨2, _⟩ => show (0 : Nat) = if (1 : Nat) = 1 then 0 else m.val; rw [if_pos rfl]

/-- A row repeated down the 512 rows reads the column's entry everywhere. -/
theorem rowB_apply {α : Type} (v : S4x1x512.Idx → α) (h : S4x1x512.Broadcasts S4x512x512)
    (b : Fin 4) (n m : Fin 512) :
    broadcastTo S4x512x512 v h (ix3 b n m) = v (ix3 b (0 : Fin 1) m) :=
  broadcastTo_apply v h (ix3 b n m) (ix3 b (0 : Fin 1) m) fun ax => by
    match ax with
    | ⟨0, _⟩ => show b.val = if (4 : Nat) = 1 then 0 else b.val; rw [if_neg (by decide)]
    | ⟨1, _⟩ => show (0 : Nat) = if (1 : Nat) = 1 then 0 else n.val; rw [if_pos rfl]
    | ⟨2, _⟩ => show m.val = if (512 : Nat) = 1 then 0 else m.val; rw [if_neg (by decide)]

/-! ### Sums and maxima along the last axis -/

/-- The sum over the eight features of a `[4, 512, 8]` array, at point `(b, n)`. -/
theorem sum8_apply (x : FVec Ideal S4x512x8 .f32) (h : S4x512x8.Reduces [2] S4x512) (hφ : FKind.Formats .f32)
    (hacc : (0x00000000#32 : BitVec 32) = FKind.add.neutral .f32 hφ) (b : Fin 4) (n : Fin 512) :
    multiReduction .add [2] S4x512 x 0x00000000#32 h hφ hacc (ix2 b n) = ∑ f : Fin 8, x (ix3 b n f) := by
  refine (Ideal.multiReduction_add_single x 0x00000000#32 h hφ hacc (ix2 b n)).trans ?_
  show (∑ f : Fin 8, x (h.lift (ix2 b n) f)) = _
  refine Finset.sum_congr rfl fun f _ => congrArg x ?_
  exact funext fun a => Fin.ext (by match a with | ⟨0, _⟩ => rfl | ⟨1, _⟩ => rfl | ⟨2, _⟩ => rfl)

/-- The sum along a row of a `[4, 512, 512]` array, at row `(b, n)`. -/
theorem sum512_apply (x : FVec Ideal S4x512x512 .f32) (h : S4x512x512.Reduces [2] S4x512) (hφ : FKind.Formats .f32)
    (hacc : (0x00000000#32 : BitVec 32) = FKind.add.neutral .f32 hφ) (b : Fin 4) (n : Fin 512) :
    multiReduction .add [2] S4x512 x 0x00000000#32 h hφ hacc (ix2 b n) = ∑ m : Fin 512, x (ix3 b n m) := by
  refine (Ideal.multiReduction_add_single x 0x00000000#32 h hφ hacc (ix2 b n)).trans ?_
  show (∑ m : Fin 512, x (h.lift (ix2 b n) m)) = _
  refine Finset.sum_congr rfl fun m _ => congrArg x ?_
  exact funext fun a => Fin.ext (by match a with | ⟨0, _⟩ => rfl | ⟨1, _⟩ => rfl | ⟨2, _⟩ => rfl)

/-- The maximum along a row of a `[4, 512, 512]` array, started from the word for `-∞`, at row `(b, n)`. -/
theorem max512_apply (x : FVec Ideal S4x512x512 .f32) (h : S4x512x512.Reduces [2] S4x512) (hφ : FKind.Formats .f32)
    (hacc : (0xFF800000#32 : BitVec 32) = FKind.maximumf.neutral .f32 hφ) (b : Fin 4) (n : Fin 512) :
    multiReduction .maximumf [2] S4x512 x 0xFF800000#32 h hφ hacc (ix2 b n)
      = (Finset.univ : Finset (Fin 512)).fold max Cert.Nmp.negInf (fun m => x (ix3 b n m)) := by
  refine (Ideal.multiReduction_maximumf_single x 0xFF800000#32 h hφ hacc (ix2 b n)).trans ?_
  show (Finset.univ : Finset (Fin 512)).fold max Cert.Nmp.negInf (fun m => x (h.lift (ix2 b n) m)) = _
  refine congrArg (fun g => (Finset.univ : Finset (Fin 512)).fold max Cert.Nmp.negInf g) (funext fun m => congrArg x ?_)
  exact funext fun a => Fin.ext (by match a with | ⟨0, _⟩ => rfl | ⟨1, _⟩ => rfl | ⟨2, _⟩ => rfl)

/-! ### The Gram product: which operand entries meet at output `(b, n, m)` and contraction position `q` -/

private theorem gr_lhs0 (i : S4x512x512.Idx) (q : dot_S4x512x8_S4x512x8_S4x512x512_2_2_1_1_0_0.contr.Idx) :
    (dot_S4x512x8_S4x512x8_S4x512x512_2_2_1_1_0_0.lhsIdx i q 0).val = (i 0).val := by
  unfold DotDims.lhsIdx
  rw [dif_pos (show (0 : Fin S4x512x8.rank) ∈ dot_S4x512x8_S4x512x8_S4x512x512_2_2_1_1_0_0.lhsBatch from by show (0 : Fin 3) ∈ ([0] : List (Fin 3)); decide)]
  rfl
private theorem gr_lhs1 (i : S4x512x512.Idx) (q : dot_S4x512x8_S4x512x8_S4x512x512_2_2_1_1_0_0.contr.Idx) :
    (dot_S4x512x8_S4x512x8_S4x512x512_2_2_1_1_0_0.lhsIdx i q 1).val = (i 1).val := by
  unfold DotDims.lhsIdx
  rw [dif_neg (show ¬(1 : Fin S4x512x8.rank) ∈ dot_S4x512x8_S4x512x8_S4x512x512_2_2_1_1_0_0.lhsBatch from by show ¬(1 : Fin 3) ∈ ([0] : List (Fin 3)); decide), dif_pos (show (1 : Fin S4x512x8.rank) ∈ dot_S4x512x8_S4x512x8_S4x512x512_2_2_1_1_0_0.lhsNonContracting from by show (1 : Fin 3) ∈ ([1] : List (Fin 3)); decide)]
  rfl
private theorem gr_lhs2 (i : S4x512x512.Idx) (q : dot_S4x512x8_S4x512x8_S4x512x512_2_2_1_1_0_0.contr.Idx) :
    (dot_S4x512x8_S4x512x8_S4x512x512_2_2_1_1_0_0.lhsIdx i q 2).val = (q ⟨0, Nat.one_pos⟩).val :=
  dot_S4x512x8_S4x512x8_S4x512x512_2_2_1_1_0_0.lhsIdx_val_of_single rfl i q
private theorem gr_rhs0 (i : S4x512x512.Idx) (q : dot_S4x512x8_S4x512x8_S4x512x512_2_2_1_1_0_0.contr.Idx) :
    (dot_S4x512x8_S4x512x8_S4x512x512_2_2_1_1_0_0.rhsIdx i q 0).val = (i 0).val := by
  unfold DotDims.rhsIdx
  rw [dif_pos (show (0 : Fin S4x512x8.rank) ∈ dot_S4x512x8_S4x512x8_S4x512x512_2_2_1_1_0_0.rhsBatch from by show (0 : Fin 3) ∈ ([0] : List (Fin 3)); decide)]
  rfl
private theorem gr_rhs1 (i : S4x512x512.Idx) (q : dot_S4x512x8_S4x512x8_S4x512x512_2_2_1_1_0_0.contr.Idx) :
    (dot_S4x512x8_S4x512x8_S4x512x512_2_2_1_1_0_0.rhsIdx i q 1).val = (i 2).val := by
  unfold DotDims.rhsIdx
  rw [dif_neg (show ¬(1 : Fin S4x512x8.rank) ∈ dot_S4x512x8_S4x512x8_S4x512x512_2_2_1_1_0_0.rhsBatch from by show ¬(1 : Fin 3) ∈ ([0] : List (Fin 3)); decide), dif_pos (show (1 : Fin S4x512x8.rank) ∈ dot_S4x512x8_S4x512x8_S4x512x512_2_2_1_1_0_0.rhsNonContracting from by show (1 : Fin 3) ∈ ([1] : List (Fin 3)); decide)]
  rfl
private theorem gr_rhs2 (i : S4x512x512.Idx) (q : dot_S4x512x8_S4x512x8_S4x512x512_2_2_1_1_0_0.contr.Idx) :
    (dot_S4x512x8_S4x512x8_S4x512x512_2_2_1_1_0_0.rhsIdx i q 2).val = (q ⟨0, Nat.one_pos⟩).val :=
  dot_S4x512x8_S4x512x8_S4x512x512_2_2_1_1_0_0.rhsIdx_val_of_single rfl i q

/-- The Gram product into the zero accumulator: entry `(b, n, m)` is `∑ f, X (b, n, f) · Y (b, m, f)`, whatever the
    precision the product was asked at. -/
theorem gram_apply {φ₁ φ₂ : FTy} (prec : Option ContractPrecision) (X : FVec Ideal S4x512x8 φ₁) (Y : FVec Ideal S4x512x8 φ₂)
    (b : Fin 4) (n m : Fin 512) :
    matmul dot_S4x512x8_S4x512x8_S4x512x512_2_2_1_1_0_0 prec X Y (constant S4x512x512 .f32 0x00000000#32) (ix3 b n m)
      = ∑ f : Fin 8, X (ix3 b n f) * Y (ix3 b m f) := by
  refine (Ideal.matmul_constant_zero_apply dot_S4x512x8_S4x512x8_S4x512x512_2_2_1_1_0_0 prec X Y (ix3 b n m)).trans ?_
  rw [← Equiv.sum_comp (ValueIdx.contrEquiv1 dot_S4x512x8_S4x512x8_S4x512x512_2_2_1_1_0_0 8 rfl rfl).symm]
  refine Finset.sum_congr rfl fun j _ => ?_
  have hk := ValueIdx.contrEquiv1_symm_val dot_S4x512x8_S4x512x8_S4x512x512_2_2_1_1_0_0 8 rfl rfl j
  have el : dot_S4x512x8_S4x512x8_S4x512x512_2_2_1_1_0_0.lhsIdx (ix3 b n m) ((ValueIdx.contrEquiv1 dot_S4x512x8_S4x512x8_S4x512x512_2_2_1_1_0_0 8 rfl rfl).symm j) = ix3 b n j := funext fun a => Fin.ext (by
    match a with
    | ⟨0, _⟩ => exact gr_lhs0 _ _
    | ⟨1, _⟩ => exact gr_lhs1 _ _
    | ⟨2, _⟩ => exact (gr_lhs2 _ _).trans hk)
  have er : dot_S4x512x8_S4x512x8_S4x512x512_2_2_1_1_0_0.rhsIdx (ix3 b n m) ((ValueIdx.contrEquiv1 dot_S4x512x8_S4x512x8_S4x512x512_2_2_1_1_0_0 8 rfl rfl).symm j) = ix3 b m j := funext fun a => Fin.ext (by
    match a with
    | ⟨0, _⟩ => exact gr_rhs0 _ _
    | ⟨1, _⟩ => exact gr_rhs1 _ _
    | ⟨2, _⟩ => exact (gr_rhs2 _ _).trans hk)
  rw [el, er]

end Cert.NmpKer

end
-- ==== Proof.KerAdj.lean ====
/-
  The kernel's adjacency stage on the extended reals, read at a pair of points: the squared lengths, the Gram
  product, the negated squared distance, the column term of the points whose weight is not positive, the row
  maximum, the exponentials and their row sums are, at batch element `b` and points `(n, m)`, the softmax-normalised
  adjacency of the specification.
-/
import proofs.«130221_j58248346468777_2_alg».proof.Proof.KerAdjOps

noncomputable section

namespace Cert.NmpKer

open Idealize.ShloMosaic Idealize.ShloMosaic.ValueIdx Cert.KernelIdeal Cert.KernelIdeal.Gen Cert.KernelIdeal.NmpOps

/-! ### The negated squared distance -/

/-- The negated squared distance of points `n` and `m` of batch element `b`: the squared lengths, one read down its
    column and one along its row after the transposition, less twice the Gram entry, subtracted from zero — and
    subtracting from zero is negating. -/
theorem pay5_apply (v0 : Vec Ideal S4x512x8 .f32) (b : Fin 4) (n m : Fin 512) :
    k0_pay5 (F := Ideal) v0 (ix3 b n m)
      = -((Cert.Nmp.sqn (fun n f => v0 (ix3 b n f)) n + Cert.Nmp.sqn (fun n f => v0 (ix3 b n f)) m)
          - Cert.Nmp.two * Cert.Nmp.gram (fun n f => v0 (ix3 b n f)) n m) := by
  have hsq : ∀ p : Fin 512,
      shapeCast S4x512x1 (multiReduction (F := Ideal) .add [2] S4x512 (mulf v0 v0) 0x00000000#32 reduces_S4x512x8_S4x512 (.inl rfl) rfl)
          shapeCasts_S4x512_S4x512x1 (ix3 b p (0 : Fin 1))
        = Cert.Nmp.sqn (fun n f => v0 (ix3 b n f)) p := fun p =>
    (colCast_apply _ _ b p).trans (sum8_apply (mulf v0 v0) _ _ _ b p)
  unfold k0_pay5
  refine Eq.trans ?_ (Cert.Nmp.zero_sub_eq_neg _)
  refine congrArg₂ (fun x y => x - y) Ideal.ofBits_zero_f32 ?_
  refine congrArg₂ (fun x y => x - y) (congrArg₂ (fun x y => x + y) ?_ ?_) (congrArg (fun x => Cert.Nmp.two * x) ?_)
  · exact (colB_apply _ _ b n m).trans (hsq n)
  · refine (rowB_apply _ _ b n m).trans ?_
    exact (transpose_ix3_021_apply _ _ b (0 : Fin 1) m).trans (hsq m)
  · exact gram_apply (some .fp32) v0 v0 b n m

/-! ### The softmax along each row -/

/-- The logit the kernel forms at `(b, n, m)` from the negated squared distances `v38` and the weights `v2`. -/
def lg (v2 : FVec Ideal S4x1x512 .f32) (v38 : FVec Ideal S4x512x512 .f32) (b : Fin 4) (n m : Fin 512) : EReal :=
  v38 (ix3 b n m) + Cert.Nmp.colTerm (v2 (ix3 b (0 : Fin 1) m))

/-- The maximum of row `(b, n)` of those logits, as the kernel takes it. -/
def rmx (v2 : FVec Ideal S4x1x512 .f32) (v38 : FVec Ideal S4x512x512 .f32) (b : Fin 4) (n : Fin 512) : EReal :=
  max Cert.Nmp.negInf ((Finset.univ : Finset (Fin 512)).fold max Cert.Nmp.negInf (fun m => lg v2 v38 b n m))

/-- The logits as the array the kernel forms. -/
def lgV (v2 : FVec Ideal S4x1x512 .f32) (v38 : FVec Ideal S4x512x512 .f32) : FVec Ideal S4x512x512 .f32 :=
  addf v38 (broadcastTo S4x512x512
    (select (cmpf .ogt v2 (broadcast S4x1x512 (Scalar.ofBits (F := Ideal) .f32 0x00000000#32)))
      (broadcast S4x1x512 (Scalar.ofBits (F := Ideal) .f32 0x00000000#32))
      (broadcast S4x1x512 (Scalar.ofBits (F := Ideal) .f32 0xCE6E6B28#32)))
    broadcasts_S4x1x512_S4x512x512)

/-- The exponentials of the logits less their row's maximum, as the array the kernel forms. -/
def exV (v2 : FVec Ideal S4x1x512 .f32) (v38 : FVec Ideal S4x512x512 .f32) : FVec Ideal S4x512x512 .f32 :=
  exp (subf (lgV v2 v38) (broadcastTo S4x512x512
    (shapeCast S4x512x1
      (maximumf (broadcast S4x512 (Scalar.ofBits (F := Ideal) .f32 0xFF800000#32))
        (multiReduction .maximumf [2] S4x512 (lgV v2 v38) 0xFF800000#32 reduces_S4x512x512_S4x512 (.inl rfl) rfl))
      shapeCasts_S4x512_S4x512x1)
    broadcasts_S4x512x1_S4x512x512))

/-- The adjacency stage is the exponentials divided by their row sums (the change of format at its end is the
    identity on the extended reals). -/
theorem pay6_eq (v2 : FVec Ideal S4x1x512 .f32) (v38 : FVec Ideal S4x512x512 .f32) :
    k0_pay6 (F := Ideal) v2 v38
      = divf (exV v2 v38) (broadcastTo S4x512x512
          (shapeCast S4x512x1
            (multiReduction .add [2] S4x512 (exV v2 v38) 0x00000000#32 reduces_S4x512x512_S4x512 (.inl rfl) rfl)
            shapeCasts_S4x512_S4x512x1)
          broadcasts_S4x512x1_S4x512x512) := rfl

theorem lgV_apply (v2 : FVec Ideal S4x1x512 .f32) (v38 : FVec Ideal S4x512x512 .f32) (b : Fin 4) (n m : Fin 512) :
    lgV v2 v38 (ix3 b n m) = lg v2 v38 b n m := by
  unfold lgV lg
  refine congrArg (fun x => v38 (ix3 b n m) + x) ?_
  refine (rowB_apply _ _ b n m).trans ?_
  show Scalar.select (Ideal.cmp .ogt (v2 (ix3 b (0 : Fin 1) m)) (Ideal.ofBits .f32 0x00000000#32)) (Ideal.ofBits .f32 0x00000000#32)
      (Ideal.ofBits .f32 0xCE6E6B28#32) = Scalar.select (Ideal.cmp .ogt (v2 (ix3 b (0 : Fin 1) m)) 0) 0 Cert.Nmp.negBig
  rw [Ideal.ofBits_zero_f32]
  rfl

/-- The row maximum as the kernel takes it: the maximum of the word for `-∞` and the fold along the row. -/
theorem rowMaxV_apply (L : FVec Ideal S4x512x512 .f32) (h : S4x512x512.Reduces [2] S4x512) (hφ : FKind.Formats .f32)
    (hacc : (0xFF800000#32 : BitVec 32) = FKind.maximumf.neutral .f32 hφ) (b : Fin 4) (n : Fin 512) :
    maximumf (broadcast S4x512 (Scalar.ofBits (F := Ideal) .f32 0xFF800000#32))
        (multiReduction .maximumf [2] S4x512 L 0xFF800000#32 h hφ hacc) (ix2 b n)
      = max Cert.Nmp.negInf ((Finset.univ : Finset (Fin 512)).fold max Cert.Nmp.negInf (fun m => L (ix3 b n m))) :=
  (maximumf_apply _ _ _).trans (congrArg (fun x => max Cert.Nmp.negInf x) (max512_apply L h hφ hacc b n))

theorem exV_apply (v2 : FVec Ideal S4x1x512 .f32) (v38 : FVec Ideal S4x512x512 .f32) (b : Fin 4) (n m : Fin 512) :
    exV v2 v38 (ix3 b n m) = Ideal.exp (lg v2 v38 b n m - rmx v2 v38 b n) := by
  unfold exV rmx
  refine congrArg Ideal.exp ?_
  refine congrArg₂ (fun x y => x - y) (lgV_apply v2 v38 b n m) ?_
  refine (colB_apply _ _ b n m).trans ?_
  refine (colCast_apply _ _ b n).trans ?_
  refine (rowMaxV_apply (lgV v2 v38) _ _ _ b n).trans ?_
  exact congrArg (fun g => max Cert.Nmp.negInf ((Finset.univ : Finset (Fin 512)).fold max Cert.Nmp.negInf g)) (funext fun j => lgV_apply v2 v38 b n j)

/-- The adjacency stage at `(b, n, m)`: the exponential at `(n, m)` over the sum of row `n`'s exponentials. -/
theorem pay6_apply (v2 : FVec Ideal S4x1x512 .f32) (v38 : FVec Ideal S4x512x512 .f32) (b : Fin 4) (n m : Fin 512) :
    k0_pay6 (F := Ideal) v2 v38 (ix3 b n m)
      = Ideal.div (Ideal.exp (lg v2 v38 b n m - rmx v2 v38 b n))
          (∑ j : Fin 512, Ideal.exp (lg v2 v38 b n j - rmx v2 v38 b n)) := by
  rw [pay6_eq]
  refine congrArg₂ Ideal.div (exV_apply v2 v38 b n m) ?_
  refine (colB_apply _ _ b n m).trans ?_
  refine (colCast_apply _ _ b n).trans ?_
  refine (sum512_apply (exV v2 v38) _ _ _ b n).trans ?_
  exact Finset.sum_congr rfl fun j _ => exV_apply v2 v38 b n j

/-- The kernel's adjacency at batch element `b` and points `(n, m)` is the specification's. -/
theorem adj_apply (v0 : Vec Ideal S4x512x8 .f32) (v1 : Vec Ideal S4x1x512 .f32) (b : Fin 4) (n m : Fin 512) :
    k0_pay6 (F := Ideal) (k0_pay2 v1) (k0_pay5 v0) (ix3 b n m)
      = Cert.Nmp.adj (fun n f => v0 (ix3 b n f)) (fun n => v1 (ix3 b (0 : Fin 1) n)) n m := by
  have hl : ∀ p q : Fin 512, lg (k0_pay2 (F := Ideal) v1) (k0_pay5 (F := Ideal) v0) b p q
      = Cert.Nmp.logit (fun n f => v0 (ix3 b n f)) (fun n => v1 (ix3 b (0 : Fin 1) n)) p q := fun p q => by
    unfold lg Cert.Nmp.logit
    rw [pay5_apply, pay2_apply]
  have hr : ∀ p : Fin 512, rmx (k0_pay2 (F := Ideal) v1) (k0_pay5 (F := Ideal) v0) b p
      = Cert.Nmp.rowMax (fun n f => v0 (ix3 b n f)) (fun n => v1 (ix3 b (0 : Fin 1) n)) p := fun p => by
    unfold rmx Cert.Nmp.rowMax
    exact congrArg (fun g => max Cert.Nmp.negInf ((Finset.univ : Finset (Fin 512)).fold max Cert.Nmp.negInf g)) (funext fun q => hl p q)
  refine (pay6_apply _ _ b n m).trans ?_
  unfold Cert.Nmp.adj Cert.Nmp.expo
  rw [hr n]
  refine congrArg₂ Ideal.div (by rw [hl n m]) ?_
  exact Finset.sum_congr rfl fun j _ => by rw [hl n j]

end Cert.NmpKer

end
-- ==== Proof.KerBlock.lean ====
/-
  The kernel body's output block at an index, on the extended reals: entry `(b, 0, k)` of the `[4, 1, 128]` block is
  the specification's network on batch element `b` of the block's points and per-point weights and on the parameter
  arrays — the three facts about the body's first stages (weights column, embedded state, adjacency) put into the
  chain of the three rounds and the readout.
-/
import proofs.«130221_j58248346468777_2_alg».proof.Proof.KerBlockOf
import proofs.«130221_j58248346468777_2_alg».proof.Proof.KerEmb
import proofs.«130221_j58248346468777_2_alg».proof.Proof.KerAdj

noncomputable section

namespace Cert.NmpKer

open Idealize.ShloMosaic Idealize.ShloMosaic.ValueIdx Cert.KernelIdeal Cert.KernelIdeal.Gen Cert.KernelIdeal.NmpOps

/-- The body's output block at `(b, 0, k)` is the network on batch element `b` of the block. -/
theorem block_eq (x0 : Vec Ideal S4x512x8 .f32) (x1 : Vec Ideal S4x1x512 .f32) (x2 : Vec Ideal S8x128 .f32) (x3 : Vec Ideal S128 .f32) (x4 : Vec Ideal S128x128 .f32) (x5 : Vec Ideal S128 .f32) (x6 : Vec Ideal S3x128x128 .f32) (x7 : Vec Ideal S3x128 .f32) (x8 : Vec Ideal S3x256x128 .f32) (x9 : Vec Ideal S3x128 .f32) (x10 : Vec Ideal S128x128 .f32) (x11 : Vec Ideal S128 .f32) (x12 : Vec Ideal S128x128 .f32) (x13 : Vec Ideal S128 .f32) (b : Fin 4) (k : Fin 128) :
    Cert.KernelIdeal.Gen.out0_14 (F := Ideal) x0 x1 x2 x3 x4 x5 x6 x7 x8 x9 x10 x11 x12 x13 (ix3 b (0 : Fin 1) k)
      = Cert.Nmp.netOf (fun n f => x0 (ix3 b n f)) (fun n => x1 (ix3 b (0 : Fin 1) n)) x2 x3 x4 x5 x6 x7 x8 x9 x10 x11 x12 x13 k :=
  block_of x0 x1 x2 x3 x4 x5 x6 x7 x8 x9 x10 x11 x12 x13 b k (fun n => pay3_apply x1 b n)
    (fun n k => pay4_apply x0 x2 x3 x5 x4 b n k) (fun n m => adj_apply x0 x1 b n m)

end Cert.NmpKer

end
-- ==== Proof.RefNetA.lean ====
/-
  The reference program read as the network of `NmpSpec`, part 1: the embedding.

  Batch element `b` of the point cloud is `jetOf x0 b`, of the weights `mskOf x1 b`; a parameter matrix or vector is
  read through its rank-2 or rank-1 index.  The two dense layers of the embedding are a contraction over the feature
  axis plus a bias broadcast along the other axes, each followed by a maximum against a zero array.
-/
import proofs.«130221_j58248346468777_2_alg».proof.Proof.NmpArrays
import proofs.«130221_j58248346468777_2_alg».proof.Proof.RefReadP

noncomputable section

namespace Cert.NmpRef

open Cert.ReferenceIdeal Cert.ReferenceIdeal.Gen Cert.ReferenceIdeal.ReadP Idealize.ShloMosaic Idealize.ShloMosaic.ValueIdx Cert.Nmp

variable {x0 : (⟨S128x512x8, .f32⟩ : BufTy).Contents (Elt Ideal)} {x1 : (⟨S128x512, .f32⟩ : BufTy).Contents (Elt Ideal)}
  {x2 : (⟨S8x128, .f32⟩ : BufTy).Contents (Elt Ideal)} {x3 : (⟨S128, .f32⟩ : BufTy).Contents (Elt Ideal)}
  {x4 : (⟨S128x128, .f32⟩ : BufTy).Contents (Elt Ideal)} {x5 : (⟨S128, .f32⟩ : BufTy).Contents (Elt Ideal)}
  {x6 : (⟨S3x128x128, .f32⟩ : BufTy).Contents (Elt Ideal)} {x7 : (⟨S3x128, .f32⟩ : BufTy).Contents (Elt Ideal)}
  {x8 : (⟨S3x256x128, .f32⟩ : BufTy).Contents (Elt Ideal)} {x9 : (⟨S3x128, .f32⟩ : BufTy).Contents (Elt Ideal)}
  {x10 : (⟨S128x128, .f32⟩ : BufTy).Contents (Elt Ideal)} {x11 : (⟨S128, .f32⟩ : BufTy).Contents (Elt Ideal)}
  {x12 : (⟨S128x128, .f32⟩ : BufTy).Contents (Elt Ideal)} {x13 : (⟨S128, .f32⟩ : BufTy).Contents (Elt Ideal)}

/-- The points of batch element `b`. -/
abbrev jetOf (x0 : (⟨S128x512x8, .f32⟩ : BufTy).Contents (Elt Ideal)) (b : Fin 128) : Fin 512 → Fin 8 → EReal := fun n f => x0 (ix3 b n f)
/-- The weights of batch element `b`'s points. -/
abbrev mskOf (x1 : (⟨S128x512, .f32⟩ : BufTy).Contents (Elt Ideal)) (b : Fin 128) : Fin 512 → EReal := fun n => x1 (ix2 b n)
/-- A rank-2 parameter array as a matrix. -/
abbrev matOf {K H : ℕ} (W : (⟨2, ![K, H]⟩ : Shape).Idx → EReal) : Fin K → Fin H → EReal := fun j k => W (ix2 j k)
/-- A rank-1 parameter array as a vector. -/
abbrev vecOf {H : ℕ} (v : (⟨1, ![H]⟩ : Shape).Idx → EReal) : Fin H → EReal := fun k => v (ix1 k)

/-- The first dense layer with its rectifier, at point `n` of batch element `b`, output coordinate `j`. -/
theorem v4_at (b : Fin 128) (n : Fin 512) (j : Fin 128) :
    val_main_v4 (F := Ideal) x0 x2 x3 (ix3 b n j)
      = relu (dense (jetOf x0 b n) (matOf x2) (vecOf x3) j) := by
  have el : ∀ f : Fin 8, lidx_main_v0 (ix3 b n j) f = ix3 b n f := fun f => funext fun a => by
    match a with | ⟨0, _⟩ => rfl | ⟨1, _⟩ => rfl | ⟨2, _⟩ => rfl
  have er : ∀ f : Fin 8, ridx_main_v0 (ix3 b n j) f = ix2 f j := fun f => funext fun a => by
    match a with | ⟨0, _⟩ => rfl | ⟨1, _⟩ => rfl
  have eb : idx_main_v1 (idx_main_v2 (ix3 b n j)) = ix1 j := funext fun a => by
    match a with | ⟨0, _⟩ => rfl
  rw [val_main_v4_apply, val_main_v3_apply, val_main_v0_apply, val_main_v2_apply, val_main_v1_apply,
    val_main_call0_v0_apply, val_main_call0_cst_apply]
  simp only [el, er, eb, Ideal.maximumf_def, Ideal.addf_def, Ideal.ofBits_def, Ideal.ofBits_zero_f32]
  rfl

/-- The embedding: the second dense layer with its rectifier over the first. -/
theorem v9_at (b : Fin 128) (n : Fin 512) (k : Fin 128) :
    val_main_v9 (F := Ideal) x0 x2 x3 x4 x5 (ix3 b n k)
      = embed (jetOf x0 b) (matOf x2) (vecOf x3) (matOf x4) (vecOf x5) n k := by
  have el : ∀ j : Fin 128, lidx_main_v5 (ix3 b n k) j = ix3 b n j := fun j => funext fun a => by
    match a with | ⟨0, _⟩ => rfl | ⟨1, _⟩ => rfl | ⟨2, _⟩ => rfl
  have er : ∀ j : Fin 128, ridx_main_v5 (ix3 b n k) j = ix2 j k := fun j => funext fun a => by
    match a with | ⟨0, _⟩ => rfl | ⟨1, _⟩ => rfl
  have eb : idx_main_v6 (idx_main_v7 (ix3 b n k)) = ix1 k := funext fun a => by
    match a with | ⟨0, _⟩ => rfl
  rw [val_main_v9_apply, val_main_v8_apply, val_main_v5_apply, val_main_v7_apply, val_main_v6_apply,
    val_main_call1_v0_apply, val_main_call1_cst_apply]
  simp only [el, er, eb, v4_at, Ideal.maximumf_def, Ideal.addf_def, Ideal.ofBits_def, Ideal.ofBits_zero_f32]
  rfl

end Cert.NmpRef

end
-- ==== Proof.RefNetB.lean ====
/-
  The reference program read as the network of `NmpSpec`, part 2: the logits.

  The squared lengths are a sum over the feature axis of the squared coordinates, started from zero; they are
  broadcast along the rows and along the columns and added.  The inner products are a batched contraction over the
  feature axis.  The column term is a selection on the comparison of the weight with zero, broadcast down the rows.
-/
import proofs.«130221_j58248346468777_2_alg».proof.Proof.RefNetA

noncomputable section

namespace Cert.NmpRef

open Cert.ReferenceIdeal Cert.ReferenceIdeal.Gen Cert.ReferenceIdeal.ReadP Idealize.ShloMosaic Idealize.ShloMosaic.ValueIdx Cert.Nmp

variable {x0 : (⟨S128x512x8, .f32⟩ : BufTy).Contents (Elt Ideal)} {x1 : (⟨S128x512, .f32⟩ : BufTy).Contents (Elt Ideal)}
  {x2 : (⟨S8x128, .f32⟩ : BufTy).Contents (Elt Ideal)} {x3 : (⟨S128, .f32⟩ : BufTy).Contents (Elt Ideal)}
  {x4 : (⟨S128x128, .f32⟩ : BufTy).Contents (Elt Ideal)} {x5 : (⟨S128, .f32⟩ : BufTy).Contents (Elt Ideal)}
  {x6 : (⟨S3x128x128, .f32⟩ : BufTy).Contents (Elt Ideal)} {x7 : (⟨S3x128, .f32⟩ : BufTy).Contents (Elt Ideal)}
  {x8 : (⟨S3x256x128, .f32⟩ : BufTy).Contents (Elt Ideal)} {x9 : (⟨S3x128, .f32⟩ : BufTy).Contents (Elt Ideal)}
  {x10 : (⟨S128x128, .f32⟩ : BufTy).Contents (Elt Ideal)} {x11 : (⟨S128, .f32⟩ : BufTy).Contents (Elt Ideal)}
  {x12 : (⟨S128x128, .f32⟩ : BufTy).Contents (Elt Ideal)} {x13 : (⟨S128, .f32⟩ : BufTy).Contents (Elt Ideal)}

/-- The squared length of point `n`: the reference's sum from zero of the squared coordinates. -/
theorem v11_at (b : Fin 128) (n : Fin 512) :
    val_main_v11 (F := Ideal) x0 (ix2 b n) = sqn (jetOf x0 b) n := by
  have e : ∀ f : Fin 8, idx_main_v11 (ix2 b n) f = ix3 b n f := fun f => funext fun a => by
    match a with | ⟨0, _⟩ => rfl | ⟨1, _⟩ => rfl | ⟨2, _⟩ => rfl
  rw [val_main_v11_apply, val_main_cst_apply]
  simp only [val_main_v10_apply, e, Ideal.maximumf_def, Ideal.addf_def, Ideal.subf_def, Ideal.mulf_def, Ideal.hostNegf_def, Ideal.negf_def, Ideal.hostDivf_def, Ideal.hostUnary_exp_def, Ideal.ofBits_def, Ideal.ofBits_zero_f32, zero_add]
  rfl

/-- The inner product of points `n` and `m`: the batched contraction over the feature axis. -/
theorem v17_at (b : Fin 128) (n m : Fin 512) :
    val_main_v17 (F := Ideal) x0 (ix3 b n m) = gram (jetOf x0 b) n m := by
  have el : ∀ f : Fin 8, lidx_main_v17 (ix3 b n m) f = ix3 b n f := fun f => funext fun a => by
    match a with | ⟨0, _⟩ => rfl | ⟨1, _⟩ => rfl | ⟨2, _⟩ => rfl
  have er : ∀ f : Fin 8, ridx_main_v17 (ix3 b n m) f = ix3 b m f := fun f => funext fun a => by
    match a with | ⟨0, _⟩ => rfl | ⟨1, _⟩ => rfl | ⟨2, _⟩ => rfl
  rw [val_main_v17_apply]
  simp only [el, er]
  rfl

/-- The column term of column `m`: zero where the weight is positive, the large negative constant elsewhere. -/
theorem v26_at (b : Fin 128) (m : Fin 512) :
    val_main_v26 (F := Ideal) x1 (ix3 b (⟨0, Nat.one_pos⟩ : Fin 1) m) = colTerm (mskOf x1 b m) := by
  have e : idx_main_v22 (ix3 b (⟨0, Nat.one_pos⟩ : Fin 1) m) = ix2 b m := funext fun a => by
    match a with | ⟨0, _⟩ => rfl | ⟨1, _⟩ => rfl
  rw [val_main_v26_apply, val_main_v25_apply, val_main_v24_apply, val_main_v22_apply, val_main_v23_apply,
    val_main_cst_1_apply, val_main_call2_v0_apply, val_main_cst_2_apply, val_main_call2_v1_apply, val_main_cst_3_apply, e]
  simp only [Ideal.ofBits_def, Ideal.ofBits_zero_f32]
  rfl

/-- The logit of the pair `(n, m)`. -/
theorem v28_at (b : Fin 128) (n m : Fin 512) :
    val_main_v28 (F := Ideal) x0 x1 (ix3 b n m) = logit (jetOf x0 b) (mskOf x1 b) n m := by
  have e14 : idx_main_v12 (idx_main_v14 (ix3 b n m)) = ix2 b n := funext fun a => by
    match a with | ⟨0, _⟩ => rfl | ⟨1, _⟩ => rfl
  have e15 : idx_main_v13 (idx_main_v15 (ix3 b n m)) = ix2 b m := funext fun a => by
    match a with | ⟨0, _⟩ => rfl | ⟨1, _⟩ => rfl
  have e27 : idx_main_v27 (ix3 b n m) = ix3 b (⟨0, Nat.one_pos⟩ : Fin 1) m := funext fun a => by
    match a with | ⟨0, _⟩ => rfl | ⟨1, _⟩ => rfl | ⟨2, _⟩ => rfl
  rw [val_main_v28_apply, val_main_v21_apply, val_main_v20_apply, val_main_v16_apply, val_main_v14_apply,
    val_main_v12_apply, val_main_v15_apply, val_main_v13_apply, val_main_v19_apply, val_main_v18_apply,
    val_main_cst_0_apply, val_main_v27_apply, e14, e15, e27, v11_at, v11_at, v17_at, v26_at]
  simp only [Ideal.maximumf_def, Ideal.addf_def, Ideal.subf_def, Ideal.mulf_def, Ideal.hostNegf_def, Ideal.negf_def, Ideal.hostDivf_def, Ideal.hostUnary_exp_def, Ideal.ofBits_def, Ideal.ofBits_zero_f32]
  rfl

end Cert.NmpRef

end
-- ==== Proof.RefNetC.lean ====
/-
  The reference program read as the network of `NmpSpec`, part 3: the softmax over each row of the logits.

  The row maximum is a fold of `max` over the column axis from the word denoting `-∞` (the order of a fold by a
  commutative, associative operation is immaterial), joined once more with that word; the exponentials of the logits
  less their row's maximum are summed along the row from zero, and each is divided by its row's sum.
-/
import proofs.«130221_j58248346468777_2_alg».proof.Proof.RefNetB

noncomputable section

namespace Cert.NmpRef

open Cert.ReferenceIdeal Cert.ReferenceIdeal.Gen Cert.ReferenceIdeal.ReadP Idealize.ShloMosaic Idealize.ShloMosaic.ValueIdx Cert.Nmp

variable {x0 : (⟨S128x512x8, .f32⟩ : BufTy).Contents (Elt Ideal)} {x1 : (⟨S128x512, .f32⟩ : BufTy).Contents (Elt Ideal)}
  {x2 : (⟨S8x128, .f32⟩ : BufTy).Contents (Elt Ideal)} {x3 : (⟨S128, .f32⟩ : BufTy).Contents (Elt Ideal)}
  {x4 : (⟨S128x128, .f32⟩ : BufTy).Contents (Elt Ideal)} {x5 : (⟨S128, .f32⟩ : BufTy).Contents (Elt Ideal)}
  {x6 : (⟨S3x128x128, .f32⟩ : BufTy).Contents (Elt Ideal)} {x7 : (⟨S3x128, .f32⟩ : BufTy).Contents (Elt Ideal)}
  {x8 : (⟨S3x256x128, .f32⟩ : BufTy).Contents (Elt Ideal)} {x9 : (⟨S3x128, .f32⟩ : BufTy).Contents (Elt Ideal)}
  {x10 : (⟨S128x128, .f32⟩ : BufTy).Contents (Elt Ideal)} {x11 : (⟨S128, .f32⟩ : BufTy).Contents (Elt Ideal)}
  {x12 : (⟨S128x128, .f32⟩ : BufTy).Contents (Elt Ideal)} {x13 : (⟨S128, .f32⟩ : BufTy).Contents (Elt Ideal)}

/-- The fold of `max` along row `n` of the logits. -/
theorem v29_at (b : Fin 128) (n : Fin 512) :
    val_main_v29 (F := Ideal) x0 x1 (ix2 b n)
      = (Finset.univ : Finset (Fin 512)).fold max negInf (fun m => logit (jetOf x0 b) (mskOf x1 b) n m) := by
  have h : S128x512x512.Reduces [2] S128x512 := by decide
  unfold val_main_v29
  refine (Host.reduce_eq_fold_single FloatOps.maximumf _ _ reducesTo_S128x512x512_S128x512_d2 h h_S_ (ix2 b n)).trans ?_
  have hf : (val_main_v28 (F := Ideal) x0 x1 ∘ h.lift (ix2 b n))
      = fun m : Fin 512 => logit (jetOf x0 b) (mskOf x1 b) n m := funext fun m => by
    have e : h.lift (ix2 b n) m = ix3 b n (⟨m.val, m.isLt⟩ : Fin 512) := funext fun c => Fin.ext (by
      match c with | ⟨0, _⟩ => rfl | ⟨1, _⟩ => rfl | ⟨2, _⟩ => rfl)
    show val_main_v28 (F := Ideal) x0 x1 (h.lift (ix2 b n) m) = _
    rw [e, v28_at]
    rfl
  exact congrArg (fun f => Finset.fold max negInf f (Finset.univ : Finset (Fin 512))) hf

/-- The maximum of row `n`. -/
theorem v31_at (b : Fin 128) (n : Fin 512) :
    val_main_v31 (F := Ideal) x0 x1 (ix2 b n) = rowMax (jetOf x0 b) (mskOf x1 b) n := by
  rw [val_main_v31_apply, val_main_v30_apply, val_main_cst_5_apply, v29_at]
  rfl

/-- The exponential of a logit less its row's maximum. -/
theorem v35_at (b : Fin 128) (n m : Fin 512) :
    val_main_v35 (F := Ideal) x0 x1 (ix3 b n m) = expo (jetOf x0 b) (mskOf x1 b) n m := by
  have e : idx_main_v32 (idx_main_v33 (ix3 b n m)) = ix2 b n := funext fun a => by
    match a with | ⟨0, _⟩ => rfl | ⟨1, _⟩ => rfl
  rw [val_main_v35_apply, val_main_v34_apply, val_main_v33_apply, val_main_v32_apply, e, v28_at, v31_at]
  rfl

/-- The sum of row `n` of the exponentials. -/
theorem v36_at (b : Fin 128) (n : Fin 512) :
    val_main_v36 (F := Ideal) x0 x1 (ix2 b n) = ∑ j, expo (jetOf x0 b) (mskOf x1 b) n j := by
  have e : ∀ j : Fin 512, idx_main_v36 (ix2 b n) j = ix3 b n j := fun j => funext fun a => by
    match a with | ⟨0, _⟩ => rfl | ⟨1, _⟩ => rfl | ⟨2, _⟩ => rfl
  rw [val_main_v36_apply, val_main_cst_6_apply]
  simp only [e, v35_at, Ideal.ofBits_def, Ideal.ofBits_zero_f32, zero_add]

/-- The adjacency. -/
theorem v39_at (b : Fin 128) (n m : Fin 512) :
    val_main_v39 (F := Ideal) x0 x1 (ix3 b n m) = adj (jetOf x0 b) (mskOf x1 b) n m := by
  have e : idx_main_v37 (idx_main_v38 (ix3 b n m)) = ix2 b n := funext fun a => by
    match a with | ⟨0, _⟩ => rfl | ⟨1, _⟩ => rfl
  rw [val_main_v39_apply, val_main_v38_apply, val_main_v37_apply, e, v36_at, v35_at]
  rfl

end Cert.NmpRef

end
-- ==== Proof.RefNetR0.lean ====
/-
  The reference program read as the network of `NmpSpec`, part 4: the first round of message passing.

  Slab 0 of each stacked parameter array is cut out by a slice and a reshape (the row-major position of `(0, j, k)`
  in the slice is that of `(j, k)` in the matrix).  The message is a dense layer of the state with rectifier; the
  adjacency averages the messages by a batched contraction over the points; the state and the averaged message are
  joined along the feature axis and contracted against the 256-row update matrix, which is the sum against its upper
  half plus the sum against its lower half; bias, rectifier, and the point's weight follow.
-/
import proofs.«130221_j58248346468777_2_alg».proof.Proof.RefNetC

noncomputable section

namespace Cert.NmpRef

open Cert.ReferenceIdeal Cert.ReferenceIdeal.Gen Cert.ReferenceIdeal.ReadP Idealize.ShloMosaic Idealize.ShloMosaic.ValueIdx Cert.Nmp

variable {x0 : (⟨S128x512x8, .f32⟩ : BufTy).Contents (Elt Ideal)} {x1 : (⟨S128x512, .f32⟩ : BufTy).Contents (Elt Ideal)}
  {x2 : (⟨S8x128, .f32⟩ : BufTy).Contents (Elt Ideal)} {x3 : (⟨S128, .f32⟩ : BufTy).Contents (Elt Ideal)}
  {x4 : (⟨S128x128, .f32⟩ : BufTy).Contents (Elt Ideal)} {x5 : (⟨S128, .f32⟩ : BufTy).Contents (Elt Ideal)}
  {x6 : (⟨S3x128x128, .f32⟩ : BufTy).Contents (Elt Ideal)} {x7 : (⟨S3x128, .f32⟩ : BufTy).Contents (Elt Ideal)}
  {x8 : (⟨S3x256x128, .f32⟩ : BufTy).Contents (Elt Ideal)} {x9 : (⟨S3x128, .f32⟩ : BufTy).Contents (Elt Ideal)}
  {x10 : (⟨S128x128, .f32⟩ : BufTy).Contents (Elt Ideal)} {x11 : (⟨S128, .f32⟩ : BufTy).Contents (Elt Ideal)}
  {x12 : (⟨S128x128, .f32⟩ : BufTy).Contents (Elt Ideal)} {x13 : (⟨S128, .f32⟩ : BufTy).Contents (Elt Ideal)}

/-- Slab 0 of the message matrices. -/
theorem v42_at (j k : Fin 128) : val_main_v42 (F := Ideal) x6 (ix2 j k) = x6 (ix3 (0 : Fin 3) j k) := by
  have hj := j.isLt
  have hk := k.isLt
  rw [val_main_v42_apply, val_main_v41_apply]
  refine congrArg x6 (funext fun a => Fin.ext ?_)
  match a with
  | ⟨0, _⟩ => rfl
  | ⟨1, _⟩ => show (j.val * 128 + k.val) / 128 % 128 = j.val; omega
  | ⟨2, _⟩ => show (j.val * 128 + k.val) % 128 = k.val; omega

/-- Slab 0 of the message biases. -/
theorem v45_at (k : Fin 128) : val_main_v45 (F := Ideal) x7 (ix1 k) = x7 (ix2 (0 : Fin 3) k) := by
  have hk := k.isLt
  rw [val_main_v45_apply, val_main_v44_apply]
  refine congrArg x7 (funext fun a => Fin.ext ?_)
  match a with
  | ⟨0, _⟩ => rfl
  | ⟨1, _⟩ => show k.val % 128 = k.val; omega

/-- Slab 0 of the update matrices, all 256 rows. -/
theorem v53_at (q : Fin 256) (k : Fin 128) : val_main_v53 (F := Ideal) x8 (ix2 q k) = x8 (ix3 (0 : Fin 3) q k) := by
  have hq := q.isLt
  have hk := k.isLt
  rw [val_main_v53_apply, val_main_v52_apply]
  refine congrArg x8 (funext fun a => Fin.ext ?_)
  match a with
  | ⟨0, _⟩ => rfl
  | ⟨1, _⟩ => show (q.val * 128 + k.val) / 128 % 256 = q.val; omega
  | ⟨2, _⟩ => show (q.val * 128 + k.val) % 128 = k.val; omega

/-- Slab 0 of the update biases. -/
theorem v56_at (k : Fin 128) : val_main_v56 (F := Ideal) x9 (ix1 k) = x9 (ix2 (0 : Fin 3) k) := by
  have hk := k.isLt
  rw [val_main_v56_apply, val_main_v55_apply]
  refine congrArg x9 (funext fun a => Fin.ext ?_)
  match a with
  | ⟨0, _⟩ => rfl
  | ⟨1, _⟩ => show k.val % 128 = k.val; omega

/-- The message of point `n`. -/
theorem v49_at (b : Fin 128) (h : Fin 512 → Fin 128 → EReal) (hprev : ∀ (n : Fin 512) (k : Fin 128), val_main_v9 (F := Ideal) x0 x2 x3 x4 x5 (ix3 b n k) = h n k) (n : Fin 512) (k : Fin 128) :
    val_main_v49 (F := Ideal) x0 x2 x3 x4 x5 x6 x7 (ix3 b n k) = msg h (roundOf x6 x7 x8 x9 0).Wm (roundOf x6 x7 x8 x9 0).bm n k := by
  have el : ∀ j : Fin 128, lidx_main_v43 (ix3 b n k) j = ix3 b n j := fun j => funext fun a => by
    match a with | ⟨0, _⟩ => rfl | ⟨1, _⟩ => rfl | ⟨2, _⟩ => rfl
  have er : ∀ j : Fin 128, ridx_main_v43 (ix3 b n k) j = ix2 j k := fun j => funext fun a => by
    match a with | ⟨0, _⟩ => rfl | ⟨1, _⟩ => rfl
  have eb : idx_main_v46 (idx_main_v47 (ix3 b n k)) = ix1 k := funext fun a => by
    match a with | ⟨0, _⟩ => rfl
  rw [val_main_v49_apply, val_main_v48_apply, val_main_v43_apply, val_main_v47_apply, val_main_v46_apply,
    val_main_call3_v0_apply, val_main_call3_cst_apply, eb, v45_at]
  simp only [el, er, hprev, v42_at, Ideal.maximumf_def, Ideal.addf_def, Ideal.subf_def, Ideal.mulf_def, Ideal.hostNegf_def, Ideal.negf_def, Ideal.hostDivf_def, Ideal.hostUnary_exp_def, Ideal.ofBits_def, Ideal.ofBits_zero_f32]
  rfl

/-- The messages averaged by the adjacency. -/
theorem v50_at (b : Fin 128) (h : Fin 512 → Fin 128 → EReal) (hprev : ∀ (n : Fin 512) (k : Fin 128), val_main_v9 (F := Ideal) x0 x2 x3 x4 x5 (ix3 b n k) = h n k) (n : Fin 512) (k : Fin 128) :
    val_main_v50 (F := Ideal) x0 x1 x2 x3 x4 x5 x6 x7 (ix3 b n k) = agg (adj (jetOf x0 b) (mskOf x1 b)) (msg h (roundOf x6 x7 x8 x9 0).Wm (roundOf x6 x7 x8 x9 0).bm) n k := by
  have el : ∀ j : Fin 512, lidx_main_v50 (ix3 b n k) j = ix3 b n j := fun j => funext fun a => by
    match a with | ⟨0, _⟩ => rfl | ⟨1, _⟩ => rfl | ⟨2, _⟩ => rfl
  have er : ∀ j : Fin 512, ridx_main_v50 (ix3 b n k) j = ix3 b j k := fun j => funext fun a => by
    match a with | ⟨0, _⟩ => rfl | ⟨1, _⟩ => rfl | ⟨2, _⟩ => rfl
  rw [val_main_v50_apply]
  simp only [el, er, v39_at, v49_at (x6 := x6) (x7 := x7) (x8 := x8) (x9 := x9) b h hprev]
  rfl

/-- The joined array on its first 128 coordinates is the state. -/
theorem v51_lo (b : Fin 128) (n : Fin 512) (j : Fin 128) :
    val_main_v51 (F := Ideal) x0 x1 x2 x3 x4 x5 x6 x7 (ix3 b n (⟨j.val, by omega⟩ : Fin 256)) = val_main_v9 (F := Ideal) x0 x2 x3 x4 x5 (ix3 b n j) := by
  unfold val_main_v51
  exact concatenate_pair_apply_left _ _ _ concatenates_S128x512x128_S128x512x128_S128x512x256_d2
    (ix3 b n (⟨j.val, by omega⟩ : Fin 256)) rfl (ix3 b n j) (fun c => by
      match c with | ⟨0, _⟩ => rfl | ⟨1, _⟩ => rfl | ⟨2, _⟩ => rfl)

/-- The joined array on its last 128 coordinates is the averaged message. -/
theorem v51_hi (b : Fin 128) (n : Fin 512) (j : Fin 128) :
    val_main_v51 (F := Ideal) x0 x1 x2 x3 x4 x5 x6 x7 (ix3 b n (⟨128 + j.val, by omega⟩ : Fin 256))
      = val_main_v50 (F := Ideal) x0 x1 x2 x3 x4 x5 x6 x7 (ix3 b n j) := by
  unfold val_main_v51
  exact concatenate_pair_apply_right _ _ _ concatenates_S128x512x128_S128x512x128_S128x512x256_d2
    (ix3 b n (⟨128 + j.val, by omega⟩ : Fin 256)) rfl rfl (ix3 b n j) (fun c hc => by
      match c with | ⟨0, _⟩ => rfl | ⟨1, _⟩ => rfl | ⟨2, _⟩ => exact absurd rfl hc)
    (by show j.val + 128 = 128 + j.val; omega)

/-- The contraction of the joined array against the 256-row update matrix, split at row 128. -/
theorem v54_at (b : Fin 128) (h : Fin 512 → Fin 128 → EReal) (hprev : ∀ (n : Fin 512) (k : Fin 128), val_main_v9 (F := Ideal) x0 x2 x3 x4 x5 (ix3 b n k) = h n k) (n : Fin 512) (k : Fin 128) :
    val_main_v54 (F := Ideal) x0 x1 x2 x3 x4 x5 x6 x7 x8 (ix3 b n k)
      = (∑ j, h n j * (roundOf x6 x7 x8 x9 0).Lo j k) + (∑ j, agg (adj (jetOf x0 b) (mskOf x1 b)) (msg h (roundOf x6 x7 x8 x9 0).Wm (roundOf x6 x7 x8 x9 0).bm) n j * (roundOf x6 x7 x8 x9 0).Hi j k) := by
  have el : ∀ q : Fin 256, lidx_main_v54 (ix3 b n k) q = ix3 b n q := fun q => funext fun a => by
    match a with | ⟨0, _⟩ => rfl | ⟨1, _⟩ => rfl | ⟨2, _⟩ => rfl
  have er : ∀ q : Fin 256, ridx_main_v54 (ix3 b n k) q = ix2 q k := fun q => funext fun a => by
    match a with | ⟨0, _⟩ => rfl | ⟨1, _⟩ => rfl
  rw [val_main_v54_apply]
  simp only [el, er, v53_at]
  exact sum_pair (fun j => h n j) (fun j => agg (adj (jetOf x0 b) (mskOf x1 b)) (msg h (roundOf x6 x7 x8 x9 0).Wm (roundOf x6 x7 x8 x9 0).bm) n j)
    (fun q => val_main_v51 (F := Ideal) x0 x1 x2 x3 x4 x5 x6 x7 (ix3 b n q)) (fun q => x8 (ix3 (0 : Fin 3) q k))
    (fun j => (v51_lo b n j).trans (hprev n j))
    (fun j => (v51_hi b n j).trans (v50_at (x1 := x1) (x6 := x6) (x7 := x7) (x8 := x8) (x9 := x9) b h hprev n j))

/-- The round: the next state of point `n`. -/
theorem v62_at (b : Fin 128) (h : Fin 512 → Fin 128 → EReal) (hprev : ∀ (n : Fin 512) (k : Fin 128), val_main_v9 (F := Ideal) x0 x2 x3 x4 x5 (ix3 b n k) = h n k) (n : Fin 512) (k : Fin 128) :
    val_main_v62 (F := Ideal) x0 x1 x2 x3 x4 x5 x6 x7 x8 x9 (ix3 b n k)
      = layer (adj (jetOf x0 b) (mskOf x1 b)) (mskOf x1 b) (roundOf x6 x7 x8 x9 0).Wm (roundOf x6 x7 x8 x9 0).bm (roundOf x6 x7 x8 x9 0).Lo (roundOf x6 x7 x8 x9 0).Hi (roundOf x6 x7 x8 x9 0).bu h n k := by
  have eb : idx_main_v57 (idx_main_v58 (ix3 b n k)) = ix1 k := funext fun a => by
    match a with | ⟨0, _⟩ => rfl
  have em : idx_main_v40 (idx_main_v61 (ix3 b n k)) = ix2 b n := funext fun a => by
    match a with | ⟨0, _⟩ => rfl | ⟨1, _⟩ => rfl
  rw [val_main_v62_apply, val_main_v60_apply, val_main_v59_apply, val_main_v58_apply, val_main_v57_apply,
    val_main_call4_v0_apply, val_main_call4_cst_apply, val_main_v61_apply, val_main_v40_apply, eb, em, v56_at,
    v54_at (x1 := x1) (x6 := x6) (x7 := x7) (x8 := x8) (x9 := x9) b h hprev]
  simp only [Ideal.maximumf_def, Ideal.addf_def, Ideal.subf_def, Ideal.mulf_def, Ideal.hostNegf_def, Ideal.negf_def, Ideal.hostDivf_def, Ideal.hostUnary_exp_def, Ideal.ofBits_def, Ideal.ofBits_zero_f32]
  rfl

end Cert.NmpRef

end
-- ==== Proof.RefNetR1.lean ====
/-
  The reference program read as the network of `NmpSpec`, part 5: the second round of message passing.

  Slab 1 of each stacked parameter array is cut out by a slice and a reshape (the row-major position of `(0, j, k)`
  in the slice is that of `(j, k)` in the matrix).  The message is a dense layer of the state with rectifier; the
  adjacency averages the messages by a batched contraction over the points; the state and the averaged message are
  joined along the feature axis and contracted against the 256-row update matrix, which is the sum against its upper
  half plus the sum against its lower half; bias, rectifier, and the point's weight follow.
-/
import proofs.«130221_j58248346468777_2_alg».proof.Proof.RefNetR0

noncomputable section

namespace Cert.NmpRef

open Cert.ReferenceIdeal Cert.ReferenceIdeal.Gen Cert.ReferenceIdeal.ReadP Idealize.ShloMosaic Idealize.ShloMosaic.ValueIdx Cert.Nmp

variable {x0 : (⟨S128x512x8, .f32⟩ : BufTy).Contents (Elt Ideal)} {x1 : (⟨S128x512, .f32⟩ : BufTy).Contents (Elt Ideal)}
  {x2 : (⟨S8x128, .f32⟩ : BufTy).Contents (Elt Ideal)} {x3 : (⟨S128, .f32⟩ : BufTy).Contents (Elt Ideal)}
  {x4 : (⟨S128x128, .f32⟩ : BufTy).Contents (Elt Ideal)} {x5 : (⟨S128, .f32⟩ : BufTy).Contents (Elt Ideal)}
  {x6 : (⟨S3x128x128, .f32⟩ : BufTy).Contents (Elt Ideal)} {x7 : (⟨S3x128, .f32⟩ : BufTy).Contents (Elt Ideal)}
  {x8 : (⟨S3x256x128, .f32⟩ : BufTy).Contents (Elt Ideal)} {x9 : (⟨S3x128, .f32⟩ : BufTy).Contents (Elt Ideal)}
  {x10 : (⟨S128x128, .f32⟩ : BufTy).Contents (Elt Ideal)} {x11 : (⟨S128, .f32⟩ : BufTy).Contents (Elt Ideal)}
  {x12 : (⟨S128x128, .f32⟩ : BufTy).Contents (Elt Ideal)} {x13 : (⟨S128, .f32⟩ : BufTy).Contents (Elt Ideal)}

/-- Slab 1 of the message matrices. -/
theorem v64_at (j k : Fin 128) : val_main_v64 (F := Ideal) x6 (ix2 j k) = x6 (ix3 (1 : Fin 3) j k) := by
  have hj := j.isLt
  have hk := k.isLt
  rw [val_main_v64_apply, val_main_v63_apply]
  refine congrArg x6 (funext fun a => Fin.ext ?_)
  match a with
  | ⟨0, _⟩ => rfl
  | ⟨1, _⟩ => show (j.val * 128 + k.val) / 128 % 128 = j.val; omega
  | ⟨2, _⟩ => show (j.val * 128 + k.val) % 128 = k.val; omega

/-- Slab 1 of the message biases. -/
theorem v67_at (k : Fin 128) : val_main_v67 (F := Ideal) x7 (ix1 k) = x7 (ix2 (1 : Fin 3) k) := by
  have hk := k.isLt
  rw [val_main_v67_apply, val_main_v66_apply]
  refine congrArg x7 (funext fun a => Fin.ext ?_)
  match a with
  | ⟨0, _⟩ => rfl
  | ⟨1, _⟩ => show k.val % 128 = k.val; omega

/-- Slab 1 of the update matrices, all 256 rows. -/
theorem v75_at (q : Fin 256) (k : Fin 128) : val_main_v75 (F := Ideal) x8 (ix2 q k) = x8 (ix3 (1 : Fin 3) q k) := by
  have hq := q.isLt
  have hk := k.isLt
  rw [val_main_v75_apply, val_main_v74_apply]
  refine congrArg x8 (funext fun a => Fin.ext ?_)
  match a with
  | ⟨0, _⟩ => rfl
  | ⟨1, _⟩ => show (q.val * 128 + k.val) / 128 % 256 = q.val; omega
  | ⟨2, _⟩ => show (q.val * 128 + k.val) % 128 = k.val; omega

/-- Slab 1 of the update biases. -/
theorem v78_at (k : Fin 128) : val_main_v78 (F := Ideal) x9 (ix1 k) = x9 (ix2 (1 : Fin 3) k) := by
  have hk := k.isLt
  rw [val_main_v78_apply, val_main_v77_apply]
  refine congrArg x9 (funext fun a => Fin.ext ?_)
  match a with
  | ⟨0, _⟩ => rfl
  | ⟨1, _⟩ => show k.val % 128 = k.val; omega

/-- The message of point `n`. -/
theorem v71_at (b : Fin 128) (h : Fin 512 → Fin 128 → EReal) (hprev : ∀ (n : Fin 512) (k : Fin 128), val_main_v62 (F := Ideal) x0 x1 x2 x3 x4 x5 x6 x7 x8 x9 (ix3 b n k) = h n k) (n : Fin 512) (k : Fin 128) :
    val_main_v71 (F := Ideal) x0 x1 x2 x3 x4 x5 x6 x7 x8 x9 (ix3 b n k) = msg h (roundOf x6 x7 x8 x9 1).Wm (roundOf x6 x7 x8 x9 1).bm n k := by
  have el : ∀ j : Fin 128, lidx_main_v65 (ix3 b n k) j = ix3 b n j := fun j => funext fun a => by
    match a with | ⟨0, _⟩ => rfl | ⟨1, _⟩ => rfl | ⟨2, _⟩ => rfl
  have er : ∀ j : Fin 128, ridx_main_v65 (ix3 b n k) j = ix2 j k := fun j => funext fun a => by
    match a with | ⟨0, _⟩ => rfl | ⟨1, _⟩ => rfl
  have eb : idx_main_v68 (idx_main_v69 (ix3 b n k)) = ix1 k := funext fun a => by
    match a with | ⟨0, _⟩ => rfl
  rw [val_main_v71_apply, val_main_v70_apply, val_main_v65_apply, val_main_v69_apply, val_main_v68_apply,
    val_main_call5_v0_apply, val_main_call5_cst_apply, eb, v67_at]
  simp only [el, er, hprev, v64_at, Ideal.maximumf_def, Ideal.addf_def, Ideal.subf_def, Ideal.mulf_def, Ideal.hostNegf_def, Ideal.negf_def, Ideal.hostDivf_def, Ideal.hostUnary_exp_def, Ideal.ofBits_def, Ideal.ofBits_zero_f32]
  rfl

/-- The messages averaged by the adjacency. -/
theorem v72_at (b : Fin 128) (h : Fin 512 → Fin 128 → EReal) (hprev : ∀ (n : Fin 512) (k : Fin 128), val_main_v62 (F := Ideal) x0 x1 x2 x3 x4 x5 x6 x7 x8 x9 (ix3 b n k) = h n k) (n : Fin 512) (k : Fin 128) :
    val_main_v72 (F := Ideal) x0 x1 x2 x3 x4 x5 x6 x7 x8 x9 (ix3 b n k) = agg (adj (jetOf x0 b) (mskOf x1 b)) (msg h (roundOf x6 x7 x8 x9 1).Wm (roundOf x6 x7 x8 x9 1).bm) n k := by
  have el : ∀ j : Fin 512, lidx_main_v72 (ix3 b n k) j = ix3 b n j := fun j => funext fun a => by
    match a with | ⟨0, _⟩ => rfl | ⟨1, _⟩ => rfl | ⟨2, _⟩ => rfl
  have er : ∀ j : Fin 512, ridx_main_v72 (ix3 b n k) j = ix3 b j k := fun j => funext fun a => by
    match a with | ⟨0, _⟩ => rfl | ⟨1, _⟩ => rfl | ⟨2, _⟩ => rfl
  rw [val_main_v72_apply]
  simp only [el, er, v39_at, v71_at (x6 := x6) (x7 := x7) (x8 := x8) (x9 := x9) b h hprev]
  rfl

/-- The joined array on its first 128 coordinates is the state. -/
theorem v73_lo (b : Fin 128) (n : Fin 512) (j : Fin 128) :
    val_main_v73 (F := Ideal) x0 x1 x2 x3 x4 x5 x6 x7 x8 x9 (ix3 b n (⟨j.val, by omega⟩ : Fin 256)) = val_main_v62 (F := Ideal) x0 x1 x2 x3 x4 x5 x6 x7 x8 x9 (ix3 b n j) := by
  unfold val_main_v73
  exact concatenate_pair_apply_left _ _ _ concatenates_S128x512x128_S128x512x128_S128x512x256_d2
    (ix3 b n (⟨j.val, by omega⟩ : Fin 256)) rfl (ix3 b n j) (fun c => by
      match c with | ⟨0, _⟩ => rfl | ⟨1, _⟩ => rfl | ⟨2, _⟩ => rfl)

/-- The joined array on its last 128 coordinates is the averaged message. -/
theorem v73_hi (b : Fin 128) (n : Fin 512) (j : Fin 128) :
    val_main_v73 (F := Ideal) x0 x1 x2 x3 x4 x5 x6 x7 x8 x9 (ix3 b n (⟨128 + j.val, by omega⟩ : Fin 256))
      = val_main_v72 (F := Ideal) x0 x1 x2 x3 x4 x5 x6 x7 x8 x9 (ix3 b n j) := by
  unfold val_main_v73
  exact concatenate_pair_apply_right _ _ _ concatenates_S128x512x128_S128x512x128_S128x512x256_d2
    (ix3 b n (⟨128 + j.val, by omega⟩ : Fin 256)) rfl rfl (ix3 b n j) (fun c hc => by
      match c with | ⟨0, _⟩ => rfl | ⟨1, _⟩ => rfl | ⟨2, _⟩ => exact absurd rfl hc)
    (by show j.val + 128 = 128 + j.val; omega)

/-- The contraction of the joined array against the 256-row update matrix, split at row 128. -/
theorem v76_at (b : Fin 128) (h : Fin 512 → Fin 128 → EReal) (hprev : ∀ (n : Fin 512) (k : Fin 128), val_main_v62 (F := Ideal) x0 x1 x2 x3 x4 x5 x6 x7 x8 x9 (ix3 b n k) = h n k) (n : Fin 512) (k : Fin 128) :
    val_main_v76 (F := Ideal) x0 x1 x2 x3 x4 x5 x6 x7 x8 x9 (ix3 b n k)
      = (∑ j, h n j * (roundOf x6 x7 x8 x9 1).Lo j k) + (∑ j, agg (adj (jetOf x0 b) (mskOf x1 b)) (msg h (roundOf x6 x7 x8 x9 1).Wm (roundOf x6 x7 x8 x9 1).bm) n j * (roundOf x6 x7 x8 x9 1).Hi j k) := by
  have el : ∀ q : Fin 256, lidx_main_v76 (ix3 b n k) q = ix3 b n q := fun q => funext fun a => by
    match a with | ⟨0, _⟩ => rfl | ⟨1, _⟩ => rfl | ⟨2, _⟩ => rfl
  have er : ∀ q : Fin 256, ridx_main_v76 (ix3 b n k) q = ix2 q k := fun q => funext fun a => by
    match a with | ⟨0, _⟩ => rfl | ⟨1, _⟩ => rfl
  rw [val_main_v76_apply]
  simp only [el, er, v75_at]
  exact sum_pair (fun j => h n j) (fun j => agg (adj (jetOf x0 b) (mskOf x1 b)) (msg h (roundOf x6 x7 x8 x9 1).Wm (roundOf x6 x7 x8 x9 1).bm) n j)
    (fun q => val_main_v73 (F := Ideal) x0 x1 x2 x3 x4 x5 x6 x7 x8 x9 (ix3 b n q)) (fun q => x8 (ix3 (1 : Fin 3) q k))
    (fun j => (v73_lo b n j).trans (hprev n j))
    (fun j => (v73_hi b n j).trans (v72_at (x1 := x1) (x6 := x6) (x7 := x7) (x8 := x8) (x9 := x9) b h hprev n j))

/-- The round: the next state of point `n`. -/
theorem v84_at (b : Fin 128) (h : Fin 512 → Fin 128 → EReal) (hprev : ∀ (n : Fin 512) (k : Fin 128), val_main_v62 (F := Ideal) x0 x1 x2 x3 x4 x5 x6 x7 x8 x9 (ix3 b n k) = h n k) (n : Fin 512) (k : Fin 128) :
    val_main_v84 (F := Ideal) x0 x1 x2 x3 x4 x5 x6 x7 x8 x9 (ix3 b n k)
      = layer (adj (jetOf x0 b) (mskOf x1 b)) (mskOf x1 b) (roundOf x6 x7 x8 x9 1).Wm (roundOf x6 x7 x8 x9 1).bm (roundOf x6 x7 x8 x9 1).Lo (roundOf x6 x7 x8 x9 1).Hi (roundOf x6 x7 x8 x9 1).bu h n k := by
  have eb : idx_main_v79 (idx_main_v80 (ix3 b n k)) = ix1 k := funext fun a => by
    match a with | ⟨0, _⟩ => rfl
  have em : idx_main_v40 (idx_main_v83 (ix3 b n k)) = ix2 b n := funext fun a => by
    match a with | ⟨0, _⟩ => rfl | ⟨1, _⟩ => rfl
  rw [val_main_v84_apply, val_main_v82_apply, val_main_v81_apply, val_main_v80_apply, val_main_v79_apply,
    val_main_call6_v0_apply, val_main_call6_cst_apply, val_main_v83_apply, val_main_v40_apply, eb, em, v78_at,
    v76_at (x1 := x1) (x6 := x6) (x7 := x7) (x8 := x8) (x9 := x9) b h hprev]
  simp only [Ideal.maximumf_def, Ideal.addf_def, Ideal.subf_def, Ideal.mulf_def, Ideal.hostNegf_def, Ideal.negf_def, Ideal.hostDivf_def, Ideal.hostUnary_exp_def, Ideal.ofBits_def, Ideal.ofBits_zero_f32]
  rfl

end Cert.NmpRef

end
-- ==== Proof.RefNetR2.lean ====
/-
  The reference program read as the network of `NmpSpec`, part 6: the third round of message passing.

  Slab 2 of each stacked parameter array is cut out by a slice and a reshape (the row-major position of `(0, j, k)`
  in the slice is that of `(j, k)` in the matrix).  The message is a dense layer of the state with rectifier; the
  adjacency averages the messages by a batched contraction over the points; the state and the averaged message are
  joined along the feature axis and contracted against the 256-row update matrix, which is the sum against its upper
  half plus the sum against its lower half; bias, rectifier, and the point's weight follow.
-/
import proofs.«130221_j58248346468777_2_alg».proof.Proof.RefNetR1

noncomputable section

namespace Cert.NmpRef

open Cert.ReferenceIdeal Cert.ReferenceIdeal.Gen Cert.ReferenceIdeal.ReadP Idealize.ShloMosaic Idealize.ShloMosaic.ValueIdx Cert.Nmp

variable {x0 : (⟨S128x512x8, .f32⟩ : BufTy).Contents (Elt Ideal)} {x1 : (⟨S128x512, .f32⟩ : BufTy).Contents (Elt Ideal)}
  {x2 : (⟨S8x128, .f32⟩ : BufTy).Contents (Elt Ideal)} {x3 : (⟨S128, .f32⟩ : BufTy).Contents (Elt Ideal)}
  {x4 : (⟨S128x128, .f32⟩ : BufTy).Contents (Elt Ideal)} {x5 : (⟨S128, .f32⟩ : BufTy).Contents (Elt Ideal)}
  {x6 : (⟨S3x128x128, .f32⟩ : BufTy).Contents (Elt Ideal)} {x7 : (⟨S3x128, .f32⟩ : BufTy).Contents (Elt Ideal)}
  {x8 : (⟨S3x256x128, .f32⟩ : BufTy).Contents (Elt Ideal)} {x9 : (⟨S3x128, .f32⟩ : BufTy).Contents (Elt Ideal)}
  {x10 : (⟨S128x128, .f32⟩ : BufTy).Contents (Elt Ideal)} {x11 : (⟨S128, .f32⟩ : BufTy).Contents (Elt Ideal)}
  {x12 : (⟨S128x128, .f32⟩ : BufTy).Contents (Elt Ideal)} {x13 : (⟨S128, .f32⟩ : BufTy).Contents (Elt Ideal)}

/-- Slab 2 of the message matrices. -/
theorem v86_at (j k : Fin 128) : val_main_v86 (F := Ideal) x6 (ix2 j k) = x6 (ix3 (2 : Fin 3) j k) := by
  have hj := j.isLt
  have hk := k.isLt
  rw [val_main_v86_apply, val_main_v85_apply]
  refine congrArg x6 (funext fun a => Fin.ext ?_)
  match a with
  | ⟨0, _⟩ => rfl
  | ⟨1, _⟩ => show (j.val * 128 + k.val) / 128 % 128 = j.val; omega
  | ⟨2, _⟩ => show (j.val * 128 + k.val) % 128 = k.val; omega

/-- Slab 2 of the message biases. -/
theorem v89_at (k : Fin 128) : val_main_v89 (F := Ideal) x7 (ix1 k) = x7 (ix2 (2 : Fin 3) k) := by
  have hk := k.isLt
  rw [val_main_v89_apply, val_main_v88_apply]
  refine congrArg x7 (funext fun a => Fin.ext ?_)
  match a with
  | ⟨0, _⟩ => rfl
  | ⟨1, _⟩ => show k.val % 128 = k.val; omega

/-- Slab 2 of the update matrices, all 256 rows. -/
theorem v97_at (q : Fin 256) (k : Fin 128) : val_main_v97 (F := Ideal) x8 (ix2 q k) = x8 (ix3 (2 : Fin 3) q k) := by
  have hq := q.isLt
  have hk := k.isLt
  rw [val_main_v97_apply, val_main_v96_apply]
  refine congrArg x8 (funext fun a => Fin.ext ?_)
  match a with
  | ⟨0, _⟩ => rfl
  | ⟨1, _⟩ => show (q.val * 128 + k.val) / 128 % 256 = q.val; omega
  | ⟨2, _⟩ => show (q.val * 128 + k.val) % 128 = k.val; omega

/-- Slab 2 of the update biases. -/
theorem v100_at (k : Fin 128) : val_main_v100 (F := Ideal) x9 (ix1 k) = x9 (ix2 (2 : Fin 3) k) := by
  have hk := k.isLt
  rw [val_main_v100_apply, val_main_v99_apply]
  refine congrArg x9 (funext fun a => Fin.ext ?_)
  match a with
  | ⟨0, _⟩ => rfl
  | ⟨1, _⟩ => show k.val % 128 = k.val; omega

/-- The message of point `n`. -/
theorem v93_at (b : Fin 128) (h : Fin 512 → Fin 128 → EReal) (hprev : ∀ (n : Fin 512) (k : Fin 128), val_main_v84 (F := Ideal) x0 x1 x2 x3 x4 x5 x6 x7 x8 x9 (ix3 b n k) = h n k) (n : Fin 512) (k : Fin 128) :
    val_main_v93 (F := Ideal) x0 x1 x2 x3 x4 x5 x6 x7 x8 x9 (ix3 b n k) = msg h (roundOf x6 x7 x8 x9 2).Wm (roundOf x6 x7 x8 x9 2).bm n k := by
  have el : ∀ j : Fin 128, lidx_main_v87 (ix3 b n k) j = ix3 b n j := fun j => funext fun a => by
    match a with | ⟨0, _⟩ => rfl | ⟨1, _⟩ => rfl | ⟨2, _⟩ => rfl
  have er : ∀ j : Fin 128, ridx_main_v87 (ix3 b n k) j = ix2 j k := fun j => funext fun a => by
    match a with | ⟨0, _⟩ => rfl | ⟨1, _⟩ => rfl
  have eb : idx_main_v90 (idx_main_v91 (ix3 b n k)) = ix1 k := funext fun a => by
    match a with | ⟨0, _⟩ => rfl
  rw [val_main_v93_apply, val_main_v92_apply, val_main_v87_apply, val_main_v91_apply, val_main_v90_apply,
    val_main_call7_v0_apply, val_main_call7_cst_apply, eb, v89_at]
  simp only [el, er, hprev, v86_at, Ideal.maximumf_def, Ideal.addf_def, Ideal.subf_def, Ideal.mulf_def, Ideal.hostNegf_def, Ideal.negf_def, Ideal.hostDivf_def, Ideal.hostUnary_exp_def, Ideal.ofBits_def, Ideal.ofBits_zero_f32]
  rfl

/-- The messages averaged by the adjacency. -/
theorem v94_at (b : Fin 128) (h : Fin 512 → Fin 128 → EReal) (hprev : ∀ (n : Fin 512) (k : Fin 128), val_main_v84 (F := Ideal) x0 x1 x2 x3 x4 x5 x6 x7 x8 x9 (ix3 b n k) = h n k) (n : Fin 512) (k : Fin 128) :
    val_main_v94 (F := Ideal) x0 x1 x2 x3 x4 x5 x6 x7 x8 x9 (ix3 b n k) = agg (adj (jetOf x0 b) (mskOf x1 b)) (msg h (roundOf x6 x7 x8 x9 2).Wm (roundOf x6 x7 x8 x9 2).bm) n k := by
  have el : ∀ j : Fin 512, lidx_main_v94 (ix3 b n k) j = ix3 b n j := fun j => funext fun a => by
    match a with | ⟨0, _⟩ => rfl | ⟨1, _⟩ => rfl | ⟨2, _⟩ => rfl
  have er : ∀ j : Fin 512, ridx_main_v94 (ix3 b n k) j = ix3 b j k := fun j => funext fun a => by
    match a with | ⟨0, _⟩ => rfl | ⟨1, _⟩ => rfl | ⟨2, _⟩ => rfl
  rw [val_main_v94_apply]
  simp only [el, er, v39_at, v93_at (x6 := x6) (x7 := x7) (x8 := x8) (x9 := x9) b h hprev]
  rfl

/-- The joined array on its first 128 coordinates is the state. -/
theorem v95_lo (b : Fin 128) (n : Fin 512) (j : Fin 128) :
    val_main_v95 (F := Ideal) x0 x1 x2 x3 x4 x5 x6 x7 x8 x9 (ix3 b n (⟨j.val, by omega⟩ : Fin 256)) = val_main_v84 (F := Ideal) x0 x1 x2 x3 x4 x5 x6 x7 x8 x9 (ix3 b n j) := by
  unfold val_main_v95
  exact concatenate_pair_apply_left _ _ _ concatenates_S128x512x128_S128x512x128_S128x512x256_d2
    (ix3 b n (⟨j.val, by omega⟩ : Fin 256)) rfl (ix3 b n j) (fun c => by
      match c with | ⟨0, _⟩ => rfl | ⟨1, _⟩ => rfl | ⟨2, _⟩ => rfl)

/-- The joined array on its last 128 coordinates is the averaged message. -/
theorem v95_hi (b : Fin 128) (n : Fin 512) (j : Fin 128) :
    val_main_v95 (F := Ideal) x0 x1 x2 x3 x4 x5 x6 x7 x8 x9 (ix3 b n (⟨128 + j.val, by omega⟩ : Fin 256))
      = val_main_v94 (F := Ideal) x0 x1 x2 x3 x4 x5 x6 x7 x8 x9 (ix3 b n j) := by
  unfold val_main_v95
  exact concatenate_pair_apply_right _ _ _ concatenates_S128x512x128_S128x512x128_S128x512x256_d2
    (ix3 b n (⟨128 + j.val, by omega⟩ : Fin 256)) rfl rfl (ix3 b n j) (fun c hc => by
      match c with | ⟨0, _⟩ => rfl | ⟨1, _⟩ => rfl | ⟨2, _⟩ => exact absurd rfl hc)
    (by show j.val + 128 = 128 + j.val; omega)

/-- The contraction of the joined array against the 256-row update matrix, split at row 128. -/
theorem v98_at (b : Fin 128) (h : Fin 512 → Fin 128 → EReal) (hprev : ∀ (n : Fin 512) (k : Fin 128), val_main_v84 (F := Ideal) x0 x1 x2 x3 x4 x5 x6 x7 x8 x9 (ix3 b n k) = h n k) (n : Fin 512) (k : Fin 128) :
    val_main_v98 (F := Ideal) x0 x1 x2 x3 x4 x5 x6 x7 x8 x9 (ix3 b n k)
      = (∑ j, h n j * (roundOf x6 x7 x8 x9 2).Lo j k) + (∑ j, agg (adj (jetOf x0 b) (mskOf x1 b)) (msg h (roundOf x6 x7 x8 x9 2).Wm (roundOf x6 x7 x8 x9 2).bm) n j * (roundOf x6 x7 x8 x9 2).Hi j k) := by
  have el : ∀ q : Fin 256, lidx_main_v98 (ix3 b n k) q = ix3 b n q := fun q => funext fun a => by
    match a with | ⟨0, _⟩ => rfl | ⟨1, _⟩ => rfl | ⟨2, _⟩ => rfl
  have er : ∀ q : Fin 256, ridx_main_v98 (ix3 b n k) q = ix2 q k := fun q => funext fun a => by
    match a with | ⟨0, _⟩ => rfl | ⟨1, _⟩ => rfl
  rw [val_main_v98_apply]
  simp only [el, er, v97_at]
  exact sum_pair (fun j => h n j) (fun j => agg (adj (jetOf x0 b) (mskOf x1 b)) (msg h (roundOf x6 x7 x8 x9 2).Wm (roundOf x6 x7 x8 x9 2).bm) n j)
    (fun q => val_main_v95 (F := Ideal) x0 x1 x2 x3 x4 x5 x6 x7 x8 x9 (ix3 b n q)) (fun q => x8 (ix3 (2 : Fin 3) q k))
    (fun j => (v95_lo b n j).trans (hprev n j))
    (fun j => (v95_hi b n j).trans (v94_at (x1 := x1) (x6 := x6) (x7 := x7) (x8 := x8) (x9 := x9) b h hprev n j))

/-- The round: the next state of point `n`. -/
theorem v106_at (b : Fin 128) (h : Fin 512 → Fin 128 → EReal) (hprev : ∀ (n : Fin 512) (k : Fin 128), val_main_v84 (F := Ideal) x0 x1 x2 x3 x4 x5 x6 x7 x8 x9 (ix3 b n k) = h n k) (n : Fin 512) (k : Fin 128) :
    val_main_v106 (F := Ideal) x0 x1 x2 x3 x4 x5 x6 x7 x8 x9 (ix3 b n k)
      = layer (adj (jetOf x0 b) (mskOf x1 b)) (mskOf x1 b) (roundOf x6 x7 x8 x9 2).Wm (roundOf x6 x7 x8 x9 2).bm (roundOf x6 x7 x8 x9 2).Lo (roundOf x6 x7 x8 x9 2).Hi (roundOf x6 x7 x8 x9 2).bu h n k := by
  have eb : idx_main_v101 (idx_main_v102 (ix3 b n k)) = ix1 k := funext fun a => by
    match a with | ⟨0, _⟩ => rfl
  have em : idx_main_v40 (idx_main_v105 (ix3 b n k)) = ix2 b n := funext fun a => by
    match a with | ⟨0, _⟩ => rfl | ⟨1, _⟩ => rfl
  rw [val_main_v106_apply, val_main_v104_apply, val_main_v103_apply, val_main_v102_apply, val_main_v101_apply,
    val_main_call8_v0_apply, val_main_call8_cst_apply, val_main_v105_apply, val_main_v40_apply, eb, em, v100_at,
    v98_at (x1 := x1) (x6 := x6) (x7 := x7) (x8 := x8) (x9 := x9) b h hprev]
  simp only [Ideal.maximumf_def, Ideal.addf_def, Ideal.subf_def, Ideal.mulf_def, Ideal.hostNegf_def, Ideal.negf_def, Ideal.hostDivf_def, Ideal.hostUnary_exp_def, Ideal.ofBits_def, Ideal.ofBits_zero_f32]
  rfl

end Cert.NmpRef

end
-- ==== Proof.RefNet.lean ====
/-
  The reference program read as the network of `NmpSpec`, part 7: the readout, and the whole.

  The pooled vector is the sum over the points, from zero, of the last round's state times the point's weight; two
  dense layers follow, a rectifier between them.  Chaining the parts — embedding, adjacency, three rounds, readout —
  index by index gives the reference's result array as the function `G` of the fourteen argument arrays.
-/
import proofs.«130221_j58248346468777_2_alg».proof.Proof.RefNetR2

noncomputable section

namespace Cert.NmpRef

open Cert.ReferenceIdeal Cert.ReferenceIdeal.Gen Cert.ReferenceIdeal.ReadP Idealize.ShloMosaic Idealize.ShloMosaic.ValueIdx Cert.Nmp

variable {x0 : (⟨S128x512x8, .f32⟩ : BufTy).Contents (Elt Ideal)} {x1 : (⟨S128x512, .f32⟩ : BufTy).Contents (Elt Ideal)}
  {x2 : (⟨S8x128, .f32⟩ : BufTy).Contents (Elt Ideal)} {x3 : (⟨S128, .f32⟩ : BufTy).Contents (Elt Ideal)}
  {x4 : (⟨S128x128, .f32⟩ : BufTy).Contents (Elt Ideal)} {x5 : (⟨S128, .f32⟩ : BufTy).Contents (Elt Ideal)}
  {x6 : (⟨S3x128x128, .f32⟩ : BufTy).Contents (Elt Ideal)} {x7 : (⟨S3x128, .f32⟩ : BufTy).Contents (Elt Ideal)}
  {x8 : (⟨S3x256x128, .f32⟩ : BufTy).Contents (Elt Ideal)} {x9 : (⟨S3x128, .f32⟩ : BufTy).Contents (Elt Ideal)}
  {x10 : (⟨S128x128, .f32⟩ : BufTy).Contents (Elt Ideal)} {x11 : (⟨S128, .f32⟩ : BufTy).Contents (Elt Ideal)}
  {x12 : (⟨S128x128, .f32⟩ : BufTy).Contents (Elt Ideal)} {x13 : (⟨S128, .f32⟩ : BufTy).Contents (Elt Ideal)}

/-- The pooled vector. -/
theorem v109_at (b : Fin 128) (h : Fin 512 → Fin 128 → EReal)
    (hprev : ∀ (n : Fin 512) (k : Fin 128), val_main_v106 (F := Ideal) x0 x1 x2 x3 x4 x5 x6 x7 x8 x9 (ix3 b n k) = h n k) (k : Fin 128) :
    val_main_v109 (F := Ideal) x0 x1 x2 x3 x4 x5 x6 x7 x8 x9 (ix2 b k) = pooled h (mskOf x1 b) k := by
  have e : ∀ n : Fin 512, idx_main_v109 (ix2 b k) n = ix3 b n k := fun n => funext fun a => by
    match a with | ⟨0, _⟩ => rfl | ⟨1, _⟩ => rfl | ⟨2, _⟩ => rfl
  have em : ∀ n : Fin 512, idx_main_v40 (idx_main_v107 (ix3 b n k)) = ix2 b n := fun n => funext fun a => by
    match a with | ⟨0, _⟩ => rfl | ⟨1, _⟩ => rfl
  rw [val_main_v109_apply, val_main_cst_7_apply]
  simp only [e, val_main_v108_apply, val_main_v107_apply, val_main_v40_apply, em, hprev, Ideal.maximumf_def, Ideal.addf_def, Ideal.subf_def, Ideal.mulf_def, Ideal.hostNegf_def, Ideal.negf_def, Ideal.hostDivf_def, Ideal.hostUnary_exp_def, Ideal.ofBits_def, Ideal.ofBits_zero_f32, zero_add]
  rfl

/-- The readout's first dense layer with its rectifier. -/
theorem v114_at (b : Fin 128) (p : Fin 128 → EReal)
    (hp : ∀ k : Fin 128, val_main_v109 (F := Ideal) x0 x1 x2 x3 x4 x5 x6 x7 x8 x9 (ix2 b k) = p k) (j : Fin 128) :
    val_main_v114 (F := Ideal) x0 x1 x2 x3 x4 x5 x6 x7 x8 x9 x10 x11 (ix2 b j) = relu (dense p (matOf x10) (vecOf x11) j) := by
  have el : ∀ i : Fin 128, lidx_main_v110 (ix2 b j) i = ix2 b i := fun i => funext fun a => by
    match a with | ⟨0, _⟩ => rfl | ⟨1, _⟩ => rfl
  have er : ∀ i : Fin 128, ridx_main_v110 (ix2 b j) i = ix2 i j := fun i => funext fun a => by
    match a with | ⟨0, _⟩ => rfl | ⟨1, _⟩ => rfl
  have eb : idx_main_v111 (idx_main_v112 (ix2 b j)) = ix1 j := funext fun a => by
    match a with | ⟨0, _⟩ => rfl
  rw [val_main_v114_apply, val_main_v113_apply, val_main_v110_apply, val_main_v112_apply, val_main_v111_apply,
    val_main_call9_v0_apply, val_main_call9_cst_apply, eb]
  simp only [el, er, hp, Ideal.maximumf_def, Ideal.addf_def, Ideal.subf_def, Ideal.mulf_def, Ideal.hostNegf_def, Ideal.negf_def, Ideal.hostDivf_def, Ideal.hostUnary_exp_def, Ideal.ofBits_def, Ideal.ofBits_zero_f32]
  rfl

/-- The readout. -/
theorem v118_of_pooled (b : Fin 128) (p : Fin 128 → EReal)
    (hp : ∀ k : Fin 128, val_main_v109 (F := Ideal) x0 x1 x2 x3 x4 x5 x6 x7 x8 x9 (ix2 b k) = p k) (k : Fin 128) :
    val_main_v118 (F := Ideal) x0 x1 x2 x3 x4 x5 x6 x7 x8 x9 x10 x11 x12 x13 (ix2 b k)
      = readout p (matOf x10) (vecOf x11) (matOf x12) (vecOf x13) k := by
  have el : ∀ j : Fin 128, lidx_main_v115 (ix2 b k) j = ix2 b j := fun j => funext fun a => by
    match a with | ⟨0, _⟩ => rfl | ⟨1, _⟩ => rfl
  have er : ∀ j : Fin 128, ridx_main_v115 (ix2 b k) j = ix2 j k := fun j => funext fun a => by
    match a with | ⟨0, _⟩ => rfl | ⟨1, _⟩ => rfl
  have eb : idx_main_v116 (idx_main_v117 (ix2 b k)) = ix1 k := funext fun a => by
    match a with | ⟨0, _⟩ => rfl
  rw [val_main_v118_apply, val_main_v115_apply, val_main_v117_apply, val_main_v116_apply, eb]
  simp only [el, er, v114_at b p hp, Ideal.maximumf_def, Ideal.addf_def, Ideal.subf_def, Ideal.mulf_def, Ideal.hostNegf_def, Ideal.negf_def, Ideal.hostDivf_def, Ideal.hostUnary_exp_def, Ideal.ofBits_def, Ideal.ofBits_zero_f32]
  rfl

/-- The reference's result at batch element `b`, coordinate `k`, is the network on that element's points and weights. -/
theorem v118_at (b k : Fin 128) :
    val_main_v118 (F := Ideal) x0 x1 x2 x3 x4 x5 x6 x7 x8 x9 x10 x11 x12 x13 (ix2 b k)
      = netOf (jetOf x0 b) (mskOf x1 b) x2 x3 x4 x5 x6 x7 x8 x9 x10 x11 x12 x13 k := by
  have h0 : ∀ (n : Fin 512) (k : Fin 128), val_main_v9 (F := Ideal) x0 x2 x3 x4 x5 (ix3 b n k) = _ := fun n k => v9_at b n k
  have h1 := v62_at (x6 := x6) (x7 := x7) (x8 := x8) (x9 := x9) (x1 := x1) b _ h0
  have h2 := v84_at b _ h1
  have h3 := v106_at b _ h2
  have hp := v109_at b _ h3
  exact v118_of_pooled (x10 := x10) (x11 := x11) (x12 := x12) (x13 := x13) b _ hp k

/-- The reference computes `G`. -/
theorem ref_eq (x0 : (⟨S128x512x8, .f32⟩ : BufTy).Contents (Elt Ideal)) (x1 : (⟨S128x512, .f32⟩ : BufTy).Contents (Elt Ideal)) (x2 : (⟨S8x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S3x128x128, .f32⟩ : BufTy).Contents (Elt Ideal)) (x7 : (⟨S3x128, .f32⟩ : BufTy).Contents (Elt Ideal)) (x8 : (⟨S3x256x128, .f32⟩ : BufTy).Contents (Elt Ideal)) (x9 : (⟨S3x128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) :
    Cert.ReferenceIdeal.ReadP.val_main_v118 (F := Ideal) x0 x1 x2 x3 x4 x5 x6 x7 x8 x9 x10 x11 x12 x13 = Cert.Nmp.G x0 x1 x2 x3 x4 x5 x6 x7 x8 x9 x10 x11 x12 x13 := by
  funext i
  obtain ⟨b, k, rfl⟩ : ∃ (b : Fin 128) (k : Fin 128), i = ix2 b k := ⟨i 0, i 1, eq_ix2 i⟩
  exact v118_at b k

end Cert.NmpRef

end
-- ==== Proof.lean ====
/-
  The proof of `Cert.Claim` for a small graph network on point clouds: 128 clouds of 512 points with 8 features
  each and a weight per point; an embedding of the points by two dense layers; a fixed adjacency between the points
  of a cloud (a softmax over the negated squared distances, the columns of weight not positive pushed down by a large
  constant); three rounds of message passing over that adjacency; a weighted sum over the points and a two-layer
  readout.

  One program computes it in a single region whose grid hands each point four clouds; it folds the four clouds'
  points into one tall matrix for the dense layers and multiplies the update matrix's two halves separately.  The
  other is the plain array program, which joins state and averaged message along the feature axis and multiplies by
  the whole update matrix.  On the extended reals — every operation exact, a change of float format the identity —
  both are the function `Cert.Nmp.G` of the fourteen argument arrays (NmpSpec, NmpArrays):

  * the array program's run ends with its result at the last of its operations read one at a time (RefRun, the line
    taken in seven stretches so that a value read several times is never written out twice), and that last stage is
    `G` index by index (RefNet over RefNetA … RefNetR2): the row maximum as a fold of `max`, the joined product
    split into its two halves (`Cert.Nmp.sum_pair`);
  * the region's body, at row `b` and feature `k` of its output block, is the network on row `b` of its input
    blocks (KerBlock, over KerOps, KerEmb, KerAdjOps, KerAdj, KerRoundOps, KerRound0–2, KerReadout, KerBlockOf):
    reshapes between the tall and the batched layout rename indices, a product into a zero accumulator is the plain
    sum, `0 - x` is `-x`;
  * the blocks the grid points write back are restrictions of one function and tile the output array, and the two
    host reshapes around the region rename indices (KerRun).

  No step uses more of the extended reals than that addition is commutative and associative, so the precondition
  (all inputs finite) is never opened.  The three frame claims are the generated frames (the array program's is its run with the result dropped), and the idealisation rewrote nothing, so `preserves` is `True`.
-/
import proofs.«130221_j58248346468777_2_alg».proof.Defs
import proofs.«130221_j58248346468777_2_alg».proof.Proof.Gen.Kernel
import proofs.«130221_j58248346468777_2_alg».proof.Proof.Gen.Kernel.Frame
import proofs.«130221_j58248346468777_2_alg».proof.Proof.Gen.KernelIdeal
import proofs.«130221_j58248346468777_2_alg».proof.Proof.Gen.KernelIdeal.Frame
import proofs.«130221_j58248346468777_2_alg».proof.Proof.Gen.ReferenceIdeal
import proofs.«130221_j58248346468777_2_alg».proof.Proof.Gen.Pre_finite_inputs
import proofs.«130221_j58248346468777_2_alg».proof.Proof.RefRun
import proofs.«130221_j58248346468777_2_alg».proof.Proof.KerRun
import proofs.«130221_j58248346468777_2_alg».proof.Proof.KerBlock
import proofs.«130221_j58248346468777_2_alg».proof.Proof.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.NmpRun.run (F := Ideal) m ρ)

/-- Both runs end with the result array at `Cert.Nmp.G` of the argument arrays, which agree. -/
theorem algebraic : Cert.algebraic_KernelIdeal_ReferenceIdeal := by
  intro m ρ m' ρ' _ hagree
  refine ⟨fun c => Cert.Nmp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.NmpValue.run m ρ Cert.NmpKer.block_eq, ?_⟩
  refine (θ_run Cert.ReferenceIdeal.defs _ _).mono (fun _ h c => ⟨(h c).1.trans ?_, (h c).2⟩)
    (Cert.ReferenceIdeal.NmpRun.run (F := Ideal) m' ρ')
  rw [Cert.NmpRef.ref_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
